-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S128 .f32) (main_arg5 : FVec F S128x40 .f32) (main_arg6 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg5
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg6
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128 .f32) (main_arg3 : FVec F S128 .f32) (main_arg4 : FVec F S128 .f32) (main_arg5 : FVec F S128x40 .f32) (main_arg6 : FVec F S40 .f32) (main_arg7 : IVec S1600000 32) (main_arg8 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1600000 : Shape := ⟨1, ![1600000]⟩
abbrev S5000x128 : Shape := ⟨2, ![5000, 128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x40 : Shape := ⟨2, ![100000, 40]⟩
abbrev S5000x40 : Shape := ⟨2, ![5000, 40]⟩
abbrev S1700000x40 : Shape := ⟨2, ![1700000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 133
  | .vmem => 26
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128, .f32⟩
  | 4 => ⟨S128, .f32⟩
  | 5 => ⟨S128x40, .f32⟩
  | 6 => ⟨S40, .f32⟩
  | 7 => ⟨S1600000, .i32⟩
  | 8 => ⟨S1600000, .i32⟩
  | 9 => ⟨S100000x128, .f32⟩
  | 10 => ⟨S100000, .i32⟩
  | 11 => ⟨S1700000, .i32⟩
  | 12 => ⟨S1700000, .i32⟩
  | 13 => ⟨S_, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S100000, .f32⟩
  | 25 => ⟨S100000, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000x128, .f32⟩
  | 54 => ⟨S1700000x1, .f32⟩
  | 55 => ⟨S1700000x128, .f32⟩
  | 56 => ⟨S1700000x128, .f32⟩
  | 57 => ⟨S_, .f32⟩
  | 58 => ⟨S100000x128, .f32⟩
  | 59 => ⟨S1700000x1, .i32⟩
  | 60 => ⟨S100000x128, .f32⟩
  | 61 => ⟨S1x128, .f32⟩
  | 62 => ⟨S100000x128, .f32⟩
  | 63 => ⟨S100000x128, .f32⟩
  | 64 => ⟨S1x128, .f32⟩
  | 65 => ⟨S1x128, .f32⟩
  | 66 => ⟨S_, .f32⟩
  | 67 => ⟨S1x128, .f32⟩
  | 68 => ⟨S1x128, .f32⟩
  | 69 => ⟨S_, .f32⟩
  | 70 => ⟨S1x128, .f32⟩
  | 71 => ⟨S1x128, .f32⟩
  | 72 => ⟨S1x128, .f32⟩
  | 73 => ⟨S1x128, .f32⟩
  | 74 => ⟨S1x128, .f32⟩
  | 75 => ⟨S1x128, .f32⟩
  | 76 => ⟨S100000x128, .f32⟩
  | 77 => ⟨S100000x40, .f32⟩
  | 78 => ⟨S100000, .i32⟩
  | 79 => ⟨S1700000, .i32⟩
  | 80 => ⟨S1700000, .i32⟩
  | 81 => ⟨S_, .f32⟩
  | 82 => ⟨S1700000, .f32⟩
  | 83 => ⟨S_, .f32⟩
  | 84 => ⟨S100000, .f32⟩
  | 85 => ⟨S1700000x1, .i32⟩
  | 86 => ⟨S100000, .f32⟩
  | 87 => ⟨S_, .f32⟩
  | 88 => ⟨S100000, .f32⟩
  | 89 => ⟨S100000, .i1⟩
  | 90 => ⟨S100000, .f32⟩
  | 91 => ⟨S_, .f32⟩
  | 92 => ⟨S100000, .f32⟩
  | 93 => ⟨S100000, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000, .f32⟩
  | 103 => ⟨S_, .i32⟩
  | 104 => ⟨S1700000, .i32⟩
  | 105 => ⟨S1700000, .i1⟩
  | 106 => ⟨S_, .i32⟩
  | 107 => ⟨S1700000, .i32⟩
  | 108 => ⟨S1700000, .i32⟩
  | 109 => ⟨S1700000, .i32⟩
  | 110 => ⟨S1700000x1, .i32⟩
  | 111 => ⟨S1700000, .f32⟩
  | 112 => ⟨S1700000, .f32⟩
  | 113 => ⟨S_, .i32⟩
  | 114 => ⟨S1700000, .i32⟩
  | 115 => ⟨S1700000, .i1⟩
  | 116 => ⟨S_, .i32⟩
  | 117 => ⟨S1700000, .i32⟩
  | 118 => ⟨S1700000, .i32⟩
  | 119 => ⟨S1700000, .i32⟩
  | 120 => ⟨S1700000x1, .i32⟩
  | 121 => ⟨S1700000x40, .f32⟩
  | 122 => ⟨S1700000x1, .f32⟩
  | 123 => ⟨S1700000x40, .f32⟩
  | 124 => ⟨S1700000x40, .f32⟩
  | 125 => ⟨S_, .f32⟩
  | 126 => ⟨S100000x40, .f32⟩
  | 127 => ⟨S1700000x1, .i32⟩
  | _ => ⟨S100000x128, .f32⟩

abbrev hbmTy0_1 (i : Nat) : BufTy := match i % 128 with
  | 0 => ⟨S100000x40, .f32⟩
  | 1 => ⟨S1x40, .f32⟩
  | 2 => ⟨S100000x40, .f32⟩
  | 3 => ⟨S100000x40, .f32⟩
  | 4 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x40, .f32⟩
  | .local _ .vmem, ⟨20, _⟩ => ⟨S5000x40, .f32⟩
  | .local _ .vmem, ⟨21, _⟩ => ⟨S5000x40, .f32⟩
  | .local _ .vmem, ⟨22, _⟩ => ⟨S5000x40, .f32⟩
  | .local _ .vmem, ⟨23, _⟩ => ⟨S5000x40, .f32⟩
  | .local _ .vmem, ⟨24, _⟩ => ⟨S5000x40, .f32⟩
  | .local _ .vmem, ⟨25, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_call0_v0 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43_0 : Ref sig .tc := ⟨.hbm, 64, rfl⟩
abbrev main_v43_1 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_cst_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_13 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_14 : Ref sig .tc := ⟨.hbm, 91, rfl⟩
abbrev main_call1_v0 : Ref sig .tc := ⟨.hbm, 92, rfl⟩
abbrev main_v64 : Ref sig .tc := ⟨.hbm, 93, rfl⟩
abbrev main_c_15 : Ref sig .tc := ⟨.hbm, 94, rfl⟩
abbrev main_v65 : Ref sig .tc := ⟨.hbm, 95, rfl⟩
abbrev main_v66 : Ref sig .tc := ⟨.hbm, 96, rfl⟩
abbrev main_c_16 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_c_19 : Ref sig .tc := ⟨.hbm, 113, rfl⟩
abbrev main_v80 : Ref sig .tc := ⟨.hbm, 114, rfl⟩
abbrev main_v81 : Ref sig .tc := ⟨.hbm, 115, rfl⟩
abbrev main_c_20 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_21 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg5_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x40 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x40 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  reduces_S5000x128_S128 : S5000x128.Reduces [0] S128
  shapeCasts_S128_S1x128 : S128.ShapeCasts S1x128
  bcast_S_S1x128 : S_.BroadcastsInDim S1x128 (![] : Fin 0 → Fin S1x128.rank)
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  shapeCasts_S5000x40_S5000x40 : S5000x40.ShapeCasts S5000x40
  reduces_S5000x40_S5000 : S5000x40.Reduces [1] S5000
  shapeCasts_S5000_S5000x1 : S5000.ShapeCasts S5000x1
  broadcasts_S5000x1_S5000x40 : S5000x1.Broadcasts S5000x40
  dot_S5000x128_S128x128_S5000x128_1_0_0_1_n_n_wf : DotDims.WF S5000x128 S128x128 S5000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x40_S5000x40_1_0_0_1_n_n_wf : DotDims.WF S5000x128 S128x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x40.size a ≤ S128x40.size a
  hwx3_1 : ∀ i : grid3.Coords, EltTy.bits .f32 = 32 ∨ (Rect.block (s := S128x40) S128x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x40.size a ≤ S100000x40.size a
  hwx3_2 : ∀ i : grid3.Coords, EltTy.bits .f32 = 32 ∨ (Rect.block (s := S100000x40) S5000x40.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x40.size a ≤ S100000x40.size a
  hwx4_0 : ∀ i : grid4.Coords, EltTy.bits .f32 = 32 ∨ (Rect.block (s := S100000x40) S5000x40.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x40.size a ≤ S100000x40.size a
  hwx4_1 : ∀ i : grid4.Coords, EltTy.bits .f32 = 32 ∨ (Rect.block (s := S100000x40) S5000x40.size (cc4_transform_1 i) (hinb4_1 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v52) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S5000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v95) S5000x40.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v96) S5000x40.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 167
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128, .f32⟩
  | 4 => ⟨S128, .f32⟩
  | 5 => ⟨S128x40, .f32⟩
  | 6 => ⟨S40, .f32⟩
  | 7 => ⟨S1600000, .i32⟩
  | 8 => ⟨S1600000, .i32⟩
  | 9 => ⟨S100000x128, .f32⟩
  | 10 => ⟨S100000, .i32⟩
  | 11 => ⟨S1700000, .i32⟩
  | 12 => ⟨S1700000, .i32⟩
  | 13 => ⟨S_, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S100000, .f32⟩
  | 25 => ⟨S100000, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000x128, .f32⟩
  | 54 => ⟨S1700000x1, .f32⟩
  | 55 => ⟨S1700000x128, .f32⟩
  | 56 => ⟨S1700000x128, .f32⟩
  | 57 => ⟨S_, .f32⟩
  | 58 => ⟨S100000x128, .f32⟩
  | 59 => ⟨S1700000x1, .i32⟩
  | 60 => ⟨S100000x128, .f32⟩
  | 61 => ⟨S1x128, .f32⟩
  | 62 => ⟨S100000x128, .f32⟩
  | 63 => ⟨S100000x128, .f32⟩
  | 64 => ⟨S_, .f32⟩
  | 65 => ⟨S128, .f32⟩
  | 66 => ⟨S_, .f32⟩
  | 67 => ⟨S128, .f32⟩
  | 68 => ⟨S128, .f32⟩
  | 69 => ⟨S1x128, .f32⟩
  | 70 => ⟨S100000x128, .f32⟩
  | 71 => ⟨S100000x128, .f32⟩
  | 72 => ⟨S100000x128, .f32⟩
  | 73 => ⟨S_, .f32⟩
  | 74 => ⟨S128, .f32⟩
  | 75 => ⟨S_, .f32⟩
  | 76 => ⟨S128, .f32⟩
  | 77 => ⟨S128, .f32⟩
  | 78 => ⟨S1x128, .f32⟩
  | 79 => ⟨S100000x128, .f32⟩
  | 80 => ⟨S100000x128, .f32⟩
  | 81 => ⟨S_, .f32⟩
  | 82 => ⟨S128, .f32⟩
  | 83 => ⟨S128, .f32⟩
  | 84 => ⟨S128, .f32⟩
  | 85 => ⟨S1x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S100000x40, .f32⟩
  | 98 => ⟨S100000, .i32⟩
  | 99 => ⟨S1700000, .i32⟩
  | 100 => ⟨S1700000, .i32⟩
  | 101 => ⟨S_, .f32⟩
  | 102 => ⟨S1700000, .f32⟩
  | 103 => ⟨S_, .f32⟩
  | 104 => ⟨S100000, .f32⟩
  | 105 => ⟨S1700000x1, .i32⟩
  | 106 => ⟨S100000, .f32⟩
  | 107 => ⟨S_, .f32⟩
  | 108 => ⟨S100000, .f32⟩
  | 109 => ⟨S100000, .i1⟩
  | 110 => ⟨S100000, .f32⟩
  | 111 => ⟨S_, .f32⟩
  | 112 => ⟨S100000, .f32⟩
  | 113 => ⟨S100000, .f32⟩
  | 114 => ⟨S_, .i32⟩
  | 115 => ⟨S1700000, .i32⟩
  | 116 => ⟨S1700000, .i1⟩
  | 117 => ⟨S_, .i32⟩
  | 118 => ⟨S1700000, .i32⟩
  | 119 => ⟨S1700000, .i32⟩
  | 120 => ⟨S1700000, .i32⟩
  | 121 => ⟨S1700000x1, .i32⟩
  | 122 => ⟨S1700000, .f32⟩
  | 123 => ⟨S_, .i32⟩
  | 124 => ⟨S1700000, .i32⟩
  | 125 => ⟨S1700000, .i1⟩
  | 126 => ⟨S_, .i32⟩
  | 127 => ⟨S1700000, .i32⟩
  | _ => ⟨S100000x128, .f32⟩

abbrev hbmTy0_1 (i : Nat) : BufTy := match i % 128 with
  | 0 => ⟨S1700000, .i32⟩
  | 1 => ⟨S1700000, .i32⟩
  | 2 => ⟨S1700000x1, .i32⟩
  | 3 => ⟨S1700000, .f32⟩
  | 4 => ⟨S1700000, .f32⟩
  | 5 => ⟨S_, .i32⟩
  | 6 => ⟨S1700000, .i32⟩
  | 7 => ⟨S1700000, .i1⟩
  | 8 => ⟨S_, .i32⟩
  | 9 => ⟨S1700000, .i32⟩
  | 10 => ⟨S1700000, .i32⟩
  | 11 => ⟨S1700000, .i32⟩
  | 12 => ⟨S1700000x1, .i32⟩
  | 13 => ⟨S1700000x40, .f32⟩
  | 14 => ⟨S1700000x1, .f32⟩
  | 15 => ⟨S1700000x40, .f32⟩
  | 16 => ⟨S1700000x40, .f32⟩
  | 17 => ⟨S_, .f32⟩
  | 18 => ⟨S100000x40, .f32⟩
  | 19 => ⟨S1700000x1, .i32⟩
  | 20 => ⟨S100000x40, .f32⟩
  | 21 => ⟨S1x40, .f32⟩
  | 22 => ⟨S100000x40, .f32⟩
  | 23 => ⟨S100000x40, .f32⟩
  | 24 => ⟨S_, .f32⟩
  | 25 => ⟨S100000, .f32⟩
  | 26 => ⟨S_, .f32⟩
  | 27 => ⟨S100000, .f32⟩
  | 28 => ⟨S100000, .f32⟩
  | 29 => ⟨S100000x1, .f32⟩
  | 30 => ⟨S100000x40, .f32⟩
  | 31 => ⟨S100000x40, .f32⟩
  | 32 => ⟨S100000x40, .f32⟩
  | 33 => ⟨S_, .f32⟩
  | 34 => ⟨S100000, .f32⟩
  | 35 => ⟨S100000x1, .f32⟩
  | 36 => ⟨S100000x1, .f32⟩
  | 37 => ⟨S100000x40, .f32⟩
  | 38 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_call0_v0 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_cst_12 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_13 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_call1_cst : Ref sig .tc := ⟨.hbm, 94, rfl⟩
abbrev main_call1_v0 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_14 : Ref sig .tc := ⟨.hbm, 101, rfl⟩
abbrev main_v73 : Ref sig .tc := ⟨.hbm, 102, rfl⟩
abbrev main_cst_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_16 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_17 : Ref sig .tc := ⟨.hbm, 111, rfl⟩
abbrev main_call2_v0 : Ref sig .tc := ⟨.hbm, 112, rfl⟩
abbrev main_v80 : Ref sig .tc := ⟨.hbm, 113, rfl⟩
abbrev main_c_18 : Ref sig .tc := ⟨.hbm, 114, rfl⟩
abbrev main_v81 : Ref sig .tc := ⟨.hbm, 115, rfl⟩
abbrev main_v82 : Ref sig .tc := ⟨.hbm, 116, rfl⟩
abbrev main_c_19 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_c_20 : Ref sig .tc := ⟨.hbm, 123, rfl⟩
abbrev main_v88 : Ref sig .tc := ⟨.hbm, 124, rfl⟩
abbrev main_v89 : Ref sig .tc := ⟨.hbm, 125, rfl⟩
abbrev main_c_21 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_c_22 : Ref sig .tc := ⟨.hbm, 133, rfl⟩
abbrev main_v96 : Ref sig .tc := ⟨.hbm, 134, rfl⟩
abbrev main_v97 : Ref sig .tc := ⟨.hbm, 135, rfl⟩
abbrev main_c_23 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_24 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_call3_cst : Ref sig .tc := ⟨.hbm, 152, rfl⟩
abbrev main_call3_v0 : Ref sig .tc := ⟨.hbm, 153, rfl⟩
abbrev main_call3_cst_0 : Ref sig .tc := ⟨.hbm, 154, rfl⟩
abbrev main_call3_v1 : Ref sig .tc := ⟨.hbm, 155, rfl⟩
abbrev main_call3_v2 : Ref sig .tc := ⟨.hbm, 156, rfl⟩
abbrev main_call3_v3 : Ref sig .tc := ⟨.hbm, 157, rfl⟩
abbrev main_call3_v4 : Ref sig .tc := ⟨.hbm, 158, rfl⟩
abbrev main_call3_v5 : Ref sig .tc := ⟨.hbm, 159, rfl⟩
abbrev main_call3_v6 : Ref sig .tc := ⟨.hbm, 160, rfl⟩
abbrev main_call3_cst_1 : Ref sig .tc := ⟨.hbm, 161, rfl⟩
abbrev main_call3_v7 : Ref sig .tc := ⟨.hbm, 162, rfl⟩
abbrev main_call3_v8 : Ref sig .tc := ⟨.hbm, 163, rfl⟩
abbrev main_call3_v9 : Ref sig .tc := ⟨.hbm, 164, rfl⟩
abbrev main_call3_v10 : Ref sig .tc := ⟨.hbm, 165, rfl⟩
abbrev main_v112 : Ref sig .tc := ⟨.hbm, 166, rfl⟩

abbrev nD : Nat := 1
abbrev τ : Topo := Topo.v7x

variable {F : FTy → Type} [FloatOps F]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.LibFinish.lean ====
/-
  Reading a fold of host operations at a buffer: the library's one-pass reading rewrites each operation's result at its
  own buffer and at any other buffer, but it does not enter the operands of a concatenation, which sit in a list of
  shape-indexed pairs. The tactic here finishes those by the same two kinds of rewrite, one at a time.
-/
import Idealize.ShloMosaic.Lib.StableHlo.Run

namespace Cert.LibFinish

open Idealize.ShloMosaic

/-- Rewrites every remaining `(op).result V b`: to the operation's function of its operands' contents when `b` is the
    buffer the operation writes, to `V b` otherwise (the buffers' inequality decided). -/
macro "finish_results" : tactic =>
  `(tactic| repeat (first
      | rw [StableHlo.nullary_result] | rw [StableHlo.unary_result] | rw [StableHlo.binary_result] | rw [StableHlo.ternary_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide)))

end Cert.LibFinish
-- ==== Proof.LibTypedRef.lean ====
/-
  An inlined call's operations are the plain ones, no program in sight.

  A called function's host operations name their buffers by references that CARRY the tensor type of the value they hold,
  and move the operation's function to the buffers' own types along the equation "the buffer's type is the carried
  type". When that equation is the identity — which it is at every literal reference — the typed operation IS the plain
  builder's at the same buffers with the same function. The proof destructures each typed reference so that the carried
  type becomes, literally, the buffer's type: the transports are then along reflexivity and disappear. The function is
  given twice, at the two spellings of its type (over the carried types, over the buffers' types), and the two are
  related by heterogeneous equality; at literal references that relation is reflexivity, because the two types compute
  to the same one.

  Why bother: a fold of many operations read at a buffer contains one transport per typed operand, and comparing such a
  term with a transport-free one makes the checker recompute a buffer's type from the signature's tables at every
  transport, nested. Entry by entry the same facts cost one such computation per operand. So a list of operations is
  first rewritten, entry by entry, to its plain spelling (the tactic at the end), and only then folded.
-/
import Idealize.ShloMosaic.Lib.StableHlo

namespace Cert.LibTypedRef

open Idealize.ShloMosaic Idealize.ShloMosaic.StableHlo

variable {τ : Topo} {sig : RefSig} {Val : EltTy → Type} {Tx Ta Tb Tc Ty : BufTy}

/-- A typed constant-like operation is the plain one at its buffer, for the same value. -/
theorem tnullary_eq (y : TRef sig Ty) (v : Ty.Contents Val) (w : y.ref.ty.Contents Val) (h : HEq v w) :
    (TRef.nullary y v : HloOp τ sig Val) = StableHlo.nullary y.ref w y.dev := by
  obtain ⟨y, rfl, _, _⟩ := y
  cases h; rfl

/-- A typed one-operand operation is the plain one at its buffers, for the same function. -/
theorem tunary_eq (x : TRef sig Tx) (y : TRef sig Ty) (f : Tx.Contents Val → Ty.Contents Val)
    (g : x.ref.ty.Contents Val → y.ref.ty.Contents Val) (h : HEq f g) :
    (TRef.unary x y f : HloOp τ sig Val) = StableHlo.unary x.ref y.ref g x.dev y.dev := by
  obtain ⟨x, rfl, _, _⟩ := x
  obtain ⟨y, rfl, _, _⟩ := y
  cases h; rfl

/-- A typed two-operand operation is the plain one at its buffers, for the same function. -/
theorem tbinary_eq (a : TRef sig Ta) (b : TRef sig Tb) (y : TRef sig Ty)
    (f : Ta.Contents Val → Tb.Contents Val → Ty.Contents Val)
    (g : a.ref.ty.Contents Val → b.ref.ty.Contents Val → y.ref.ty.Contents Val) (h : HEq f g) :
    (TRef.binary a b y f : HloOp τ sig Val) = StableHlo.binary a.ref b.ref y.ref g a.dev b.dev y.dev := by
  obtain ⟨a, rfl, _, _⟩ := a
  obtain ⟨b, rfl, _, _⟩ := b
  obtain ⟨y, rfl, _, _⟩ := y
  cases h; rfl

/-- A typed three-operand operation is the plain one at its buffers, for the same function. -/
theorem tternary_eq (c : TRef sig Tc) (a : TRef sig Ta) (b : TRef sig Tb) (y : TRef sig Ty)
    (f : Tc.Contents Val → Ta.Contents Val → Tb.Contents Val → Ty.Contents Val)
    (g : c.ref.ty.Contents Val → a.ref.ty.Contents Val → b.ref.ty.Contents Val → y.ref.ty.Contents Val) (h : HEq f g) :
    (TRef.ternary c a b y f : HloOp τ sig Val)
      = StableHlo.ternary c.ref a.ref b.ref y.ref g c.dev a.dev b.dev y.dev := by
  obtain ⟨c, rfl, _, _⟩ := c
  obtain ⟨a, rfl, _, _⟩ := a
  obtain ⟨b, rfl, _, _⟩ := b
  obtain ⟨y, rfl, _, _⟩ := y
  cases h; rfl

/-- Two literal lists of operations are equal entry by entry: an entry spelt the same on both sides by reflexivity
    (at reducible transparency, so that a typed entry is never compared with a plain one by computation), a typed
    operation against its plain spelling by the four lemmas above. Closes `[e₁, …, eₙ] = [p₁, …, pₙ]`. -/
macro "ops_entries" : tactic =>
  `(tactic| repeat (first
      | refine congrArg₂ List.cons (by first
          | with_reducible rfl
          | exact Cert.LibTypedRef.tnullary_eq _ _ _ HEq.rfl
          | exact Cert.LibTypedRef.tunary_eq _ _ _ _ HEq.rfl
          | exact Cert.LibTypedRef.tbinary_eq _ _ _ _ _ HEq.rfl
          | exact Cert.LibTypedRef.tternary_eq _ _ _ _ _ _ HEq.rfl) ?_
      | exact rfl))

end Cert.LibTypedRef
-- ==== Proof.RefBack.lean ====
/-
  The reference's run read back: after the reference's 158 host operations its result buffer holds the composed
  function of the arguments that the one-operation-at-a-time definitions (val_main_vN) spell. The read-back goes in four
  stages — the first aggregation layer, the normalization and rectification, the second product and aggregation, the
  log-softmax —, each stage read from ANY contents of the buffers it starts from: a stage's result is the stage
  definitions' function of what the earlier stages left. The operations of the inlined calls (the two selects, the
  rectification, the log-softmax) are spelt in the stages with the plain builders; that they are the program's typed
  ones is shown entry by entry, so that no transport along a buffer's type ever enters a folded term.
-/
import proofs.«113947_j66245575574019_1_alg».proof.Proof.RefRun
import proofs.«113947_j66245575574019_1_alg».proof.Proof.RefRead
import proofs.«113947_j66245575574019_1_alg».proof.Proof.LibFinish
import proofs.«113947_j66245575574019_1_alg».proof.Proof.LibTypedRef

set_option maxRecDepth 65536

noncomputable section

namespace Cert.ReferenceIdeal.Back

open Cert.LibFinish Cert.LibTypedRef

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

/-- Operations run one list after another are the concatenation run as one. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

variable {F : FTy → Type} [FloatOps F]

/-- The first aggregation layer: the operations up to the first layer's output (an inlined call's operations spelt with
    the plain builders, here and in the three lists below). -/
abbrev opsA : List (HloOp τ sig (Elt F)) :=
  [ binary main_arg0 main_arg1 main_v0 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_v1 (iotaInDim S100000 32 0),
    binary main_arg7 main_v1 main_v2 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_arg8 main_v1 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v4 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S1700000x1 ![0] bcast_S1700000_S1700000x1_0 : (⟨S1700000, .i32⟩ : BufTy).Contents (Elt F) → (⟨S1700000x1, .i32⟩ : BufTy).Contents (Elt F)),
    ternary main_v5 main_v6 main_v4 main_v7 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (cmpf .ogt : (⟨S100000, .f32⟩ : BufTy).Contents (Elt F) → (⟨S100000, .f32⟩ : BufTy).Contents (Elt F) → (⟨S100000, .i1⟩ : BufTy).Contents (Elt F)),
    unary main_v7 main_v10 (Host.rsqrt : (⟨S100000, .f32⟩ : BufTy).Contents (Elt F) → (⟨S100000, .f32⟩ : BufTy).Contents (Elt F)),
    nullary main_cst_2 (constant S_ .f32 0x00000000#32),
    unary main_cst_2 main_call0_v0 (((broadcastInDim S100000 ![] bcast_S_S100000)) : (⟨S_, .f32⟩ : BufTy).Contents (Elt F) → (⟨S100000, .f32⟩ : BufTy).Contents (Elt F)),
    ternary main_v9 main_v10 main_call0_v0 main_v11 ((select) : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    nullary main_c (constantI S_ 32 0#32),
    unary main_c main_v12 (broadcastInDim S1700000 ![] bcast_S_S1700000 : (⟨S_, .i32⟩ : BufTy).Contents (Elt F) → (⟨S1700000, .i32⟩ : BufTy).Contents (Elt F)),
    binary main_v2 main_v12 main_v13 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v14 (broadcastInDim S1700000 ![] bcast_S_S1700000 : (⟨S_, .i32⟩ : BufTy).Contents (Elt F) → (⟨S1700000, .i32⟩ : BufTy).Contents (Elt F)),
    binary main_v2 main_v14 main_v15 (addi : (⟨S1700000, .i32⟩ : BufTy).Contents (Elt F) → (⟨S1700000, .i32⟩ : BufTy).Contents (Elt F) → (⟨S1700000, .i32⟩ : BufTy).Contents (Elt F)),
    ternary main_v13 main_v15 main_v2 main_v16 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v16 main_v17 (broadcastInDim S1700000x1 ![0] bcast_S1700000_S1700000x1_0 : (⟨S1700000, .i32⟩ : BufTy).Contents (Elt F) → (⟨S1700000x1, .i32⟩ : BufTy).Contents (Elt F)),
    binary main_v11 main_v17 main_v18 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v19 (broadcastInDim S1700000 ![] bcast_S_S1700000 : (⟨S_, .i32⟩ : BufTy).Contents (Elt F) → (⟨S1700000, .i32⟩ : BufTy).Contents (Elt F)),
    binary main_v3 main_v19 main_v20 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v21 (broadcastInDim S1700000 ![] bcast_S_S1700000 : (⟨S_, .i32⟩ : BufTy).Contents (Elt F) → (⟨S1700000, .i32⟩ : BufTy).Contents (Elt F)),
    binary main_v3 main_v21 main_v22 (addi : (⟨S1700000, .i32⟩ : BufTy).Contents (Elt F) → (⟨S1700000, .i32⟩ : BufTy).Contents (Elt F) → (⟨S1700000, .i32⟩ : BufTy).Contents (Elt F)),
    ternary main_v20 main_v22 main_v3 main_v23 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v23 main_v24 (broadcastInDim S1700000x1 ![0] bcast_S1700000_S1700000x1_0 : (⟨S1700000, .i32⟩ : BufTy).Contents (Elt F) → (⟨S1700000x1, .i32⟩ : BufTy).Contents (Elt F)),
    binary main_v11 main_v24 main_v25 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v18 main_v25 main_v26 (mulf : (⟨S1700000, .f32⟩ : BufTy).Contents (Elt F) → (⟨S1700000, .f32⟩ : BufTy).Contents (Elt F) → (⟨S1700000, .f32⟩ : BufTy).Contents (Elt F)),
    nullary main_c_6 (constantI S_ 32 0#32),
    unary main_c_6 main_v27 (broadcastInDim S1700000 ![] bcast_S_S1700000 : (⟨S_, .i32⟩ : BufTy).Contents (Elt F) → (⟨S1700000, .i32⟩ : BufTy).Contents (Elt F)),
    binary main_v2 main_v27 main_v28 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v29 (broadcastInDim S1700000 ![] bcast_S_S1700000 : (⟨S_, .i32⟩ : BufTy).Contents (Elt F) → (⟨S1700000, .i32⟩ : BufTy).Contents (Elt F)),
    binary main_v2 main_v29 main_v30 (addi : (⟨S1700000, .i32⟩ : BufTy).Contents (Elt F) → (⟨S1700000, .i32⟩ : BufTy).Contents (Elt F) → (⟨S1700000, .i32⟩ : BufTy).Contents (Elt F)),
    ternary main_v28 main_v30 main_v2 main_v31 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v31 main_v32 (broadcastInDim S1700000x1 ![0] bcast_S1700000_S1700000x1_0 : (⟨S1700000, .i32⟩ : BufTy).Contents (Elt F) → (⟨S1700000x1, .i32⟩ : BufTy).Contents (Elt F)),
    binary main_v0 main_v32 main_v33 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v26 main_v34 (broadcastInDim S1700000x1 ![0] bcast_S1700000_S1700000x1_0 : (⟨S1700000, .f32⟩ : BufTy).Contents (Elt F) → (⟨S1700000x1, .f32⟩ : BufTy).Contents (Elt F)),
    unary main_v34 main_v35 (broadcastInDim S1700000x128 ![0, 1] bcast_S1700000x1_S1700000x128_0_1 : (⟨S1700000x1, .f32⟩ : BufTy).Contents (Elt F) → (⟨S1700000x128, .f32⟩ : BufTy).Contents (Elt F)),
    binary main_v33 main_v35 main_v36 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v37 (broadcastInDim S100000x128 ![] bcast_S_S100000x128 : (⟨S_, .f32⟩ : BufTy).Contents (Elt F) → (⟨S100000x128, .f32⟩ : BufTy).Contents (Elt F)),
    unary main_v3 main_v38 (broadcastInDim S1700000x1 ![0] bcast_S1700000_S1700000x1_0 : (⟨S1700000, .i32⟩ : BufTy).Contents (Elt F) → (⟨S1700000x1, .i32⟩ : BufTy).Contents (Elt F)),
    ternary main_v37 main_v38 main_v36 main_v39 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg2 main_v40 (broadcastInDim S1x128 ![1] bcast_S128_S1x128_1 : (⟨S128, .f32⟩ : BufTy).Contents (Elt F) → (⟨S1x128, .f32⟩ : BufTy).Contents (Elt F)),
    unary main_v40 main_v41 (broadcastInDim S100000x128 ![0, 1] bcast_S1x128_S100000x128_0_1 : (⟨S1x128, .f32⟩ : BufTy).Contents (Elt F) → (⟨S100000x128, .f32⟩ : BufTy).Contents (Elt F)),
    binary main_v39 main_v41 main_v42 (addf : (⟨S100000x128, .f32⟩ : BufTy).Contents (Elt F) → (⟨S100000x128, .f32⟩ : BufTy).Contents (Elt F) → (⟨S100000x128, .f32⟩ : BufTy).Contents (Elt F)) ]

/-- The normalization and rectification. -/
abbrev opsB : List (HloOp τ sig (Elt F)) :=
  [ nullary main_cst_9 (constant S_ .f32 0x00000000#32),
    binary main_v42 main_cst_9 main_v43 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_10 (constant S_ .f32 0x47C35000#32),
    unary main_cst_10 main_v44 (broadcastInDim S128 ![] bcast_S_S128 : (⟨S_, .f32⟩ : BufTy).Contents (Elt F) → (⟨S128, .f32⟩ : BufTy).Contents (Elt F)),
    binary main_v43 main_v44 main_v45 (Host.divf : (⟨S128, .f32⟩ : BufTy).Contents (Elt F) → (⟨S128, .f32⟩ : BufTy).Contents (Elt F) → (⟨S128, .f32⟩ : BufTy).Contents (Elt F)),
    unary main_v45 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v42 main_v47 main_v48 (subf : (⟨S100000x128, .f32⟩ : BufTy).Contents (Elt F) → (⟨S100000x128, .f32⟩ : BufTy).Contents (Elt F) → (⟨S100000x128, .f32⟩ : BufTy).Contents (Elt F)),
    binary main_v48 main_v48 main_v49 (mulf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x00000000#32),
    binary main_v49 main_cst_11 main_v50 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_12 (constant S_ .f32 0x47C35000#32),
    unary main_cst_12 main_v51 (broadcastInDim S128 ![] bcast_S_S128 : (⟨S_, .f32⟩ : BufTy).Contents (Elt F) → (⟨S128, .f32⟩ : BufTy).Contents (Elt F)),
    binary main_v50 main_v51 main_v52 (Host.divf : (⟨S128, .f32⟩ : BufTy).Contents (Elt F) → (⟨S128, .f32⟩ : BufTy).Contents (Elt F) → (⟨S128, .f32⟩ : BufTy).Contents (Elt F)),
    unary main_v45 main_v53 (broadcastInDim S1x128 ![1] bcast_S128_S1x128_1 : (⟨S128, .f32⟩ : BufTy).Contents (Elt F) → (⟨S1x128, .f32⟩ : BufTy).Contents (Elt F)),
    unary main_v53 main_v54 (broadcastInDim S100000x128 ![0, 1] bcast_S1x128_S100000x128_0_1 : (⟨S1x128, .f32⟩ : BufTy).Contents (Elt F) → (⟨S100000x128, .f32⟩ : BufTy).Contents (Elt F)),
    binary main_v42 main_v54 main_v55 (subf : (⟨S100000x128, .f32⟩ : BufTy).Contents (Elt F) → (⟨S100000x128, .f32⟩ : BufTy).Contents (Elt F) → (⟨S100000x128, .f32⟩ : BufTy).Contents (Elt F)),
    nullary main_cst_13 (constant S_ .f32 0x3727C5AC#32),
    unary main_cst_13 main_v56 (broadcastInDim S128 ![] bcast_S_S128 : (⟨S_, .f32⟩ : BufTy).Contents (Elt F) → (⟨S128, .f32⟩ : BufTy).Contents (Elt F)),
    binary main_v52 main_v56 main_v57 (addf : (⟨S128, .f32⟩ : BufTy).Contents (Elt F) → (⟨S128, .f32⟩ : BufTy).Contents (Elt F) → (⟨S128, .f32⟩ : BufTy).Contents (Elt F)),
    unary main_v57 main_v58 (Host.rsqrt : (⟨S128, .f32⟩ : BufTy).Contents (Elt F) → (⟨S128, .f32⟩ : BufTy).Contents (Elt F)),
    unary main_v58 main_v59 (broadcastInDim S1x128 ![1] bcast_S128_S1x128_1 : (⟨S128, .f32⟩ : BufTy).Contents (Elt F) → (⟨S1x128, .f32⟩ : BufTy).Contents (Elt F)),
    unary main_v59 main_v60 (broadcastInDim S100000x128 ![0, 1] bcast_S1x128_S100000x128_0_1 : (⟨S1x128, .f32⟩ : BufTy).Contents (Elt F) → (⟨S100000x128, .f32⟩ : BufTy).Contents (Elt F)),
    binary main_v55 main_v60 main_v61 (mulf : (⟨S100000x128, .f32⟩ : BufTy).Contents (Elt F) → (⟨S100000x128, .f32⟩ : BufTy).Contents (Elt F) → (⟨S100000x128, .f32⟩ : BufTy).Contents (Elt F)),
    unary main_arg3 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v61 main_v63 main_v64 (mulf : (⟨S100000x128, .f32⟩ : BufTy).Contents (Elt F) → (⟨S100000x128, .f32⟩ : BufTy).Contents (Elt F) → (⟨S100000x128, .f32⟩ : BufTy).Contents (Elt F)),
    unary main_arg4 main_v65 (broadcastInDim S1x128 ![1] bcast_S128_S1x128_1 : (⟨S128, .f32⟩ : BufTy).Contents (Elt F) → (⟨S1x128, .f32⟩ : BufTy).Contents (Elt F)),
    unary main_v65 main_v66 (broadcastInDim S100000x128 ![0, 1] bcast_S1x128_S100000x128_0_1 : (⟨S1x128, .f32⟩ : BufTy).Contents (Elt F) → (⟨S100000x128, .f32⟩ : BufTy).Contents (Elt F)),
    binary main_v64 main_v66 main_v67 (addf : (⟨S100000x128, .f32⟩ : BufTy).Contents (Elt F) → (⟨S100000x128, .f32⟩ : BufTy).Contents (Elt F) → (⟨S100000x128, .f32⟩ : BufTy).Contents (Elt F)),
    nullary main_call1_cst (constant S_ .f32 0x00000000#32 : (⟨S_, .f32⟩ : BufTy).Contents (Elt F)),
    unary main_call1_cst main_call1_v0 (((broadcastInDim S100000x128 ![] bcast_S_S100000x128)) : (⟨S_, .f32⟩ : BufTy).Contents (Elt F) → (⟨S100000x128, .f32⟩ : BufTy).Contents (Elt F)),
    binary main_v67 main_call1_v0 main_v68 ((maximumf) : (⟨S100000x128, .f32⟩ : BufTy).Contents (Elt F) → (⟨S100000x128, .f32⟩ : BufTy).Contents (Elt F) → (⟨S100000x128, .f32⟩ : BufTy).Contents (Elt F)) ]

/-- The second product and aggregation. -/
abbrev opsC : List (HloOp τ sig (Elt F)) :=
  [ binary main_v68 main_arg5 main_v69 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    nullary main_v70 (iotaInDim S100000 32 0),
    binary main_arg7 main_v70 main_v71 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_arg8 main_v70 main_v72 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_14 (constant S_ .f32 0x3F800000#32),
    unary main_cst_14 main_v73 (broadcastInDim S1700000 ![] bcast_S_S1700000 : (⟨S_, .f32⟩ : BufTy).Contents (Elt F) → (⟨S1700000, .f32⟩ : BufTy).Contents (Elt F)),
    nullary main_cst_15 (constant S_ .f32 0x00000000#32),
    unary main_cst_15 main_v74 (broadcastInDim S100000 ![] bcast_S_S100000 : (⟨S_, .f32⟩ : BufTy).Contents (Elt F) → (⟨S100000, .f32⟩ : BufTy).Contents (Elt F)),
    unary main_v72 main_v75 (broadcastInDim S1700000x1 ![0] bcast_S1700000_S1700000x1_0 : (⟨S1700000, .i32⟩ : BufTy).Contents (Elt F) → (⟨S1700000x1, .i32⟩ : BufTy).Contents (Elt F)),
    ternary main_v74 main_v75 main_v73 main_v76 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_16 (constant S_ .f32 0x00000000#32),
    unary main_cst_16 main_v77 (broadcastInDim S100000 ![] bcast_S_S100000 : (⟨S_, .f32⟩ : BufTy).Contents (Elt F) → (⟨S100000, .f32⟩ : BufTy).Contents (Elt F)),
    binary main_v76 main_v77 main_v78 (cmpf .ogt : (⟨S100000, .f32⟩ : BufTy).Contents (Elt F) → (⟨S100000, .f32⟩ : BufTy).Contents (Elt F) → (⟨S100000, .i1⟩ : BufTy).Contents (Elt F)),
    unary main_v76 main_v79 (Host.rsqrt : (⟨S100000, .f32⟩ : BufTy).Contents (Elt F) → (⟨S100000, .f32⟩ : BufTy).Contents (Elt F)),
    nullary main_cst_17 (constant S_ .f32 0x00000000#32),
    unary main_cst_17 main_call2_v0 (((broadcastInDim S100000 ![] bcast_S_S100000)) : (⟨S_, .f32⟩ : BufTy).Contents (Elt F) → (⟨S100000, .f32⟩ : BufTy).Contents (Elt F)),
    ternary main_v78 main_v79 main_call2_v0 main_v80 ((select) : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    nullary main_c_18 (constantI S_ 32 0#32),
    unary main_c_18 main_v81 (broadcastInDim S1700000 ![] bcast_S_S1700000 : (⟨S_, .i32⟩ : BufTy).Contents (Elt F) → (⟨S1700000, .i32⟩ : BufTy).Contents (Elt F)),
    binary main_v71 main_v81 main_v82 (cmpi .slt : (⟨S1700000, .i32⟩ : BufTy).Contents (Elt F) → (⟨S1700000, .i32⟩ : BufTy).Contents (Elt F) → (⟨S1700000, .i1⟩ : BufTy).Contents (Elt F)),
    nullary main_c_19 (constantI S_ 32 100000#32),
    unary main_c_19 main_v83 (broadcastInDim S1700000 ![] bcast_S_S1700000 : (⟨S_, .i32⟩ : BufTy).Contents (Elt F) → (⟨S1700000, .i32⟩ : BufTy).Contents (Elt F)),
    binary main_v71 main_v83 main_v84 (addi : (⟨S1700000, .i32⟩ : BufTy).Contents (Elt F) → (⟨S1700000, .i32⟩ : BufTy).Contents (Elt F) → (⟨S1700000, .i32⟩ : BufTy).Contents (Elt F)),
    ternary main_v82 main_v84 main_v71 main_v85 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v85 main_v86 (broadcastInDim S1700000x1 ![0] bcast_S1700000_S1700000x1_0 : (⟨S1700000, .i32⟩ : BufTy).Contents (Elt F) → (⟨S1700000x1, .i32⟩ : BufTy).Contents (Elt F)),
    binary main_v80 main_v86 main_v87 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_20 (constantI S_ 32 0#32),
    unary main_c_20 main_v88 (broadcastInDim S1700000 ![] bcast_S_S1700000 : (⟨S_, .i32⟩ : BufTy).Contents (Elt F) → (⟨S1700000, .i32⟩ : BufTy).Contents (Elt F)),
    binary main_v72 main_v88 main_v89 (cmpi .slt : (⟨S1700000, .i32⟩ : BufTy).Contents (Elt F) → (⟨S1700000, .i32⟩ : BufTy).Contents (Elt F) → (⟨S1700000, .i1⟩ : BufTy).Contents (Elt F)),
    nullary main_c_21 (constantI S_ 32 100000#32),
    unary main_c_21 main_v90 (broadcastInDim S1700000 ![] bcast_S_S1700000 : (⟨S_, .i32⟩ : BufTy).Contents (Elt F) → (⟨S1700000, .i32⟩ : BufTy).Contents (Elt F)),
    binary main_v72 main_v90 main_v91 (addi : (⟨S1700000, .i32⟩ : BufTy).Contents (Elt F) → (⟨S1700000, .i32⟩ : BufTy).Contents (Elt F) → (⟨S1700000, .i32⟩ : BufTy).Contents (Elt F)),
    ternary main_v89 main_v91 main_v72 main_v92 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v92 main_v93 (broadcastInDim S1700000x1 ![0] bcast_S1700000_S1700000x1_0 : (⟨S1700000, .i32⟩ : BufTy).Contents (Elt F) → (⟨S1700000x1, .i32⟩ : BufTy).Contents (Elt F)),
    binary main_v80 main_v93 main_v94 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v87 main_v94 main_v95 (mulf : (⟨S1700000, .f32⟩ : BufTy).Contents (Elt F) → (⟨S1700000, .f32⟩ : BufTy).Contents (Elt F) → (⟨S1700000, .f32⟩ : BufTy).Contents (Elt F)),
    nullary main_c_22 (constantI S_ 32 0#32),
    unary main_c_22 main_v96 (broadcastInDim S1700000 ![] bcast_S_S1700000 : (⟨S_, .i32⟩ : BufTy).Contents (Elt F) → (⟨S1700000, .i32⟩ : BufTy).Contents (Elt F)),
    binary main_v71 main_v96 main_v97 (cmpi .slt : (⟨S1700000, .i32⟩ : BufTy).Contents (Elt F) → (⟨S1700000, .i32⟩ : BufTy).Contents (Elt F) → (⟨S1700000, .i1⟩ : BufTy).Contents (Elt F)),
    nullary main_c_23 (constantI S_ 32 100000#32),
    unary main_c_23 main_v98 (broadcastInDim S1700000 ![] bcast_S_S1700000 : (⟨S_, .i32⟩ : BufTy).Contents (Elt F) → (⟨S1700000, .i32⟩ : BufTy).Contents (Elt F)),
    binary main_v71 main_v98 main_v99 (addi : (⟨S1700000, .i32⟩ : BufTy).Contents (Elt F) → (⟨S1700000, .i32⟩ : BufTy).Contents (Elt F) → (⟨S1700000, .i32⟩ : BufTy).Contents (Elt F)),
    ternary main_v97 main_v99 main_v71 main_v100 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v100 main_v101 (broadcastInDim S1700000x1 ![0] bcast_S1700000_S1700000x1_0 : (⟨S1700000, .i32⟩ : BufTy).Contents (Elt F) → (⟨S1700000x1, .i32⟩ : BufTy).Contents (Elt F)),
    binary main_v69 main_v101 main_v102 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v95 main_v103 (broadcastInDim S1700000x1 ![0] bcast_S1700000_S1700000x1_0 : (⟨S1700000, .f32⟩ : BufTy).Contents (Elt F) → (⟨S1700000x1, .f32⟩ : BufTy).Contents (Elt F)),
    unary main_v103 main_v104 (broadcastInDim S1700000x40 ![0, 1] bcast_S1700000x1_S1700000x40_0_1 : (⟨S1700000x1, .f32⟩ : BufTy).Contents (Elt F) → (⟨S1700000x40, .f32⟩ : BufTy).Contents (Elt F)),
    binary main_v102 main_v104 main_v105 (mulf : (⟨S1700000x40, .f32⟩ : BufTy).Contents (Elt F) → (⟨S1700000x40, .f32⟩ : BufTy).Contents (Elt F) → (⟨S1700000x40, .f32⟩ : BufTy).Contents (Elt F)),
    nullary main_cst_24 (constant S_ .f32 0x00000000#32),
    unary main_cst_24 main_v106 (broadcastInDim S100000x40 ![] bcast_S_S100000x40 : (⟨S_, .f32⟩ : BufTy).Contents (Elt F) → (⟨S100000x40, .f32⟩ : BufTy).Contents (Elt F)),
    unary main_v72 main_v107 (broadcastInDim S1700000x1 ![0] bcast_S1700000_S1700000x1_0 : (⟨S1700000, .i32⟩ : BufTy).Contents (Elt F) → (⟨S1700000x1, .i32⟩ : BufTy).Contents (Elt F)),
    ternary main_v106 main_v107 main_v105 main_v108 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)),
    unary main_arg6 main_v109 (broadcastInDim S1x40 ![1] bcast_S40_S1x40_1 : (⟨S40, .f32⟩ : BufTy).Contents (Elt F) → (⟨S1x40, .f32⟩ : BufTy).Contents (Elt F)),
    unary main_v109 main_v110 (broadcastInDim S100000x40 ![0, 1] bcast_S1x40_S100000x40_0_1 : (⟨S1x40, .f32⟩ : BufTy).Contents (Elt F) → (⟨S100000x40, .f32⟩ : BufTy).Contents (Elt F)),
    binary main_v108 main_v110 main_v111 (addf : (⟨S100000x40, .f32⟩ : BufTy).Contents (Elt F) → (⟨S100000x40, .f32⟩ : BufTy).Contents (Elt F) → (⟨S100000x40, .f32⟩ : BufTy).Contents (Elt F)) ]

/-- The row-wise log-softmax. -/
abbrev opsD : List (HloOp τ sig (Elt F)) :=
  [ nullary main_call3_cst (constant S_ .f32 0xFF800000#32 : (⟨S_, .f32⟩ : BufTy).Contents (Elt F)),
    binary main_v111 main_call3_cst main_call3_v0 (((fun x v => Host.reduce FloatOps.maximumf x v reducesTo_S100000x40_S100000_d1 h_S_)) : (⟨S100000x40, .f32⟩ : BufTy).Contents (Elt F) → (⟨S_, .f32⟩ : BufTy).Contents (Elt F) → (⟨S100000, .f32⟩ : BufTy).Contents (Elt F)),
    nullary main_call3_cst_0 (constant S_ .f32 0xFF800000#32 : (⟨S_, .f32⟩ : BufTy).Contents (Elt F)),
    unary main_call3_cst_0 main_call3_v1 (((broadcastInDim S100000 ![] bcast_S_S100000)) : (⟨S_, .f32⟩ : BufTy).Contents (Elt F) → (⟨S100000, .f32⟩ : BufTy).Contents (Elt F)),
    binary main_call3_v1 main_call3_v0 main_call3_v2 ((maximumf) : (⟨S100000, .f32⟩ : BufTy).Contents (Elt F) → (⟨S100000, .f32⟩ : BufTy).Contents (Elt F) → (⟨S100000, .f32⟩ : BufTy).Contents (Elt F)),
    unary main_call3_v2 main_call3_v3 (((broadcastInDim S100000x1 ![0] bcast_S100000_S100000x1_0)) : (⟨S100000, .f32⟩ : BufTy).Contents (Elt F) → (⟨S100000x1, .f32⟩ : BufTy).Contents (Elt F)),
    unary main_call3_v3 main_call3_v4 (((broadcastInDim S100000x40 ![0, 1] bcast_S100000x1_S100000x40_0_1)) : (⟨S100000x1, .f32⟩ : BufTy).Contents (Elt F) → (⟨S100000x40, .f32⟩ : BufTy).Contents (Elt F)),
    binary main_v111 main_call3_v4 main_call3_v5 ((subf) : (⟨S100000x40, .f32⟩ : BufTy).Contents (Elt F) → (⟨S100000x40, .f32⟩ : BufTy).Contents (Elt F) → (⟨S100000x40, .f32⟩ : BufTy).Contents (Elt F)),
    unary main_call3_v5 main_call3_v6 ((Host.exp) : (⟨S100000x40, .f32⟩ : BufTy).Contents (Elt F) → (⟨S100000x40, .f32⟩ : BufTy).Contents (Elt F)),
    nullary main_call3_cst_1 (constant S_ .f32 0x00000000#32 : (⟨S_, .f32⟩ : BufTy).Contents (Elt F)),
    binary main_call3_v6 main_call3_cst_1 main_call3_v7 (((fun x v => Host.reduceAdd x v reducesTo_S100000x40_S100000_d1 h_S_)) : (⟨S100000x40, .f32⟩ : BufTy).Contents (Elt F) → (⟨S_, .f32⟩ : BufTy).Contents (Elt F) → (⟨S100000, .f32⟩ : BufTy).Contents (Elt F)),
    unary main_call3_v7 main_call3_v8 (((broadcastInDim S100000x1 ![0] bcast_S100000_S100000x1_0)) : (⟨S100000, .f32⟩ : BufTy).Contents (Elt F) → (⟨S100000x1, .f32⟩ : BufTy).Contents (Elt F)),
    unary main_call3_v8 main_call3_v9 ((Host.log) : (⟨S100000x1, .f32⟩ : BufTy).Contents (Elt F) → (⟨S100000x1, .f32⟩ : BufTy).Contents (Elt F)),
    unary main_call3_v9 main_call3_v10 (((broadcastInDim S100000x40 ![0, 1] bcast_S100000x1_S100000x40_0_1)) : (⟨S100000x1, .f32⟩ : BufTy).Contents (Elt F) → (⟨S100000x40, .f32⟩ : BufTy).Contents (Elt F)),
    binary main_call3_v5 main_call3_v10 main_v112 ((subf) : (⟨S100000x40, .f32⟩ : BufTy).Contents (Elt F) → (⟨S100000x40, .f32⟩ : BufTy).Contents (Elt F) → (⟨S100000x40, .f32⟩ : BufTy).Contents (Elt F)) ]

/-- The program's operations are the four stages' one after another: entry by entry, the inlined calls' typed operations
    against their plain spellings. -/
theorem ops_split : (ops : List (HloOp τ sig (Elt F))) = opsA ++ (opsB ++ (opsC ++ opsD)) := by
  unfold Cert.ReferenceIdeal.Value.ops opsA opsB opsC opsD
  simp only [List.cons_append, List.nil_append]
  ops_entries

section Stages

variable (W : Valuation τ sig (Elt Ideal))

set_option maxHeartbeats 4000000 in
theorem stageA (x0 : (⟨S100000x128, .f32⟩ : BufTy).Contents (Elt Ideal)) (x1 : (⟨S128x128, .f32⟩ : BufTy).Contents (Elt Ideal)) (x2 : (⟨S128, .f32⟩ : BufTy).Contents (Elt Ideal)) (x7 : (⟨S1600000, .i32⟩ : BufTy).Contents (Elt Ideal)) (x8 : (⟨S1600000, .i32⟩ : BufTy).Contents (Elt Ideal))
    (h0 : W (Proc.devRef .tc main_arg0) = x0) (h1 : W (Proc.devRef .tc main_arg1) = x1) (h2 : W (Proc.devRef .tc main_arg2) = x2)
    (h7 : W (Proc.devRef .tc main_arg7) = x7) (h8 : W (Proc.devRef .tc main_arg8) = x8) :
    after (opsA (F := Ideal)) W (Proc.devRef .tc main_v42) = val_main_v42 (F := Ideal) x0 x1 x2 x7 x8 := by
  simp only [opsA]
  after_results_simp
  finish_results
  rw [h0, h1, h2, h7, h8]
  rfl

set_option maxHeartbeats 4000000 in
theorem keepA (b : Ref sig .tc) (hb : b = main_arg3 ∨ b = main_arg4 ∨ b = main_arg5 ∨ b = main_arg6 ∨ b = main_arg7 ∨ b = main_arg8) :
    after (opsA (F := Ideal)) W (Proc.devRef .tc b) = W (Proc.devRef .tc b) := by
  rcases hb with rfl | rfl | rfl | rfl | rfl | rfl <;> (simp only [opsA]; after_results_simp; finish_results)

set_option maxHeartbeats 4000000 in
theorem stageB (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128, .f32⟩ : BufTy).Contents (Elt Ideal)) (x4 : (⟨S128, .f32⟩ : BufTy).Contents (Elt Ideal)) (x7 : (⟨S1600000, .i32⟩ : BufTy).Contents (Elt Ideal)) (x8 : (⟨S1600000, .i32⟩ : BufTy).Contents (Elt Ideal))
    (h42 : W (Proc.devRef .tc main_v42) = val_main_v42 (F := Ideal) x0 x1 x2 x7 x8)
    (h3 : W (Proc.devRef .tc main_arg3) = x3) (h4 : W (Proc.devRef .tc main_arg4) = x4) :
    after (opsB (F := Ideal)) W (Proc.devRef .tc main_v68) = val_main_v68 (F := Ideal) x0 x1 x2 x3 x4 x7 x8 := by
  simp only [opsB]
  after_results_simp
  finish_results
  rw [h42, h3, h4]
  rfl

set_option maxHeartbeats 4000000 in
theorem keepB (b : Ref sig .tc) (hb : b = main_arg5 ∨ b = main_arg6 ∨ b = main_arg7 ∨ b = main_arg8) :
    after (opsB (F := Ideal)) W (Proc.devRef .tc b) = W (Proc.devRef .tc b) := by
  rcases hb with rfl | rfl | rfl | rfl <;> (simp only [opsB]; after_results_simp; finish_results)

set_option maxHeartbeats 4000000 in
theorem stageC (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128, .f32⟩ : BufTy).Contents (Elt Ideal)) (x4 : (⟨S128, .f32⟩ : BufTy).Contents (Elt Ideal)) (x5 : (⟨S128x40, .f32⟩ : BufTy).Contents (Elt Ideal)) (x6 : (⟨S40, .f32⟩ : BufTy).Contents (Elt Ideal)) (x7 : (⟨S1600000, .i32⟩ : BufTy).Contents (Elt Ideal)) (x8 : (⟨S1600000, .i32⟩ : BufTy).Contents (Elt Ideal))
    (h68 : W (Proc.devRef .tc main_v68) = val_main_v68 (F := Ideal) x0 x1 x2 x3 x4 x7 x8)
    (h5 : W (Proc.devRef .tc main_arg5) = x5) (h6 : W (Proc.devRef .tc main_arg6) = x6)
    (h7 : W (Proc.devRef .tc main_arg7) = x7) (h8 : W (Proc.devRef .tc main_arg8) = x8) :
    after (opsC (F := Ideal)) W (Proc.devRef .tc main_v111) = val_main_v111 (F := Ideal) x0 x1 x2 x3 x4 x5 x6 x7 x8 := by
  simp only [opsC]
  after_results_simp
  finish_results
  rw [h68, h5, h6, h7, h8]
  rfl

set_option maxHeartbeats 4000000 in
theorem stageD (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128, .f32⟩ : BufTy).Contents (Elt Ideal)) (x4 : (⟨S128, .f32⟩ : BufTy).Contents (Elt Ideal)) (x5 : (⟨S128x40, .f32⟩ : BufTy).Contents (Elt Ideal)) (x6 : (⟨S40, .f32⟩ : BufTy).Contents (Elt Ideal)) (x7 : (⟨S1600000, .i32⟩ : BufTy).Contents (Elt Ideal)) (x8 : (⟨S1600000, .i32⟩ : BufTy).Contents (Elt Ideal))
    (h111 : W (Proc.devRef .tc main_v111) = val_main_v111 (F := Ideal) x0 x1 x2 x3 x4 x5 x6 x7 x8) :
    after (opsD (F := Ideal)) W (Proc.devRef .tc main_v112) = val_main_v112 (F := Ideal) x0 x1 x2 x3 x4 x5 x6 x7 x8 := by
  simp only [opsD]
  after_results_simp
  finish_results
  rw [h111]
  rfl

end Stages

/-- The result buffer after all the operations, from the launch contents: the composed function of the arguments. -/
theorem back (m : (ℓ : Loc nD τ sig) → Buf (Elt Ideal) ℓ) (c : Dev nD) :
    after (ops (F := Ideal)) (launchContents m c) (Proc.devRef .tc main_v112)
      = val_main_v112 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) := by
  rw [ops_split, after_append, after_append, after_append]
  refine stageD _ _ _ _ _ _ _ _ _ _ (stageC _ _ _ _ _ _ _ _ _ _ (stageB _ _ _ _ _ _ _ _ (stageA _ _ _ _ _ _ rfl rfl rfl rfl rfl) ?_ ?_) ?_ ?_ ?_ ?_)
  · exact (keepA _ main_arg3 (Or.inl rfl)).trans rfl
  · exact (keepA _ main_arg4 (Or.inr (Or.inl rfl))).trans rfl
  · exact ((keepB _ main_arg5 (Or.inl rfl)).trans (keepA _ main_arg5 (Or.inr (Or.inr (Or.inl rfl))))).trans rfl
  · exact ((keepB _ main_arg6 (Or.inr (Or.inl rfl))).trans (keepA _ main_arg6 (Or.inr (Or.inr (Or.inr (Or.inl rfl)))))).trans rfl
  · exact ((keepB _ main_arg7 (Or.inr (Or.inr (Or.inl rfl)))).trans (keepA _ main_arg7 (Or.inr (Or.inr (Or.inr (Or.inr (Or.inl rfl))))))).trans rfl
  · exact ((keepB _ main_arg8 (Or.inr (Or.inr (Or.inr rfl)))).trans (keepA _ main_arg8 (Or.inr (Or.inr (Or.inr (Or.inr (Or.inr rfl))))))).trans rfl

set_option maxHeartbeats 4000000 in
/-- No operation writes an argument: after the run each holds its launch contents. -/
theorem kept (m : (ℓ : Loc nD τ sig) → Buf (Elt Ideal) ℓ) (c : Dev nD) (b : Ref sig .tc)
    (hb : b = main_arg0 ∨ b = main_arg1 ∨ b = main_arg2 ∨ b = main_arg3 ∨ b = main_arg4 ∨ b = main_arg5 ∨ b = main_arg6 ∨ b = main_arg7 ∨ b = main_arg8) :
    after (ops (F := Ideal)) (launchContents m c) (Proc.devRef .tc b) = m ((c.tc : Thread nD τ).loc b) := by
  rw [ops_split]
  refine (after_of_forall_not_mem (b := Proc.devRef .tc b) _ _ (List.forall_iff_forall_mem.mp ?_)).trans rfl
  rcases hb with rfl | rfl | rfl | rfl | rfl | rfl | rfl | rfl | rfl <;>
    (simp only [opsA, opsB, opsC, opsD, List.cons_append, List.nil_append, List.Forall, nullary_writes, unary_writes, binary_writes, ternary_writes, Finset.mem_singleton]
     repeat' apply And.intro
     all_goals exact devRef_ne_of_ne (by decide))

/-- The reference's run, read: every weakly fair execution terminates with the result at the composed function of the
    arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v112)
        = val_main_v112 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v112).trans (back m c),
      (h c main_arg0).trans (kept m c main_arg0 (Or.inl rfl)),
      (h c main_arg1).trans (kept m c main_arg1 (Or.inr (Or.inl rfl))),
      (h c main_arg2).trans (kept m c main_arg2 (Or.inr (Or.inr (Or.inl rfl)))),
      (h c main_arg3).trans (kept m c main_arg3 (Or.inr (Or.inr (Or.inr (Or.inl rfl))))),
      (h c main_arg4).trans (kept m c main_arg4 (Or.inr (Or.inr (Or.inr (Or.inr (Or.inl rfl)))))),
      (h c main_arg5).trans (kept m c main_arg5 (Or.inr (Or.inr (Or.inr (Or.inr (Or.inr (Or.inl rfl))))))),
      (h c main_arg6).trans (kept m c main_arg6 (Or.inr (Or.inr (Or.inr (Or.inr (Or.inr (Or.inr (Or.inl rfl)))))))),
      (h c main_arg7).trans (kept m c main_arg7 (Or.inr (Or.inr (Or.inr (Or.inr (Or.inr (Or.inr (Or.inr (Or.inl rfl))))))))),
      (h c main_arg8).trans (kept m c main_arg8 (Or.inr (Or.inr (Or.inr (Or.inr (Or.inr (Or.inr (Or.inr (Or.inr rfl)))))))))⟩)
    (run_raw (F := Ideal) m ρ)

end Cert.ReferenceIdeal.Back

end
-- ==== Proof.KRun.lean ====
/-
  The idealized kernel's run with its result named: every weakly fair execution of the five launches and the host
  operations between them terminates, nothing faulting, with the argument arrays as launched and the result array at
  what the last launch's write-backs leave (the buffer contents after the last region, read at the result's buffer).
  The launch, the segments and the final read are the frame's; only the stated postcondition keeps the result buffer.
-/
import proofs.«113947_j66245575574019_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main with the result buffer kept: on every core the result array ends at the contents the last
    region leaves in it, and every argument array ends as launched. -/
theorem run_result : θ_run defs (onTc (τ := τ) (main (F := F))) ⟨m, fun _ => 0, ρ⟩ (fun r => ∀ c : Dev nD,
      r.2.mem ((c.tc : Thread nD τ).loc main_v96) = W12 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v96 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)

end Cert.KernelIdeal.RunValue

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.R3.lean ====
/-
  A linear layer's launch, block by block: grid point t multiplies rows 5000·t … 5000·t + 4999 of the [100000, 128]
  operand by the whole [128, 40] weight (the rounding of both operands to a narrower format on the way into the matrix
  unit is the identity on the extended reals) into a zero accumulator and writes the same rows of the result. So the
  result array is the whole product: entry (i, j) is the sum over k of operand(i, k) · weight(k, j).
-/
import proofs.«113947_j66245575574019_1_alg».proof.Proof.Gen.KernelIdeal.Frame
import proofs.«113947_j66245575574019_1_alg».proof.Proof.LibMatmulNN
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.R3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Point t's blocks: row block t of the operand and of the result, the whole weight. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem lt20 (t : Fin cfg3.N) : t.val < 20 := Nat.lt_of_lt_of_eq t.isLt N_3

/-- The whole product of a [100000, 128] array and a [128, 40] array. -/
def mmOf (A : S100000x128.Idx → EReal) (B : S128x40.Idx → EReal) : S100000x40.Idx → EReal :=
  fun i => ∑ k : Fin 128, A (ix2 (⟨(i 0).val, (i 0).isLt⟩ : Fin 100000) k) * B (ix2 k (⟨(i 1).val, (i 1).isLt⟩ : Fin 40))

/-- The body's stored value at (r, j): row r of the block times column j of the weight. -/
theorem pay_apply (x : Vec Ideal S5000x128 .f32) (w : Vec Ideal S128x40 .f32) (r : Fin 5000) (j : Fin 40) :
    k3_pay1 (F := Ideal) x w (ix2 r j) = ∑ k : Fin 128, x (ix2 r k) * w (ix2 k j) := by
  unfold k3_pay1
  rw [shapeCast_self]
  exact Cert.LibMatmulNN.matmul_nn_apply dot_S5000x128_S128x40_S5000x40_1_0_0_1_n_n rfl rfl rfl rfl rfl rfl none _ _ r j

/-- The operand's block at point t holds rows 5000·t + r of the operand. -/
theorem iblk0_apply (c : Dev nD) (t : Fin cfg3.N) (x : S5000x128.Idx) (k : S100000x128.Idx)
    (hk0 : (k 0).val = 5000 * t.val + (x 0).val) (hk1 : (k 1).val = (x 1).val) :
    (iblk3 V c 0 t : Vec Ideal S5000x128 .f32) x = (V c main_v52 : S100000x128.Idx → EReal) k := by
  obtain ⟨e0, e1, -, -, -, -⟩ := idx_facts t
  unfold iblk3
  rw [View.read_apply]
  show V c main_v52 _ = V c main_v52 _
  congr 1
  funext a
  apply Fin.ext
  match a with
  | ⟨0, _⟩ => show win3_0.index t 0 * 5000 + 1 * (x 0).val = (k 0).val; rw [e0, hk0]; omega
  | ⟨1, _⟩ => show win3_0.index t 1 * 128 + 1 * (x 1).val = (k 1).val; rw [e1, hk1]; omega

/-- The weight's block at every point is the whole weight. -/
theorem iblk1_apply (c : Dev nD) (t : Fin cfg3.N) (x : S128x40.Idx) :
    (iblk3 V c 1 t : Vec Ideal S128x40 .f32) x = (V c main_arg5 : S128x40.Idx → EReal) x := by
  obtain ⟨-, -, e2, e3, -, -⟩ := idx_facts t
  unfold iblk3
  rw [View.read_apply]
  show V c main_arg5 _ = V c main_arg5 _
  congr 1
  funext a
  apply Fin.ext
  match a with
  | ⟨0, _⟩ => show win3_1.index t 0 * 128 + 1 * (x 0).val = (x 0).val; rw [e2]; omega
  | ⟨1, _⟩ => show win3_1.index t 1 * 40 + 1 * (x 1).val = (x 1).val; rw [e3]; omega

/-- What point t writes back is block t of the whole product. -/
theorem flushed_eq (c : Dev nD) (t : Fin cfg3.N) :
    (dat3 V c).flushed 2 t = ((cfg3.win 2).blk t).view.read (Elt Ideal) (mmOf (V c main_v52) (V c main_arg5)) := by
  obtain ⟨-, -, -, -, e4, e5⟩ := idx_facts t
  have ht := lt20 t
  show (cfg3.win 2).cut (grid3.coords t) ((dat3 V c).after 2 t) = _
  rw [after3_2]
  unfold out3_2
  rw [View.canon_unit_zero hz]
  simp only [View.ld_unit_zero (S := S5000x128) hz, View.ld_unit_zero (S := S128x40) hz]
  refine funext fun (y : S5000x40.Idx) => ?_
  obtain ⟨r, j, rfl⟩ : ∃ (r : Fin 5000) (j : Fin 40), y = ix2 r j := ⟨y 0, y 1, eq_ix2 y⟩
  refine (pay_apply (iblk3 V c 0 t) (iblk3 V c 1 t) r j).trans ?_
  have hemb : ((cfg3.win 2).blk t).view.emb (ix2 r j) = (ix2 (⟨5000 * t.val + r.val, by omega⟩ : Fin 100000) j : S100000x40.Idx) := by
    funext a; apply Fin.ext
    match a with
    | ⟨0, _⟩ => show win3_2.index t 0 * 5000 + 1 * r.val = 5000 * t.val + r.val; rw [e4]; omega
    | ⟨1, _⟩ => show win3_2.index t 1 * 40 + 1 * j.val = j.val; rw [e5]; omega
  show _ = mmOf (V c main_v52) (V c main_arg5) (((cfg3.win 2).blk t).view.emb (ix2 r j))
  rw [hemb]
  unfold mmOf
  refine Finset.sum_congr rfl fun k _ => ?_
  exact congrArg₂ (· * ·) (iblk0_apply V c t (ix2 r k) (ix2 (⟨5000 * t.val + r.val, by omega⟩ : Fin 100000) k) rfl rfl) (iblk1_apply V c t (ix2 k j))

/-- The result's row blocks cover it: row i lies in block i / 5000. -/
theorem cover (i : S100000x40.Idx) : ∃ t : Fin cfg3.N, (cfg3.win 2).flush t = true ∧ i ∈ ((cfg3.win 2).blk t).view.set := by
  have hi0 : (i 0).val < 100000 := (i 0).isLt
  have hi1 : (i 1).val < 40 := (i 1).isLt
  have hN : cfg3.N = 20 := N_3
  have hlt : (i 0).val / 5000 < cfg3.N := by rw [hN]; omega
  obtain ⟨-, -, -, -, e4, e5⟩ := idx_facts ⟨(i 0).val / 5000, hlt⟩
  refine ⟨⟨(i 0).val / 5000, hlt⟩, flush3_2 _, ?_⟩
  show i ∈ ((View.whole main_v53).slice (win3_2.rect ⟨(i 0).val / 5000, hlt⟩)).set
  rw [View.set_slice_whole, Rect.mem_set_unit]
  intro a
  match a with
  | ⟨0, _⟩ =>
    show win3_2.index ⟨(i 0).val / 5000, hlt⟩ 0 * 5000 ≤ (i 0).val ∧ (i 0).val < win3_2.index ⟨(i 0).val / 5000, hlt⟩ 0 * 5000 + 5000
    rw [e4]; show (i 0).val / 5000 * 5000 ≤ (i 0).val ∧ (i 0).val < (i 0).val / 5000 * 5000 + 5000; omega
  | ⟨1, _⟩ =>
    show win3_2.index ⟨(i 0).val / 5000, hlt⟩ 1 * 40 ≤ (i 1).val ∧ (i 1).val < win3_2.index ⟨(i 0).val / 5000, hlt⟩ 1 * 40 + 40
    rw [e5]; omega

/-- The result array after the launch: the whole product. -/
theorem final (c : Dev nD) : (dat3 V c).arrAt 2 cfg3.N = mmOf (V c main_v52) (V c main_arg5) :=
  (dat3 V c).arrAt_eq_of_cover 2 (mmOf (V c main_v52) (V c main_arg5)) (fun t _ => flushed_eq V c t) cover

end Cert.KernelIdeal.R3

end
-- ==== Proof.R4.lean ====
/-
  The last launch, block by block: grid point t reads rows 5000·t … 5000·t + 4999 of its [100000, 40] operand and
  writes the same rows of the result, each row a function of that row alone. So the result array is, row by row,
  that function of the operand's rows — for ANY row function f that the body's stored value is shown to be.
-/
import proofs.«113947_j66245575574019_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.R4

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Point t's blocks: row block t, the one column block, for the operand and for the result. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0 :=
  (by decide +kernel : ∀ t : Fin grid4.N, _)

theorem lt20 (t : Fin cfg4.N) : t.val < 20 := Nat.lt_of_lt_of_eq t.isLt N_4

/-- Each row of a [100000, 40] array through a row function. -/
def rowsOf (f : (Fin 40 → EReal) → Fin 40 → EReal) (A : S100000x40.Idx → EReal) : S100000x40.Idx → EReal :=
  fun i => f (fun k => A (ix2 (⟨(i 0).val, (i 0).isLt⟩ : Fin 100000) k)) ⟨(i 1).val, (i 1).isLt⟩

/-- The operand's block at point t holds rows 5000·t + r of the operand. -/
theorem iblk_apply (c : Dev nD) (t : Fin cfg4.N) (x : S5000x40.Idx) (k : S100000x40.Idx)
    (hk0 : (k 0).val = 5000 * t.val + (x 0).val) (hk1 : (k 1).val = (x 1).val) :
    (iblk4 V c 0 t : Vec Ideal S5000x40 .f32) x = (V c main_v95 : S100000x40.Idx → EReal) k := by
  obtain ⟨e0, e1, -, -⟩ := idx_facts t
  unfold iblk4
  rw [View.read_apply]
  show V c main_v95 _ = V c main_v95 _
  congr 1
  funext a
  apply Fin.ext
  match a with
  | ⟨0, _⟩ => show win4_0.index t 0 * 5000 + 1 * (x 0).val = (k 0).val; rw [e0, hk0]; omega
  | ⟨1, _⟩ => show win4_0.index t 1 * 40 + 1 * (x 1).val = (k 1).val; rw [e1, hk1]; omega

/-- What point t writes back is block t of the row-wise function of the operand. -/
theorem flushed_eq (f : (Fin 40 → EReal) → Fin 40 → EReal)
    (hf : ∀ (x : Vec Ideal S5000x40 .f32) (r : Fin 5000) (j : Fin 40), k4_pay1 (F := Ideal) x (ix2 r j) = f (fun k => x (ix2 r k)) j)
    (c : Dev nD) (t : Fin cfg4.N) :
    (dat4 V c).flushed 1 t = ((cfg4.win 1).blk t).view.read (Elt Ideal) (rowsOf f (V c main_v95)) := by
  obtain ⟨-, -, e2, e3⟩ := idx_facts t
  have ht := lt20 t
  show (cfg4.win 1).cut (grid4.coords t) ((dat4 V c).after 1 t) = _
  rw [after4_1]
  unfold out4_1
  rw [View.canon_unit_zero hz]
  simp only [View.ld_unit_zero (S := S5000x40) hz]
  refine funext fun (y : S5000x40.Idx) => ?_
  obtain ⟨r, j, rfl⟩ : ∃ (r : Fin 5000) (j : Fin 40), y = ix2 r j := ⟨y 0, y 1, eq_ix2 y⟩
  refine (hf (iblk4 V c 0 t) r j).trans ?_
  have hemb : ((cfg4.win 1).blk t).view.emb (ix2 r j) = (ix2 (⟨5000 * t.val + r.val, by omega⟩ : Fin 100000) j : S100000x40.Idx) := by
    funext a; apply Fin.ext
    match a with
    | ⟨0, _⟩ => show win4_1.index t 0 * 5000 + 1 * r.val = 5000 * t.val + r.val; rw [e2]; omega
    | ⟨1, _⟩ => show win4_1.index t 1 * 40 + 1 * j.val = j.val; rw [e3]; omega
  show _ = rowsOf f (V c main_v95) (((cfg4.win 1).blk t).view.emb (ix2 r j))
  rw [hemb]
  show f _ j = f _ j
  refine congrArg (fun g => f g j) (funext fun k => ?_)
  exact iblk_apply V c t (ix2 r k) _ rfl rfl

/-- The result's row blocks cover it: row i lies in block i / 5000. -/
theorem cover (i : S100000x40.Idx) : ∃ t : Fin cfg4.N, (cfg4.win 1).flush t = true ∧ i ∈ ((cfg4.win 1).blk t).view.set := by
  have hi0 : (i 0).val < 100000 := (i 0).isLt
  have hi1 : (i 1).val < 40 := (i 1).isLt
  have hN : cfg4.N = 20 := N_4
  have hlt : (i 0).val / 5000 < cfg4.N := by rw [hN]; omega
  obtain ⟨-, -, e2, e3⟩ := idx_facts ⟨(i 0).val / 5000, hlt⟩
  refine ⟨⟨(i 0).val / 5000, hlt⟩, flush4_1 _, ?_⟩
  show i ∈ ((View.whole main_v96).slice (win4_1.rect ⟨(i 0).val / 5000, hlt⟩)).set
  rw [View.set_slice_whole, Rect.mem_set_unit]
  intro a
  match a with
  | ⟨0, _⟩ =>
    show win4_1.index ⟨(i 0).val / 5000, hlt⟩ 0 * 5000 ≤ (i 0).val ∧ (i 0).val < win4_1.index ⟨(i 0).val / 5000, hlt⟩ 0 * 5000 + 5000
    rw [e2]; show (i 0).val / 5000 * 5000 ≤ (i 0).val ∧ (i 0).val < (i 0).val / 5000 * 5000 + 5000; omega
  | ⟨1, _⟩ =>
    show win4_1.index ⟨(i 0).val / 5000, hlt⟩ 1 * 40 ≤ (i 1).val ∧ (i 1).val < win4_1.index ⟨(i 0).val / 5000, hlt⟩ 1 * 40 + 40
    rw [e3]; omega

/-- The result array after the launch: the operand's rows through f. -/
theorem final (f : (Fin 40 → EReal) → Fin 40 → EReal)
    (hf : ∀ (x : Vec Ideal S5000x40 .f32) (r : Fin 5000) (j : Fin 40), k4_pay1 (F := Ideal) x (ix2 r j) = f (fun k => x (ix2 r k)) j)
    (c : Dev nD) : (dat4 V c).arrAt 1 cfg4.N = rowsOf f (V c main_v95) :=
  (dat4 V c).arrAt_eq_of_cover 1 (rowsOf f (V c main_v95)) (fun t _ => flushed_eq V f hf c t) cover

end Cert.KernelIdeal.R4

end
-- ==== Proof.R0.lean ====
/-
  A linear layer's launch, block by block: grid point t multiplies rows 5000·t … 5000·t + 4999 of the [100000, 128]
  operand by the whole [128, 128] weight (the rounding of both operands to a narrower format on the way into the matrix
  unit is the identity on the extended reals) into a zero accumulator and writes the same rows of the result. So the
  result array is the whole product: entry (i, j) is the sum over k of operand(i, k) · weight(k, j).
-/
import proofs.«113947_j66245575574019_1_alg».proof.Proof.Gen.KernelIdeal.Frame
import proofs.«113947_j66245575574019_1_alg».proof.Proof.LibMatmulNN
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.R0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Point t's blocks: row block t of the operand and of the result, the whole weight. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lt20 (t : Fin cfg0.N) : t.val < 20 := Nat.lt_of_lt_of_eq t.isLt N_0

/-- The whole product of a [100000, 128] array and a [128, 128] array. -/
def mmOf (A : S100000x128.Idx → EReal) (B : S128x128.Idx → EReal) : S100000x128.Idx → EReal :=
  fun i => ∑ k : Fin 128, A (ix2 (⟨(i 0).val, (i 0).isLt⟩ : Fin 100000) k) * B (ix2 k (⟨(i 1).val, (i 1).isLt⟩ : Fin 128))

/-- The body's stored value at (r, j): row r of the block times column j of the weight. -/
theorem pay_apply (x : Vec Ideal S5000x128 .f32) (w : Vec Ideal S128x128 .f32) (r : Fin 5000) (j : Fin 128) :
    k0_pay1 (F := Ideal) x w (ix2 r j) = ∑ k : Fin 128, x (ix2 r k) * w (ix2 k j) := by
  unfold k0_pay1
  exact Cert.LibMatmulNN.matmul_nn_apply dot_S5000x128_S128x128_S5000x128_1_0_0_1_n_n rfl rfl rfl rfl rfl rfl none _ _ r j

/-- The operand's block at point t holds rows 5000·t + r of the operand. -/
theorem iblk0_apply (c : Dev nD) (t : Fin cfg0.N) (x : S5000x128.Idx) (k : S100000x128.Idx)
    (hk0 : (k 0).val = 5000 * t.val + (x 0).val) (hk1 : (k 1).val = (x 1).val) :
    (iblk0 V c 0 t : Vec Ideal S5000x128 .f32) x = (V c main_arg0 : S100000x128.Idx → EReal) k := by
  obtain ⟨e0, e1, -, -, -, -⟩ := idx_facts t
  unfold iblk0
  rw [View.read_apply]
  show V c main_arg0 _ = V c main_arg0 _
  congr 1
  funext a
  apply Fin.ext
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- The weight's block at every point is the whole weight. -/
theorem iblk1_apply (c : Dev nD) (t : Fin cfg0.N) (x : S128x128.Idx) :
    (iblk0 V c 1 t : Vec Ideal S128x128 .f32) x = (V c main_arg1 : S128x128.Idx → EReal) x := by
  obtain ⟨-, -, e2, e3, -, -⟩ := idx_facts t
  unfold iblk0
  rw [View.read_apply]
  show V c main_arg1 _ = V c main_arg1 _
  congr 1
  funext a
  apply Fin.ext
  match a with
  | ⟨0, _⟩ => show win0_1.index t 0 * 128 + 1 * (x 0).val = (x 0).val; rw [e2]; omega
  | ⟨1, _⟩ => show win0_1.index t 1 * 128 + 1 * (x 1).val = (x 1).val; rw [e3]; omega

/-- What point t writes back is block t of the whole product. -/
theorem flushed_eq (c : Dev nD) (t : Fin cfg0.N) :
    (dat0 V c).flushed 2 t = ((cfg0.win 2).blk t).view.read (Elt Ideal) (mmOf (V c main_arg0) (V c main_arg1)) := by
  obtain ⟨-, -, -, -, e4, e5⟩ := idx_facts t
  have ht := lt20 t
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  refine funext fun (y : S5000x128.Idx) => ?_
  obtain ⟨r, j, rfl⟩ : ∃ (r : Fin 5000) (j : Fin 128), y = ix2 r j := ⟨y 0, y 1, eq_ix2 y⟩
  refine (pay_apply (iblk0 V c 0 t) (iblk0 V c 1 t) r j).trans ?_
  have hemb : ((cfg0.win 2).blk t).view.emb (ix2 r j) = (ix2 (⟨5000 * t.val + r.val, by omega⟩ : Fin 100000) j : S100000x128.Idx) := by
    funext a; apply Fin.ext
    match a with
    | ⟨0, _⟩ => show win0_2.index t 0 * 5000 + 1 * r.val = 5000 * t.val + r.val; rw [e4]; omega
    | ⟨1, _⟩ => show win0_2.index t 1 * 128 + 1 * j.val = j.val; rw [e5]; omega
  show _ = mmOf (V c main_arg0) (V c main_arg1) (((cfg0.win 2).blk t).view.emb (ix2 r j))
  rw [hemb]
  unfold mmOf
  refine Finset.sum_congr rfl fun k _ => ?_
  exact congrArg₂ (· * ·) (iblk0_apply V c t (ix2 r k) (ix2 (⟨5000 * t.val + r.val, by omega⟩ : Fin 100000) k) rfl rfl) (iblk1_apply V c t (ix2 k j))

/-- The result's row blocks cover it: row i lies in block i / 5000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have hlt : (i 0).val / 5000 < cfg0.N := by rw [hN]; omega
  obtain ⟨-, -, -, -, e4, e5⟩ := idx_facts ⟨(i 0).val / 5000, hlt⟩
  refine ⟨⟨(i 0).val / 5000, hlt⟩, flush0_2 _, ?_⟩
  show i ∈ ((View.whole main_v0).slice (win0_2.rect ⟨(i 0).val / 5000, hlt⟩)).set
  rw [View.set_slice_whole, Rect.mem_set_unit]
  intro a
  match a with
  | ⟨0, _⟩ =>
    show win0_2.index ⟨(i 0).val / 5000, hlt⟩ 0 * 5000 ≤ (i 0).val ∧ (i 0).val < win0_2.index ⟨(i 0).val / 5000, hlt⟩ 0 * 5000 + 5000
    rw [e4]; show (i 0).val / 5000 * 5000 ≤ (i 0).val ∧ (i 0).val < (i 0).val / 5000 * 5000 + 5000; omega
  | ⟨1, _⟩ =>
    show win0_2.index ⟨(i 0).val / 5000, hlt⟩ 1 * 128 ≤ (i 1).val ∧ (i 1).val < win0_2.index ⟨(i 0).val / 5000, hlt⟩ 1 * 128 + 128
    rw [e5]; omega

/-- The result array after the launch: the whole product. -/
theorem final (c : Dev nD) : (dat0 V c).arrAt 2 cfg0.N = mmOf (V c main_arg0) (V c main_arg1) :=
  (dat0 V c).arrAt_eq_of_cover 2 (mmOf (V c main_arg0) (V c main_arg1)) (fun t _ => flushed_eq V c t) cover

end Cert.KernelIdeal.R0

end
-- ==== Proof.ChainA.lean ====
/-
  The first layer of the idealized kernel, read off its run: the first launch leaves the whole product x · W1, the host
  operations that follow are, line for line, the reference's aggregation of that product, so the operand of the
  statistics launch is the reference's first-layer output as a function of the arguments.
-/
import proofs.«113947_j66245575574019_1_alg».proof.Proof.Gen.KernelIdeal.Frame
import proofs.«113947_j66245575574019_1_alg».proof.Proof.RefRead
import proofs.«113947_j66245575574019_1_alg».proof.Proof.R0
import Idealize.ShloMosaic.Lib.Pipeline.Value
import Idealize.ShloMosaic.Lib.ValueIdx
import Idealize.ShloMosaic.Lib.StableHlo.Run
import proofs.«113947_j66245575574019_1_alg».proof.Proof.LibFinish
import proofs.«113947_j66245575574019_1_alg».proof.Proof.LibTypedRef

set_option maxRecDepth 16384

noncomputable section

open Idealize.ShloMosaic Idealize.ShloMosaic.TcCoe Idealize.SL.Sem Idealize.ShloMosaic.ValueIdx Idealize.ShloMosaic.StableHlo
open scoped BigOperators

namespace Cert.Chain

open Cert.LibFinish Cert.LibTypedRef

open Cert.KernelIdeal Cert.KernelIdeal.Gen

variable (m : (ℓ : Loc nD τ sig) → Buf (Elt Ideal) ℓ) (ρ : Dev nD → PrngReg) (c : Dev nD)

/-- The buffers the first launch does not write hold the launch contents after it. -/
theorem W1_arg2 : W1 m ρ c (Proc.devRef .tc main_arg2) = m ((c : Thread nD τ).loc main_arg2) := W1_of_ne m ρ c main_arg2 (by decide)
theorem W1_arg7 : W1 m ρ c (Proc.devRef .tc main_arg7) = m ((c : Thread nD τ).loc main_arg7) := W1_of_ne m ρ c main_arg7 (by decide)
theorem W1_arg8 : W1 m ρ c (Proc.devRef .tc main_arg8) = m ((c : Thread nD τ).loc main_arg8) := W1_of_ne m ρ c main_arg8 (by decide)

/-- The first launch's result is the reference's first product. -/
theorem v0_eq : W1 m ρ c (Proc.devRef .tc main_v0)
    = Cert.ReferenceIdeal.Read.val_main_v0 (F := Ideal) (m ((c : Thread nD τ).loc main_arg0)) (m ((c : Thread nD τ).loc main_arg1)) := by
  refine (W1_arr m ρ c 2).trans ?_
  rw [Cert.KernelIdeal.R0.final (V0 m ρ) c]
  funext i
  rw [Cert.ReferenceIdeal.Read.val_main_v0_apply]
  unfold Cert.KernelIdeal.R0.mmOf
  refine Finset.sum_congr rfl fun k _ => ?_
  have e1 : (ix2 (⟨(i 0).val, (i 0).isLt⟩ : Fin 100000) k : S100000x128.Idx) = Cert.ReferenceIdeal.Read.lidx_main_v0 i k :=
    funext fun a => by match a with | ⟨0, _⟩ => rfl | ⟨1, _⟩ => rfl
  have e2 : (ix2 k (⟨(i 1).val, (i 1).isLt⟩ : Fin 128) : S128x128.Idx) = Cert.ReferenceIdeal.Read.ridx_main_v0 i k :=
    funext fun a => by match a with | ⟨0, _⟩ => rfl | ⟨1, _⟩ => rfl
  rw [e1, e2]

/-! ## Through the host operations of the first aggregation, from ANY contents of the buffers they start from: the first
    stretch (the edge lists with self-loops, the degrees), the inlined select (the inverse square-root degrees), the rest -/

theorem aggA1_src (W : Valuation τ sig (Elt Ideal)) (x7 : (⟨Cert.ReferenceIdeal.S1600000, .i32⟩ : BufTy).Contents (Elt Ideal))
    (h7 : W (Proc.devRef .tc main_arg7) = x7) :
    StableHlo.after (hostOps1 (F := Ideal)) W (Proc.devRef .tc main_v2) = Cert.ReferenceIdeal.Read.val_main_v2 (F := Ideal) x7 := by
  simp only [hostOps1]
  after_results_simp
  finish_results
  rw [h7]
  rfl
theorem aggA1_dst (W : Valuation τ sig (Elt Ideal)) (x8 : (⟨Cert.ReferenceIdeal.S1600000, .i32⟩ : BufTy).Contents (Elt Ideal))
    (h8 : W (Proc.devRef .tc main_arg8) = x8) :
    StableHlo.after (hostOps1 (F := Ideal)) W (Proc.devRef .tc main_v3) = Cert.ReferenceIdeal.Read.val_main_v3 (F := Ideal) x8 := by
  simp only [hostOps1]
  after_results_simp
  finish_results
  rw [h8]
  rfl
theorem aggA1_pos (W : Valuation τ sig (Elt Ideal)) (x8 : (⟨Cert.ReferenceIdeal.S1600000, .i32⟩ : BufTy).Contents (Elt Ideal))
    (h8 : W (Proc.devRef .tc main_arg8) = x8) :
    StableHlo.after (hostOps1 (F := Ideal)) W (Proc.devRef .tc main_v9) = Cert.ReferenceIdeal.Read.val_main_v9 (F := Ideal) x8 := by
  simp only [hostOps1]
  after_results_simp
  finish_results
  rw [h8]
  rfl
theorem aggA1_rs (W : Valuation τ sig (Elt Ideal)) (x8 : (⟨Cert.ReferenceIdeal.S1600000, .i32⟩ : BufTy).Contents (Elt Ideal))
    (h8 : W (Proc.devRef .tc main_arg8) = x8) :
    StableHlo.after (hostOps1 (F := Ideal)) W (Proc.devRef .tc main_v10) = Cert.ReferenceIdeal.Read.val_main_v10 (F := Ideal) x8 := by
  simp only [hostOps1]
  after_results_simp
  finish_results
  rw [h8]
  rfl
theorem aggA1_zero (W : Valuation τ sig (Elt Ideal))
 :
    StableHlo.after (hostOps1 (F := Ideal)) W (Proc.devRef .tc main_cst_2) = Cert.ReferenceIdeal.Read.val_main_cst_2 (F := Ideal) := by
  simp only [hostOps1]
  after_results_simp
  finish_results
  rfl
theorem aggA1_keep (W : Valuation τ sig (Elt Ideal)) (b : Ref sig .tc) (hb : b = main_v0 ∨ b = main_arg2) :
    StableHlo.after (hostOps1 (F := Ideal)) W (Proc.devRef .tc b) = W (Proc.devRef .tc b) := by
  rcases hb with rfl | rfl <;> (simp only [hostOps1]; after_results_simp; finish_results)
/-- The inlined select's two operations as plain operations on their buffers (the same functions, the buffers' types read off). -/
abbrev hostOps1_1p : List (HloOp τ sig (Elt Ideal)) :=
  [ StableHlo.unary main_cst_2 main_call0_v0 ((broadcastInDim S100000 ![] bcast_S_S100000) : (⟨S_, .f32⟩ : BufTy).Contents (Elt Ideal) → (⟨S100000, .f32⟩ : BufTy).Contents (Elt Ideal)),
    StableHlo.ternary main_v9 main_v10 main_call0_v0 main_v11 ((select) : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal)) ]
theorem hostOps1_1_eq : (hostOps1_1 : List (HloOp τ sig (Elt Ideal))) = hostOps1_1p := by
  unfold hostOps1_1 hostOps1_1p
  ops_entries
theorem aggA2_dinv (W : Valuation τ sig (Elt Ideal)) (x8 : (⟨Cert.ReferenceIdeal.S1600000, .i32⟩ : BufTy).Contents (Elt Ideal))
    (h9 : W (Proc.devRef .tc main_v9) = Cert.ReferenceIdeal.Read.val_main_v9 (F := Ideal) x8)
    (h10 : W (Proc.devRef .tc main_v10) = Cert.ReferenceIdeal.Read.val_main_v10 (F := Ideal) x8)
    (hc : W (Proc.devRef .tc main_cst_2) = Cert.ReferenceIdeal.Read.val_main_cst_2 (F := Ideal)) :
    StableHlo.after (hostOps1_1 (F := Ideal)) W (Proc.devRef .tc main_v11) = Cert.ReferenceIdeal.Read.val_main_v11 (F := Ideal) x8 := by
  rw [hostOps1_1_eq]
  simp only [hostOps1_1p]
  after_results_simp
  finish_results
  rw [h9, h10, hc]
  rfl
theorem aggA2_keep (W : Valuation τ sig (Elt Ideal)) (b : Ref sig .tc) (hb : b = main_v2 ∨ b = main_v3 ∨ b = main_v0 ∨ b = main_arg2) :
    StableHlo.after (hostOps1_1 (F := Ideal)) W (Proc.devRef .tc b) = W (Proc.devRef .tc b) := by
  rcases hb with rfl | rfl | rfl | rfl <;> (simp only [hostOps1_1]; after_results_simp; finish_results)
theorem aggA3 (W : Valuation τ sig (Elt Ideal)) (x0 : (⟨Cert.ReferenceIdeal.S100000x128, .f32⟩ : BufTy).Contents (Elt Ideal)) (x1 : (⟨Cert.ReferenceIdeal.S128x128, .f32⟩ : BufTy).Contents (Elt Ideal)) (x2 : (⟨Cert.ReferenceIdeal.S128, .f32⟩ : BufTy).Contents (Elt Ideal)) (x7 : (⟨Cert.ReferenceIdeal.S1600000, .i32⟩ : BufTy).Contents (Elt Ideal)) (x8 : (⟨Cert.ReferenceIdeal.S1600000, .i32⟩ : BufTy).Contents (Elt Ideal))
    (h11 : W (Proc.devRef .tc main_v11) = Cert.ReferenceIdeal.Read.val_main_v11 (F := Ideal) x8)
    (h2 : W (Proc.devRef .tc main_v2) = Cert.ReferenceIdeal.Read.val_main_v2 (F := Ideal) x7)
    (h3 : W (Proc.devRef .tc main_v3) = Cert.ReferenceIdeal.Read.val_main_v3 (F := Ideal) x8)
    (h0 : W (Proc.devRef .tc main_v0) = Cert.ReferenceIdeal.Read.val_main_v0 (F := Ideal) x0 x1)
    (hb : W (Proc.devRef .tc main_arg2) = x2) :
    StableHlo.after (hostOps1_2 (F := Ideal)) W (Proc.devRef .tc main_v42) = Cert.ReferenceIdeal.Read.val_main_v42 (F := Ideal) x0 x1 x2 x7 x8 := by
  simp only [hostOps1_2]
  after_results_simp
  finish_results
  rw [h11, h2, h3, h0, hb]
  rfl

/-- The statistics launch's operand is the reference's first-layer output. -/
theorem v42_eq : W4 m ρ c (Proc.devRef .tc main_v42)
    = Cert.ReferenceIdeal.Read.val_main_v42 (F := Ideal) (m ((c : Thread nD τ).loc main_arg0)) (m ((c : Thread nD τ).loc main_arg1))
        (m ((c : Thread nD τ).loc main_arg2)) (m ((c : Thread nD τ).loc main_arg7)) (m ((c : Thread nD τ).loc main_arg8)) := by
  show StableHlo.after hostOps1_2 (StableHlo.after hostOps1_1 (StableHlo.after hostOps1 (W1 m ρ c))) (Proc.devRef .tc main_v42) = _
  refine aggA3 _ _ _ _ _ _ ?_ ?_ ?_ ?_ ?_
  · exact aggA2_dinv _ _ (aggA1_pos _ _ (W1_arg8 m ρ c)) (aggA1_rs _ _ (W1_arg8 m ρ c)) (aggA1_zero _)
  · exact (aggA2_keep _ main_v2 (Or.inl rfl)).trans (aggA1_src _ _ (W1_arg7 m ρ c))
  · exact (aggA2_keep _ main_v3 (Or.inr (Or.inl rfl))).trans (aggA1_dst _ _ (W1_arg8 m ρ c))
  · exact ((aggA2_keep _ main_v0 (Or.inr (Or.inr (Or.inl rfl)))).trans (aggA1_keep _ main_v0 (Or.inl rfl))).trans (v0_eq m ρ c)
  · exact ((aggA2_keep _ main_arg2 (Or.inr (Or.inr (Or.inr (rfl))))).trans (aggA1_keep _ main_arg2 (Or.inr (rfl)))).trans (W1_arg2 m ρ c)

end Cert.Chain

end
-- ==== Proof.LibTiles.lean ====
/-
  General lemmas on sums cut into tiles, no program in sight:

  * a sum over `m·n` positions as the sum over `m` tiles of the sums over each tile's `n` positions, position `n·j + p`
    being position `p` of tile `j` (and its instance for 1024 = 8·128);
  * a running total that starts at the first term and adds one term per step is, after step `j`, the sum of the terms
    up to `j`; after the last step it is the sum of all of them.
-/
import Idealize.ShloMosaic.Lib.ValueIdx

open scoped BigOperators

namespace Cert.LibTiles

variable {M : Type*} [AddCommMonoid M]

/-- A sum over `m·n` positions, tile by tile: tile `j` holds the positions `n·j + p`, `p < n`. -/
theorem sum_tiles_mul (m n : ℕ) (g : Fin (m * n) → M) (hlt : ∀ (j : Fin m) (p : Fin n), n * j.val + p.val < m * n) :
    ∑ j : Fin m, ∑ p : Fin n, g ⟨n * j.val + p.val, hlt j p⟩ = ∑ k : Fin (m * n), g k := by
  rw [← Equiv.sum_comp finProdFinEquiv g, Fintype.sum_prod_type]
  refine Finset.sum_congr rfl fun j _ => Finset.sum_congr rfl fun p _ => congrArg g (Fin.ext ?_)
  rw [finProdFinEquiv_apply_val]
  exact Nat.add_comm _ _

/-- 1024 positions as 8 tiles of 128. -/
theorem sum_tiles (g : Fin 1024 → M) :
    ∑ j : Fin 8, ∑ p : Fin 128, g ⟨128 * j.val + p.val, by omega⟩ = ∑ n : Fin 1024, g n :=
  sum_tiles_mul 8 128 g fun j p => by omega

/-- A running total over `n` terms, after step `j`: the sum of the terms `0, …, j`. -/
theorem fold_partial {n : ℕ} (x : Fin n → M) (acc : ℕ → M) (h0 : ∀ h : 0 < n, acc 0 = x ⟨0, h⟩)
    (hs : ∀ j : ℕ, ∀ hj : j + 1 < n, acc (j + 1) = acc j + x ⟨j + 1, hj⟩) (j : ℕ) (hj : j < n) :
    acc j = ∑ i : Fin (j + 1), x (Fin.castLE (Nat.succ_le_of_lt hj) i) := by
  induction j with
  | zero =>
    rw [Fin.sum_univ_castSucc, Fin.sum_univ_zero, zero_add]
    exact h0 hj
  | succ k ih =>
    rw [Fin.sum_univ_castSucc, hs k hj, ih (Nat.lt_of_succ_lt hj)]
    rfl

/-- The same with the terms indexed by the naturals: after step `j` the total is the sum of the terms `0, …, j`. -/
theorem fold_range (x : ℕ → M) (acc : ℕ → M) (n : ℕ) (h0 : acc 0 = x 0)
    (hs : ∀ j : ℕ, j + 1 < n → acc (j + 1) = acc j + x (j + 1)) (j : ℕ) (hj : j < n) :
    acc j = ∑ i ∈ Finset.range (j + 1), x i := by
  induction j with
  | zero => rw [Finset.sum_range_one]; exact h0
  | succ k ih => rw [Finset.sum_range_succ, hs k hj, ih (Nat.lt_of_succ_lt hj)]

/-- A running total over all `n + 1` terms, after the last step: the sum of all of them. -/
theorem fold_all {n : ℕ} (x : Fin (n + 1) → M) (acc : ℕ → M) (h0 : acc 0 = x 0)
    (hs : ∀ j : ℕ, ∀ hj : j + 1 < n + 1, acc (j + 1) = acc j + x ⟨j + 1, hj⟩) : acc n = ∑ j : Fin (n + 1), x j :=
  (fold_partial x acc (fun _ => h0) hs n (Nat.lt_succ_self n)).trans
    (Finset.sum_congr rfl fun i _ => congrArg x (Fin.ext rfl))

/-- Eight tiles: a running total that starts at tile 0's term and adds tile `j + 1`'s at each step is, after tile 7, the sum over the tiles. -/
theorem fold_tiles (x : Fin 8 → M) (acc : ℕ → M) (h0 : acc 0 = x 0)
    (hs : ∀ j : ℕ, ∀ hj : j + 1 < 8, acc (j + 1) = acc j + x ⟨j + 1, hj⟩) : acc 7 = ∑ j : Fin 8, x j :=
  fold_all x acc h0 hs

end Cert.LibTiles
-- ==== Proof.R1.lean ====
/-
  The statistics launch, point by point: the grid's 20 points walk the [100000, 128] operand in row blocks of 5000; the
  first point zeroes the two [1, 128] running rows, and every point adds its block's column sums to the first row and the
  column sums of its block's squares to the second. The rows are written back once, after the last point. So the first
  result holds, in column j, the sum of the operand's column j over all 100000 rows, and the second the sum of the
  squares: a running total is the sum of its terms, and the rows split into 20 tiles of 5000.
-/
import proofs.«113947_j66245575574019_1_alg».proof.Proof.Gen.KernelIdeal.Frame
import proofs.«113947_j66245575574019_1_alg».proof.Proof.LibTiles
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

open Idealize.ShloMosaic Idealize.ShloMosaic.TcCoe Idealize.SL.Sem Idealize.ShloMosaic.ValueIdx Idealize.ShloMosaic.Tactic
open Idealize.ShloMosaic.Pipeline (Dat)
open scoped BigOperators

namespace Cert.KernelIdeal.R1

open Cert.KernelIdeal Cert.KernelIdeal.Gen

theorem hz : (![0, 0] : Fin 2 → Nat) = fun _ => 0 := funext fun a => by fin_cases a <;> rfl

/-! ## What each case of the body leaves in the two running rows, as the body's own terms -/

section Pieces

variable {F : FTy → Type} [FloatOps F]

/-- The first point: the first row is zeroed, then the block's column sums are added. -/
theorem outA1 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : cond1_0 i)
    (x0 : Vec F S5000x128 .f32) :
    out1_A_1 (F := F) c i arg1 harg1 arg2 harg2 arg3 harg3 hc0 x0 = k1_pay4 x0 (k1_pay1 (F := F)) := by
  unfold out1_A_1
  rw [View.read_writes_eq_canon _ _ _ (cover1_A_1 c i arg1 harg1 arg2 harg2 arg3 harg3 hc0 x0)]
  unfold kernelRun1_A
  dsimp only
  try sl_unfold_words
  rw [View.canon_cons_unit_zero hz, View.readCov_unit_zero (S := S1x128) _ hz]
  simp only [View.readAt_eq_ld, harg1.read_unread, View.ld_unit_zero (S := S5000x128) hz]

/-- The first point: the second row is zeroed, then the column sums of the block's squares are added. -/
theorem outA2 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : cond1_0 i)
    (x0 : Vec F S5000x128 .f32) :
    out1_A_2 (F := F) c i arg1 harg1 arg2 harg2 arg3 harg3 hc0 x0 = k1_pay5 x0 (k1_pay2 (F := F)) := by
  unfold out1_A_2
  rw [View.read_writes_eq_canon _ _ _ (cover1_A_2 c i arg1 harg1 arg2 harg2 arg3 harg3 hc0 x0)]
  unfold kernelRun1_A
  dsimp only
  try sl_unfold_words
  rw [View.canon_cons_unit_zero hz, View.readCov_unit_zero (S := S1x128) _ hz]
  simp only [View.readAt_eq_ld, harg1.read_unread, View.ld_unit_zero (S := S5000x128) hz]

/-- A later point adds its block's column sums to what the first row held. -/
theorem outB1 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : ¬cond1_0 i)
    (x0 : Vec F S5000x128 .f32) (xo1 xo2 : Vec F S1x128 .f32) :
    out1_B_1 (F := F) c i arg1 harg1 arg2 harg2 arg3 harg3 hc0 x0 xo1 xo2 = k1_pay4 x0 xo1 := by
  unfold out1_B_1
  rw [View.read_writes_eq_canon _ _ _ (cover1_B_1 c i arg1 harg1 arg2 harg2 arg3 harg3 hc0 x0 xo1 xo2)]
  unfold kernelRun1_B
  dsimp only
  try sl_unfold_words
  rw [View.canon_unit_zero hz]
  simp only [View.readAt_eq_ld, harg1.read_unread, harg2.read_unread, View.ld_unit_zero (S := S5000x128) hz, View.ld_unit_zero (S := S1x128) hz]

/-- A later point adds the column sums of its block's squares to what the second row held. -/
theorem outB2 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : ¬cond1_0 i)
    (x0 : Vec F S5000x128 .f32) (xo1 xo2 : Vec F S1x128 .f32) :
    out1_B_2 (F := F) c i arg1 harg1 arg2 harg2 arg3 harg3 hc0 x0 xo1 xo2 = k1_pay5 x0 xo2 := by
  unfold out1_B_2
  rw [View.read_writes_eq_canon _ _ _ (cover1_B_2 c i arg1 harg1 arg2 harg2 arg3 harg3 hc0 x0 xo1 xo2)]
  unfold kernelRun1_B
  dsimp only
  try sl_unfold_words
  rw [View.canon_unit_zero hz]
  simp only [View.readAt_eq_ld, harg1.read_unread, harg3.read_unread, View.ld_unit_zero (S := S5000x128) hz, View.ld_unit_zero (S := S1x128) hz]

end Pieces

/-! ## The body's arithmetic on the extended reals, read in a column -/

/-- A lane sum of an [a, b] array along its columns, read at column j: the sum over the rows. -/
theorem colsum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  refine Finset.sum_congr rfl fun k _ => congrArg src (funext fun ax => Fin.ext ?_)
  match ax with
  | ⟨0, _⟩ => rfl
  | ⟨1, _⟩ => rfl

/-- The zeroed row is zero in every column. -/
theorem pay1_apply (j : Fin 128) : k1_pay1 (F := Ideal) (ix2 (0 : Fin 1) j) = 0 := Ideal.ofBits_zero_f32
theorem pay2_apply (j : Fin 128) : k1_pay2 (F := Ideal) (ix2 (0 : Fin 1) j) = 0 := Ideal.ofBits_zero_f32

/-- The first row after a point, in column j: what it held plus the block's column sum. -/
theorem pay4_apply (x : Vec Ideal S5000x128 .f32) (acc : Vec Ideal S1x128 .f32) (j : Fin 128) :
    k1_pay4 (F := Ideal) x acc (ix2 (0 : Fin 1) j) = acc (ix2 (0 : Fin 1) j) + ∑ r : Fin 5000, x (ix2 r j) := by
  unfold k1_pay4 k1_pay3
  rw [shapeCast_self, shapeCast_self]
  show acc (ix2 (0 : Fin 1) j) + shapeCast S1x128 (multiReduction (F := Ideal) .add [0] S128 x 0x00000000#32 reduces_S5000x128_S128 (.inl rfl) rfl) shapeCasts_S128_S1x128 (ix2 (0 : Fin 1) j) = _
  rw [shapeCast_a_1a_apply]
  exact congrArg (acc (ix2 (0 : Fin 1) j) + ·) (colsum_apply x _ _ _ _ j)

/-- The second row after a point, in column j: what it held plus the column sum of the block's squares. -/
theorem pay5_apply (x : Vec Ideal S5000x128 .f32) (acc : Vec Ideal S1x128 .f32) (j : Fin 128) :
    k1_pay5 (F := Ideal) x acc (ix2 (0 : Fin 1) j) = acc (ix2 (0 : Fin 1) j) + ∑ r : Fin 5000, x (ix2 r j) * x (ix2 r j) := by
  unfold k1_pay5 k1_pay3
  rw [shapeCast_self, shapeCast_self]
  show acc (ix2 (0 : Fin 1) j) + shapeCast S1x128 (multiReduction (F := Ideal) .add [0] S128 (mulf x x) 0x00000000#32 reduces_S5000x128_S128 (.inl rfl) rfl) shapeCasts_S128_S1x128 (ix2 (0 : Fin 1) j) = _
  rw [shapeCast_a_1a_apply]
  exact congrArg (acc (ix2 (0 : Fin 1) j) + ·) ((colsum_apply (mulf x x) _ _ _ _ j).trans (Finset.sum_congr rfl fun r _ => rfl))

/-! ## The running rows after each point -/

variable (V : (c : Dev nD) → (b : Ref sig .tc) → Buf (Elt Ideal) ((c : Thread nD τ).loc b))

/-- Point t's blocks: row block t of the operand, the whole of each running row. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

theorem lt20 (t : Fin cfg1.N) : t.val < 20 := Nat.lt_of_lt_of_eq t.isLt N_1

/-- Row n of column j of a [100000, 128] array (zero past the last row). -/
def colAt (H : S100000x128.Idx → EReal) (j : Fin 128) (n : ℕ) : EReal :=
  if h : n < 100000 then H (ix2 (⟨n, h⟩ : Fin 100000) j) else 0

/-- The sum over tile b's 5000 positions. -/
def tileSum (g : ℕ → EReal) (b : ℕ) : EReal := ∑ r : Fin 5000, g (5000 * b + r.val)

/-- The operand's block at point t holds rows 5000·t + r of the operand. -/
theorem iblk_apply (c : Dev nD) (t : Fin cfg1.N) (r : Fin 5000) (j : Fin 128) :
    (iblk1 V c 0 t : Vec Ideal S5000x128 .f32) (ix2 r j) = colAt (V c main_v42) j (5000 * t.val + r.val) := by
  obtain ⟨e0, e1, -⟩ := idx_facts t
  have ht := lt20 t
  have hlt : 5000 * t.val + r.val < 100000 := by have := r.isLt; omega
  unfold colAt
  rw [dif_pos hlt]
  unfold iblk1
  rw [View.read_apply]
  show V c main_v42 _ = V c main_v42 _
  congr 1
  funext a
  apply Fin.ext
  match a with
  | ⟨0, _⟩ => show win1_0.index t 0 * 5000 + 1 * r.val = 5000 * t.val + r.val; rw [e0]; omega
  | ⟨1, _⟩ => show win1_0.index t 1 * 128 + 1 * j.val = j.val; rw [e1]; omega

/-- After the first point the first row holds tile 0's column sums. -/
theorem first1 (c : Dev nD) (hn : 0 < cfg1.N) (j : Fin 128) :
    (outsAt1 V c 0 hn).1 (ix2 (0 : Fin 1) j) = tileSum (colAt (V c main_v42) j) 0 := by
  have e := outsAt1_A V c ⟨0, hn⟩ (Nat.zero_mod 20)
  refine (congrFun (congrArg Prod.fst e) (ix2 (0 : Fin 1) j)).trans ?_
  dsimp only
  rw [outA1 (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1_0 ⟨0, hn⟩).mpr (Nat.zero_mod 20)) (iblk1 V c 0 ⟨0, hn⟩),
    pay4_apply, pay1_apply, zero_add]
  exact Finset.sum_congr rfl fun r _ => iblk_apply V c ⟨0, hn⟩ r j

theorem first2 (c : Dev nD) (hn : 0 < cfg1.N) (j : Fin 128) :
    (outsAt1 V c 0 hn).2 (ix2 (0 : Fin 1) j) = tileSum (fun n => colAt (V c main_v42) j n * colAt (V c main_v42) j n) 0 := by
  have e := outsAt1_A V c ⟨0, hn⟩ (Nat.zero_mod 20)
  refine (congrFun (congrArg Prod.snd e) (ix2 (0 : Fin 1) j)).trans ?_
  dsimp only
  rw [outA2 (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1_0 ⟨0, hn⟩).mpr (Nat.zero_mod 20)) (iblk1 V c 0 ⟨0, hn⟩),
    pay5_apply, pay2_apply, zero_add]
  exact Finset.sum_congr rfl fun r _ => by rw [iblk_apply V c ⟨0, hn⟩ r j]

/-- A later point adds its tile's column sums to the first row. -/
theorem step1 (c : Dev nD) (n : ℕ) (hn : n + 1 < cfg1.N) (j : Fin 128) :
    (outsAt1 V c (n + 1) hn).1 (ix2 (0 : Fin 1) j)
      = (outsAt1 V c n (Nat.lt_of_succ_lt hn)).1 (ix2 (0 : Fin 1) j) + tileSum (colAt (V c main_v42) j) (n + 1) := by
  have h20 : n + 1 < 20 := Nat.lt_of_lt_of_eq hn N_1
  have h0 : ¬ (n + 1) % 20 = 0 := by omega
  have e := outsAt1_B V c ⟨n + 1, hn⟩ h0
  refine (congrFun (congrArg Prod.fst e) (ix2 (0 : Fin 1) j)).trans ?_
  dsimp only
  rw [outB1 (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1_0 ⟨n + 1, hn⟩).mp h)) (iblk1 V c 0 ⟨n + 1, hn⟩) _ _,
    pay4_apply]
  refine congrArg₂ (· + ·) rfl ?_
  exact Finset.sum_congr rfl fun r _ => iblk_apply V c ⟨n + 1, hn⟩ r j

theorem step2 (c : Dev nD) (n : ℕ) (hn : n + 1 < cfg1.N) (j : Fin 128) :
    (outsAt1 V c (n + 1) hn).2 (ix2 (0 : Fin 1) j)
      = (outsAt1 V c n (Nat.lt_of_succ_lt hn)).2 (ix2 (0 : Fin 1) j)
        + tileSum (fun n => colAt (V c main_v42) j n * colAt (V c main_v42) j n) (n + 1) := by
  have h20 : n + 1 < 20 := Nat.lt_of_lt_of_eq hn N_1
  have h0 : ¬ (n + 1) % 20 = 0 := by omega
  have e := outsAt1_B V c ⟨n + 1, hn⟩ h0
  refine (congrFun (congrArg Prod.snd e) (ix2 (0 : Fin 1) j)).trans ?_
  dsimp only
  rw [outB2 (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1_0 ⟨n + 1, hn⟩).mp h)) (iblk1 V c 0 ⟨n + 1, hn⟩) _ _,
    pay5_apply]
  refine congrArg₂ (· + ·) rfl ?_
  exact Finset.sum_congr rfl fun r _ => by rw [iblk_apply V c ⟨n + 1, hn⟩ r j]

/-- Column sums of a [100000, 128] array, as a [1, 128] row. -/
def colSums (H : S100000x128.Idx → EReal) : S1x128.Idx → EReal :=
  fun i => ∑ k : Fin 100000, H (ix2 k (⟨(i 1).val, (i 1).isLt⟩ : Fin 128))

/-- Column sums of squares of a [100000, 128] array, as a [1, 128] row. -/
def colSumSqs (H : S100000x128.Idx → EReal) : S1x128.Idx → EReal :=
  fun i => ∑ k : Fin 100000, H (ix2 k (⟨(i 1).val, (i 1).isLt⟩ : Fin 128)) * H (ix2 k (⟨(i 1).val, (i 1).isLt⟩ : Fin 128))

/-- The two rows read in column j. -/
theorem colSums_apply (H : S100000x128.Idx → EReal) (j : Fin 128) :
    colSums H (ix2 (0 : Fin 1) j) = ∑ k : Fin 100000, H (ix2 k j) := rfl
theorem colSumSqs_apply (H : S100000x128.Idx → EReal) (j : Fin 128) :
    colSumSqs H (ix2 (0 : Fin 1) j) = ∑ k : Fin 100000, H (ix2 k j) * H (ix2 k j) := rfl

/-- The 20 tiles of 5000 rows are the 100000 rows. -/
theorem tiles_all (H : S100000x128.Idx → EReal) (j : Fin 128) (f : EReal → EReal) (hf0 : True) :
    ∑ b ∈ Finset.range 20, tileSum (fun n => f (colAt H j n)) b = ∑ k : Fin 100000, f (H (ix2 k j)) := by
  rw [Finset.sum_range]
  have e := Cert.LibTiles.sum_tiles_mul (M := EReal) 20 5000 (fun k : Fin (20 * 5000) => f (H (ix2 (⟨k.val, k.isLt⟩ : Fin 100000) j)))
    (fun b p => by have := b.isLt; have := p.isLt; omega)
  refine Eq.trans ?_ e
  refine Finset.sum_congr rfl fun b _ => Finset.sum_congr rfl fun r _ => ?_
  have hlt : 5000 * b.val + r.val < 100000 := by have := b.isLt; have := r.isLt; omega
  show f (colAt H j (5000 * b.val + r.val)) = _
  unfold colAt
  rw [dif_pos hlt]

/-- After the last point the first row holds each column's sum over all rows. -/
theorem last1 (c : Dev nD) (n : ℕ) (hn : n < cfg1.N) (h19 : n = 19) (j : Fin 128) :
    (outsAt1 V c n hn).1 (ix2 (0 : Fin 1) j) = colSums (V c main_v42) (ix2 (0 : Fin 1) j) := by
  subst h19
  have hN : cfg1.N = 20 := N_1
  have key := Cert.LibTiles.fold_range (M := EReal) (tileSum (colAt (V c main_v42) j))
    (fun n => if hn : n < cfg1.N then (outsAt1 V c n hn).1 (ix2 (0 : Fin 1) j) else 0) 20
    (by rw [dif_pos (by rw [hN]; decide)]; exact first1 V c _ j)
    (fun k hk => by
      rw [dif_pos (show k + 1 < cfg1.N by rw [hN]; exact hk), dif_pos (show k < cfg1.N by rw [hN]; omega)]
      exact step1 V c k _ j)
    19 (by decide)
  rw [dif_pos hn] at key
  rw [key]
  exact tiles_all (V c main_v42) j (fun x => x) trivial

/-- After the last point the second row holds each column's sum of squares over all rows. -/
theorem last2 (c : Dev nD) (n : ℕ) (hn : n < cfg1.N) (h19 : n = 19) (j : Fin 128) :
    (outsAt1 V c n hn).2 (ix2 (0 : Fin 1) j) = colSumSqs (V c main_v42) (ix2 (0 : Fin 1) j) := by
  subst h19
  have hN : cfg1.N = 20 := N_1
  have key := Cert.LibTiles.fold_range (M := EReal) (tileSum (fun n => colAt (V c main_v42) j n * colAt (V c main_v42) j n))
    (fun n => if hn : n < cfg1.N then (outsAt1 V c n hn).2 (ix2 (0 : Fin 1) j) else 0) 20
    (by rw [dif_pos (by rw [hN]; decide)]; exact first2 V c _ j)
    (fun k hk => by
      rw [dif_pos (show k + 1 < cfg1.N by rw [hN]; exact hk), dif_pos (show k < cfg1.N by rw [hN]; omega)]
      exact step2 V c k _ j)
    19 (by decide)
  rw [dif_pos hn] at key
  rw [key]
  exact tiles_all (V c main_v42) j (fun x => x * x) trivial

/-! ## The two result arrays -/

theorem unit_row (y : S1x128.Idx) : y = ix2 (0 : Fin 1) (⟨(y 1).val, (y 1).isLt⟩ : Fin 128) := by
  funext a
  match a with
  | ⟨0, _⟩ => exact Fin.ext (by have h1 : (y 0).val < 1 := (y 0).isLt; show (y 0).val = 0; omega)
  | ⟨1, _⟩ => rfl

/-- The one write-back of the first row, after the last point, writes the column sums. -/
theorem flushed1_eq (c : Dev nD) (t : Fin cfg1.N) (hf : (cfg1.win 1).flush t = true) :
    (dat1 V c).flushed 1 t = ((cfg1.win 1).blk t).view.read (Elt Ideal) (colSums (V c main_v42)) := by
  obtain ⟨-, -, e2, e3, -, -⟩ := idx_facts t
  have h19 : t.val = 19 := by have := (flush1_1 t).mp hf; have := lt20 t; omega
  show (cfg1.win 1).cut (grid1.coords t) ((dat1 V c).after 1 t) = _
  have hrow : (outsAt1 V c t.val t.isLt).1 = colSums (V c main_v42) :=
    funext fun y => by rw [unit_row y]; exact last1 V c t.val t.isLt h19 _
  rw [after1_1, hrow]
  generalize colSums (V c main_v42) = G
  refine funext fun (y : S1x128.Idx) => ?_
  have hemb : ((cfg1.win 1).blk t).view.emb y = y := by
    funext a; apply Fin.ext
    match a with
    | ⟨0, _⟩ => show win1_1.index t 0 * 1 + 1 * (y 0).val = (y 0).val; rw [e2]; omega
    | ⟨1, _⟩ => show win1_1.index t 1 * 128 + 1 * (y 1).val = (y 1).val; rw [e3]; omega
  show G y = G (((cfg1.win 1).blk t).view.emb y)
  rw [hemb]

/-- The one write-back of the second row writes the column sums of squares. -/
theorem flushed2_eq (c : Dev nD) (t : Fin cfg1.N) (hf : (cfg1.win 2).flush t = true) :
    (dat1 V c).flushed 2 t = ((cfg1.win 2).blk t).view.read (Elt Ideal) (colSumSqs (V c main_v42)) := by
  obtain ⟨-, -, -, -, e2, e3⟩ := idx_facts t
  have h19 : t.val = 19 := by have := (flush1_2 t).mp hf; have := lt20 t; omega
  show (cfg1.win 2).cut (grid1.coords t) ((dat1 V c).after 2 t) = _
  have hrow : (outsAt1 V c t.val t.isLt).2 = colSumSqs (V c main_v42) :=
    funext fun y => by rw [unit_row y]; exact last2 V c t.val t.isLt h19 _
  rw [after1_2, hrow]
  generalize colSumSqs (V c main_v42) = G
  refine funext fun (y : S1x128.Idx) => ?_
  have hemb : ((cfg1.win 2).blk t).view.emb y = y := by
    funext a; apply Fin.ext
    match a with
    | ⟨0, _⟩ => show win1_2.index t 0 * 1 + 1 * (y 0).val = (y 0).val; rw [e2]; omega
    | ⟨1, _⟩ => show win1_2.index t 1 * 128 + 1 * (y 1).val = (y 1).val; rw [e3]; omega
  show G y = G (((cfg1.win 2).blk t).view.emb y)
  rw [hemb]

/-- The last point's block of each running row is the whole row. -/
theorem cover1 (i : S1x128.Idx) : ∃ t : Fin cfg1.N, (cfg1.win 1).flush t = true ∧ i ∈ ((cfg1.win 1).blk t).view.set := by
  have hi0 : (i 0).val < 1 := (i 0).isLt
  have hi1 : (i 1).val < 128 := (i 1).isLt
  have hN : cfg1.N = 20 := N_1
  have h19 : 19 < cfg1.N := by rw [hN]; decide
  obtain ⟨-, -, e2, e3, -, -⟩ := idx_facts ⟨19, h19⟩
  refine ⟨⟨19, h19⟩, (flush1_1 _).mpr rfl, ?_⟩
  show i ∈ ((View.whole main_v43_0).slice (win1_1.rect ⟨19, h19⟩)).set
  rw [View.set_slice_whole, Rect.mem_set_unit]
  intro a
  match a with
  | ⟨0, _⟩ => show win1_1.index ⟨19, h19⟩ 0 * 1 ≤ (i 0).val ∧ (i 0).val < win1_1.index ⟨19, h19⟩ 0 * 1 + 1; rw [e2]; omega
  | ⟨1, _⟩ => show win1_1.index ⟨19, h19⟩ 1 * 128 ≤ (i 1).val ∧ (i 1).val < win1_1.index ⟨19, h19⟩ 1 * 128 + 128; rw [e3]; omega

theorem cover2 (i : S1x128.Idx) : ∃ t : Fin cfg1.N, (cfg1.win 2).flush t = true ∧ i ∈ ((cfg1.win 2).blk t).view.set := by
  have hi0 : (i 0).val < 1 := (i 0).isLt
  have hi1 : (i 1).val < 128 := (i 1).isLt
  have hN : cfg1.N = 20 := N_1
  have h19 : 19 < cfg1.N := by rw [hN]; decide
  obtain ⟨-, -, -, -, e2, e3⟩ := idx_facts ⟨19, h19⟩
  refine ⟨⟨19, h19⟩, (flush1_2 _).mpr rfl, ?_⟩
  show i ∈ ((View.whole main_v43_1).slice (win1_2.rect ⟨19, h19⟩)).set
  rw [View.set_slice_whole, Rect.mem_set_unit]
  intro a
  match a with
  | ⟨0, _⟩ => show win1_2.index ⟨19, h19⟩ 0 * 1 ≤ (i 0).val ∧ (i 0).val < win1_2.index ⟨19, h19⟩ 0 * 1 + 1; rw [e2]; omega
  | ⟨1, _⟩ => show win1_2.index ⟨19, h19⟩ 1 * 128 ≤ (i 1).val ∧ (i 1).val < win1_2.index ⟨19, h19⟩ 1 * 128 + 128; rw [e3]; omega

/-- The first result array after the launch: the operand's column sums. -/
theorem final1 (c : Dev nD) : (dat1 V c).arrAt 1 cfg1.N = colSums (V c main_v42) :=
  (dat1 V c).arrAt_eq_of_cover 1 (colSums (V c main_v42)) (fun t hf => flushed1_eq V c t hf) cover1

/-- The second result array after the launch: the operand's column sums of squares. -/
theorem final2 (c : Dev nD) : (dat1 V c).arrAt 2 cfg1.N = colSumSqs (V c main_v42) :=
  (dat1 V c).arrAt_eq_of_cover 2 (colSumSqs (V c main_v42)) (fun t hf => flushed2_eq V c t hf) cover2

end Cert.KernelIdeal.R1

end
-- ==== Proof.R2.lean ====
/-
  The normalize-and-rectify launch, block by block: grid point t reads rows 5000·t … 5000·t + 4999 of the [100000, 128]
  operand and the four [1, 128] rows (mean, variance, scale, shift), whole at every point, and writes the same rows of
  the result, each entry a function of the operand's entry and of the four rows' entries in its column. So the result
  array is that function entry by entry — for ANY five-argument function g the body's stored value is shown to be.
-/
import proofs.«113947_j66245575574019_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.R2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Point t's blocks: row block t of the operand and of the result, each [1, 128] row whole. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem lt20 (t : Fin cfg2.N) : t.val < 20 := Nat.lt_of_lt_of_eq t.isLt N_2

/-- Entry (i, j) of the result: g of the operand's entry and of the four rows' entries in column j. -/
def ptOf (g : EReal → EReal → EReal → EReal → EReal → EReal) (H : S100000x128.Idx → EReal)
    (MU VA GA BE : S1x128.Idx → EReal) : S100000x128.Idx → EReal :=
  fun i => g (H i) (MU (ix2 (0 : Fin 1) (⟨(i 1).val, (i 1).isLt⟩ : Fin 128))) (VA (ix2 (0 : Fin 1) (⟨(i 1).val, (i 1).isLt⟩ : Fin 128)))
    (GA (ix2 (0 : Fin 1) (⟨(i 1).val, (i 1).isLt⟩ : Fin 128))) (BE (ix2 (0 : Fin 1) (⟨(i 1).val, (i 1).isLt⟩ : Fin 128)))

/-- The operand's block at point t holds rows 5000·t + r of the operand. -/
theorem iblk0_apply (c : Dev nD) (t : Fin cfg2.N) (x : S5000x128.Idx) (k : S100000x128.Idx)
    (hk0 : (k 0).val = 5000 * t.val + (x 0).val) (hk1 : (k 1).val = (x 1).val) :
    (iblk2 V c 0 t : Vec Ideal S5000x128 .f32) x = (V c main_v42 : S100000x128.Idx → EReal) k := by
  obtain ⟨e0, e1, -⟩ := idx_facts t
  unfold iblk2
  rw [View.read_apply]
  show V c main_v42 _ = V c main_v42 _
  congr 1
  funext a
  apply Fin.ext
  match a with
  | ⟨0, _⟩ => show win2_0.index t 0 * 5000 + 1 * (x 0).val = (k 0).val; rw [e0, hk0]; omega
  | ⟨1, _⟩ => show win2_0.index t 1 * 128 + 1 * (x 1).val = (k 1).val; rw [e1, hk1]; omega

/-- Each [1, 128] row's block at every point is the whole row. -/
theorem iblk1_apply (c : Dev nD) (t : Fin cfg2.N) (x : S1x128.Idx) :
    (iblk2 V c 1 t : Vec Ideal S1x128 .f32) x = (V c main_v45 : S1x128.Idx → EReal) x := by
  obtain ⟨-, -, e0, e1, -⟩ := idx_facts t
  unfold iblk2
  rw [View.read_apply]
  show V c main_v45 _ = V c main_v45 _
  congr 1
  funext a
  apply Fin.ext
  match a with
  | ⟨0, _⟩ => show win2_1.index t 0 * 1 + 1 * (x 0).val = (x 0).val; rw [e0]; omega
  | ⟨1, _⟩ => show win2_1.index t 1 * 128 + 1 * (x 1).val = (x 1).val; rw [e1]; omega

theorem iblk2_apply (c : Dev nD) (t : Fin cfg2.N) (x : S1x128.Idx) :
    (iblk2 V c 2 t : Vec Ideal S1x128 .f32) x = (V c main_v49 : S1x128.Idx → EReal) x := by
  obtain ⟨-, -, -, -, e0, e1, -⟩ := idx_facts t
  unfold iblk2
  rw [View.read_apply]
  show V c main_v49 _ = V c main_v49 _
  congr 1
  funext a
  apply Fin.ext
  match a with
  | ⟨0, _⟩ => show win2_2.index t 0 * 1 + 1 * (x 0).val = (x 0).val; rw [e0]; omega
  | ⟨1, _⟩ => show win2_2.index t 1 * 128 + 1 * (x 1).val = (x 1).val; rw [e1]; omega

theorem iblk3_apply (c : Dev nD) (t : Fin cfg2.N) (x : S1x128.Idx) :
    (iblk2 V c 3 t : Vec Ideal S1x128 .f32) x = (V c main_v50 : S1x128.Idx → EReal) x := by
  obtain ⟨-, -, -, -, -, -, e0, e1, -⟩ := idx_facts t
  unfold iblk2
  rw [View.read_apply]
  show V c main_v50 _ = V c main_v50 _
  congr 1
  funext a
  apply Fin.ext
  match a with
  | ⟨0, _⟩ => show win2_3.index t 0 * 1 + 1 * (x 0).val = (x 0).val; rw [e0]; omega
  | ⟨1, _⟩ => show win2_3.index t 1 * 128 + 1 * (x 1).val = (x 1).val; rw [e1]; omega

theorem iblk4_apply (c : Dev nD) (t : Fin cfg2.N) (x : S1x128.Idx) :
    (iblk2 V c 4 t : Vec Ideal S1x128 .f32) x = (V c main_v51 : S1x128.Idx → EReal) x := by
  obtain ⟨-, -, -, -, -, -, -, -, e0, e1, -⟩ := idx_facts t
  unfold iblk2
  rw [View.read_apply]
  show V c main_v51 _ = V c main_v51 _
  congr 1
  funext a
  apply Fin.ext
  match a with
  | ⟨0, _⟩ => show win2_4.index t 0 * 1 + 1 * (x 0).val = (x 0).val; rw [e0]; omega
  | ⟨1, _⟩ => show win2_4.index t 1 * 128 + 1 * (x 1).val = (x 1).val; rw [e1]; omega

/-- What point t writes back is block t of the entrywise function. -/
theorem flushed_eq (g : EReal → EReal → EReal → EReal → EReal → EReal)
    (hg : ∀ (va : Vec Ideal S1x128 .f32) (h : Vec Ideal S5000x128 .f32) (mu ga be : Vec Ideal S1x128 .f32) (r : Fin 5000) (j : Fin 128),
      k2_pay1 (F := Ideal) va h mu ga be (ix2 r j) = g (h (ix2 r j)) (mu (ix2 (0 : Fin 1) j)) (va (ix2 (0 : Fin 1) j)) (ga (ix2 (0 : Fin 1) j)) (be (ix2 (0 : Fin 1) j)))
    (c : Dev nD) (t : Fin cfg2.N) :
    (dat2 V c).flushed 5 t = ((cfg2.win 5).blk t).view.read (Elt Ideal)
      (ptOf g (V c main_v42) (V c main_v45) (V c main_v49) (V c main_v50) (V c main_v51)) := by
  obtain ⟨-, -, -, -, -, -, -, -, -, -, e4, e5⟩ := idx_facts t
  have ht := lt20 t
  show (cfg2.win 5).cut (grid2.coords t) ((dat2 V c).after 5 t) = _
  rw [after2_5]
  unfold out2_5
  rw [View.canon_unit_zero hz]
  simp only [View.ld_unit_zero (S := S5000x128) hz, View.ld_unit_zero (S := S1x128) hz]
  refine funext fun (y : S5000x128.Idx) => ?_
  obtain ⟨r, j, rfl⟩ : ∃ (r : Fin 5000) (j : Fin 128), y = ix2 r j := ⟨y 0, y 1, eq_ix2 y⟩
  refine (hg (iblk2 V c 2 t) (iblk2 V c 0 t) (iblk2 V c 1 t) (iblk2 V c 3 t) (iblk2 V c 4 t) r j).trans ?_
  have hemb : ((cfg2.win 5).blk t).view.emb (ix2 r j) = (ix2 (⟨5000 * t.val + r.val, by omega⟩ : Fin 100000) j : S100000x128.Idx) := by
    funext a; apply Fin.ext
    match a with
    | ⟨0, _⟩ => show win2_5.index t 0 * 5000 + 1 * r.val = 5000 * t.val + r.val; rw [e4]; omega
    | ⟨1, _⟩ => show win2_5.index t 1 * 128 + 1 * j.val = j.val; rw [e5]; omega
  show _ = ptOf g (V c main_v42) (V c main_v45) (V c main_v49) (V c main_v50) (V c main_v51) (((cfg2.win 5).blk t).view.emb (ix2 r j))
  rw [hemb]
  show g _ _ _ _ _ = g _ _ _ _ _
  rw [iblk0_apply V c t (ix2 r j) (ix2 (⟨5000 * t.val + r.val, by omega⟩ : Fin 100000) j) rfl rfl,
    iblk1_apply V c t (ix2 (0 : Fin 1) j), iblk2_apply V c t (ix2 (0 : Fin 1) j), iblk3_apply V c t (ix2 (0 : Fin 1) j),
    iblk4_apply V c t (ix2 (0 : Fin 1) j)]

/-- The result's row blocks cover it: row i lies in block i / 5000. -/
theorem cover (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  have hlt : (i 0).val / 5000 < cfg2.N := by rw [hN]; omega
  obtain ⟨-, -, -, -, -, -, -, -, -, -, e4, e5⟩ := idx_facts ⟨(i 0).val / 5000, hlt⟩
  refine ⟨⟨(i 0).val / 5000, hlt⟩, flush2_5 _, ?_⟩
  show i ∈ ((View.whole main_v52).slice (win2_5.rect ⟨(i 0).val / 5000, hlt⟩)).set
  rw [View.set_slice_whole, Rect.mem_set_unit]
  intro a
  match a with
  | ⟨0, _⟩ =>
    show win2_5.index ⟨(i 0).val / 5000, hlt⟩ 0 * 5000 ≤ (i 0).val ∧ (i 0).val < win2_5.index ⟨(i 0).val / 5000, hlt⟩ 0 * 5000 + 5000
    rw [e4]; show (i 0).val / 5000 * 5000 ≤ (i 0).val ∧ (i 0).val < (i 0).val / 5000 * 5000 + 5000; omega
  | ⟨1, _⟩ =>
    show win2_5.index ⟨(i 0).val / 5000, hlt⟩ 1 * 128 ≤ (i 1).val ∧ (i 1).val < win2_5.index ⟨(i 0).val / 5000, hlt⟩ 1 * 128 + 128
    rw [e5]; omega

/-- The result array after the launch: the entrywise function of the operand and the four rows. -/
theorem final (g : EReal → EReal → EReal → EReal → EReal → EReal)
    (hg : ∀ (va : Vec Ideal S1x128 .f32) (h : Vec Ideal S5000x128 .f32) (mu ga be : Vec Ideal S1x128 .f32) (r : Fin 5000) (j : Fin 128),
      k2_pay1 (F := Ideal) va h mu ga be (ix2 r j) = g (h (ix2 r j)) (mu (ix2 (0 : Fin 1) j)) (va (ix2 (0 : Fin 1) j)) (ga (ix2 (0 : Fin 1) j)) (be (ix2 (0 : Fin 1) j)))
    (c : Dev nD) : (dat2 V c).arrAt 5 cfg2.N = ptOf g (V c main_v42) (V c main_v45) (V c main_v49) (V c main_v50) (V c main_v51) :=
  (dat2 V c).arrAt_eq_of_cover 5 _ (fun t _ => flushed_eq V g hg c t) cover

end Cert.KernelIdeal.R2

end
-- ==== Proof.LibHostKeepdims.lean ====
/-
  Keepdims layouts of a host program, and row maxima, read at an index given by coordinates.

  `x - x.max(axis=1, keepdims=True)` over a matrix `[a, b]` is, in a host program, a reduction `[a, b] → [a]`, a
  `broadcast_in_dim` `[a] → [a, 1]` (the kept axis) and another `[a, 1] → [a, b]` (the subtraction's broadcast); a
  vector of per-column values `[b]` meets the matrix through `[b] → [1, b] → [a, b]`. Read at `(p, c)` the first
  composite is the operand at row `p`, the second the operand at column `c`. The four steps are the first four lemmas;
  a rank-0 operand broadcast to any shape is its one element everywhere. Then the two host reductions along the rows
  (the sum, at the ideal values, and the maximum, a fold of `max` in any order), the kernel's lane maximum along the
  rows in the same words, and the kernel's cast `[a, 1] → [a]` that drops a kept axis again.
  The `dims` of a `broadcast_in_dim` are a variable; the lemmas ask only which result axis each operand axis is sent to.
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- A vector `[a]` broadcast to the column `[a, 1]` reads, at `(p, u)`, the vector at `p`. -/
theorem broadcastInDim_a_a1_apply {a : ℕ} (dims : Fin 1 → Fin 2)
    (h : (⟨1, ![a]⟩ : Shape).BroadcastsInDim ⟨2, ![a, 1]⟩ dims) (hd : dims 0 = 0)
    (v : (⟨1, ![a]⟩ : Shape).Idx → α) (p : Fin a) (u : Fin 1) :
    broadcastInDim ⟨2, ![a, 1]⟩ dims h v (ix2 p u) = v (ix1 p) := by
  refine broadcastInDim_apply dims h v (ix2 p u) (ix1 p) fun ax => ?_
  match ax with
  | ⟨0, _⟩ =>
    show p.val = if a = 1 then 0 else (ix2 p u (dims 0)).val
    rw [hd]
    show p.val = if a = 1 then 0 else p.val
    split
    · have := p.isLt; omega
    · rfl

/-- A column `[a, 1]` broadcast to `[a, b]` reads, at `(p, c)`, the column at row `p`. -/
theorem broadcastInDim_a1_ab_apply {a b : ℕ} (dims : Fin 2 → Fin 2)
    (h : (⟨2, ![a, 1]⟩ : Shape).BroadcastsInDim ⟨2, ![a, b]⟩ dims) (hd : dims 0 = 0)
    (v : (⟨2, ![a, 1]⟩ : Shape).Idx → α) (p : Fin a) (c : Fin b) :
    broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else (ix2 p c (dims 0)).val
    rw [hd]
    show p.val = if a = 1 then 0 else p.val
    split
    · have := p.isLt; omega
    · rfl
  | ⟨1, _⟩ => rfl

/-- A vector `[b]` broadcast to the row `[1, b]` reads, at `(u, c)`, the vector at `c`. -/
theorem broadcastInDim_b_1b_apply {b : ℕ} (dims : Fin 1 → Fin 2)
    (h : (⟨1, ![b]⟩ : Shape).BroadcastsInDim ⟨2, ![1, b]⟩ dims) (hd : dims 0 = 1)
    (v : (⟨1, ![b]⟩ : Shape).Idx → α) (u : Fin 1) (c : Fin b) :
    broadcastInDim ⟨2, ![1, b]⟩ dims h v (ix2 u c) = v (ix1 c) := by
  refine broadcastInDim_apply dims h v (ix2 u c) (ix1 c) fun ax => ?_
  match ax with
  | ⟨0, _⟩ =>
    show c.val = if b = 1 then 0 else (ix2 u c (dims 0)).val
    rw [hd]
    show c.val = if b = 1 then 0 else c.val
    split
    · have := c.isLt; omega
    · rfl

/-- A row `[1, b]` broadcast to `[a, b]` reads, at `(p, c)`, the row at column `c`. -/
theorem broadcastInDim_1b_ab_apply {a b : ℕ} (dims : Fin 2 → Fin 2)
    (h : (⟨2, ![1, b]⟩ : Shape).BroadcastsInDim ⟨2, ![a, b]⟩ dims) (hd : dims 1 = 1)
    (v : (⟨2, ![1, b]⟩ : Shape).Idx → α) (p : Fin a) (c : Fin b) :
    broadcastInDim ⟨2, ![a, b]⟩ dims h v (ix2 p c) = v (ix2 (0 : Fin 1) c) := by
  refine broadcastInDim_apply dims h v (ix2 p c) (ix2 (0 : Fin 1) c) fun ax => ?_
  match ax with
  | ⟨0, _⟩ => rfl
  | ⟨1, _⟩ =>
    show c.val = if b = 1 then 0 else (ix2 p c (dims 1)).val
    rw [hd]
    show c.val = if b = 1 then 0 else c.val
    split
    · have := c.isLt; omega
    · rfl

/-- A rank-0 operand broadcast to any shape reads its one element everywhere. -/
theorem broadcastInDim_scalar_apply {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 fun ax => ax.elim0

/-- A column `[a, 1]` cast to the vector `[a]` reads, at `i`, the column at row `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Layout

/-- The host's sum of an `[a, b]` matrix along its rows, at the ideal values and read at row `r`: the initial value
    plus the sum over the row. -/
theorem hostReduceAdd_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  refine congrArg (_ + ·) (Finset.sum_congr rfl fun k _ => congrArg x (funext fun ax => Fin.ext ?_))
  match ax with
  | ⟨0, _⟩ => rfl
  | ⟨1, _⟩ => rfl

/-- The host's maximum of an `[a, b]` matrix along its rows, read at row `r`: the fold of `max`, from the initial
    value, over the row, in any order. -/
theorem hostReduce_max_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) := by
  refine (Host.reduce_eq_fold_single (FloatOps.maximumf (F := Ideal) (φ := φ)) x init h' h hu (ix1 r)).trans ?_
  refine congrArg (Finset.fold _ _ · _) (funext fun k => congrArg x (funext fun ax => Fin.ext ?_))
  match ax with
  | ⟨0, _⟩ => rfl
  | ⟨1, _⟩ => rfl

/-- A kernel's lane maximum of an `[a, b]` matrix along its rows, at the ideal values and read at row `r`: the fold of
    `max`, from the accumulator's value, over the row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (Finset.fold _ _ · _) (funext fun k => congrArg src (funext fun ax => Fin.ext ?_))
  match ax with
  | ⟨0, _⟩ => rfl
  | ⟨1, _⟩ => rfl

end Idealize.ShloMosaic.ValueIdx

end
-- ==== Proof.BnRows.lean ====
/-
  Batch normalisation followed by the rectifier, one element at a time.

  With the batch mean `μ` and variance `v` of a column given, the normalised, scaled, shifted and rectified value
  of an entry `h` is `max ((h - μ) * rsqrt (v + ε) * γ + β) 0`. Both programs compute exactly this at every entry:
  the kernel's block body from a block of rows and the four `[1, 128]` rows (variance, mean, scale, shift) broadcast
  over it, the reference from the whole `[100000, 128]` array and the four `[128]` vectors broadcast through
  `[1, 128]`.
-/
import proofs.«113947_j66245575574019_1_alg».proof.Proof.Gen.KernelIdeal.Skeleton
import proofs.«113947_j66245575574019_1_alg».proof.Proof.LibHostKeepdims

noncomputable section

namespace Cert.BnRows

open Idealize.ShloMosaic Idealize.ShloMosaic.ValueIdx

/-- One entry of the normalised and rectified array, from the entry `h`, its column's mean `μ` and variance `v`,
    and the column's scale `γ` and shift `β`. The two literals are `ε` (the word of `9.99999974e-6`) and zero. -/
def bnPt (h μ v γ β : EReal) : EReal :=
  max (((h - μ) * Ideal.rsqrt (v + Ideal.ofBits .f32 0x3727C5AC#32)) * γ + β) (Ideal.ofBits .f32 0x00000000#32)

/-- The rectifier's floor is the extended real zero. -/
theorem bnPt_eq (h μ v γ β : EReal) :
    bnPt h μ v γ β = max (((h - μ) * Ideal.rsqrt (v + Ideal.ofBits .f32 0x3727C5AC#32)) * γ + β) 0 := by
  unfold bnPt; rw [Ideal.ofBits_zero_f32]

/-- The kernel's block body, at row `r` and column `j` of the block. Its arguments, in its own order: the variance
    row, the block, the mean row, the scale row, the shift row. -/
theorem ker (va : Vec Ideal Cert.KernelIdeal.S1x128 .f32) (h : Vec Ideal Cert.KernelIdeal.S5000x128 .f32)
    (mu ga be : Vec Ideal Cert.KernelIdeal.S1x128 .f32) (r : Fin 5000) (j : Fin 128) :
    Cert.KernelIdeal.Gen.k2_pay1 (F := Ideal) va h mu ga be (ix2 r j)
      = bnPt (h (ix2 r j)) (mu (ix2 (0 : Fin 1) j)) (va (ix2 (0 : Fin 1) j)) (ga (ix2 (0 : Fin 1) j))
          (be (ix2 (0 : Fin 1) j)) := by
  unfold Cert.KernelIdeal.Gen.k2_pay1
  simp only [shapeCast_self, maximumf_apply, addf_apply, mulf_apply, subf_apply, broadcastTo_1b_ab_apply,
    broadcast_apply]
  rfl

end Cert.BnRows

end
-- ==== Proof.BnRowsRef.lean ====
/-
  Batch normalisation followed by the rectifier, one element at a time: the reference's side.

  The reference normalises the whole `[100000, 128]` array with the four `[128]` vectors (mean, reciprocal standard
  deviation, scale, shift) each broadcast through `[1, 128]` over the rows. Read at row `r` and column `j`, each
  broadcast is its vector at `j`, and the chain of elementwise operations is the same function of the entry, the
  column's mean and variance, and the column's scale and shift as the kernel's block body computes.
-/
import proofs.«113947_j66245575574019_1_alg».proof.Proof.BnRows
import proofs.«113947_j66245575574019_1_alg».proof.Proof.RefRead

noncomputable section

namespace Cert.BnRows

open Idealize.ShloMosaic Idealize.ShloMosaic.ValueIdx
open Cert.ReferenceIdeal Cert.ReferenceIdeal.Read

/-- The mean, broadcast over the rows, at `(r, j)`. -/
theorem mean_at (x0 : (⟨S100000x128, .f32⟩ : BufTy).Contents (Elt Ideal)) (x1 : (⟨S128x128, .f32⟩ : BufTy).Contents (Elt Ideal)) (x2 : (⟨S128, .f32⟩ : BufTy).Contents (Elt Ideal)) (x7 x8 : (⟨S1600000, .i32⟩ : BufTy).Contents (Elt Ideal)) (r : Fin 100000) (j : Fin 128) :
    val_main_v54 (F := Ideal) x0 x1 x2 x7 x8 (ix2 r j) = val_main_v45 (F := Ideal) x0 x1 x2 x7 x8 (ix1 j) := by
  rw [val_main_v54_apply, val_main_v53_apply]
  exact congrArg _ (funext fun a => match a with | ⟨0, _⟩ => rfl)

/-- The reciprocal standard deviation, broadcast over the rows, at `(r, j)`. -/
theorem rstd_at (x0 : (⟨S100000x128, .f32⟩ : BufTy).Contents (Elt Ideal)) (x1 : (⟨S128x128, .f32⟩ : BufTy).Contents (Elt Ideal)) (x2 : (⟨S128, .f32⟩ : BufTy).Contents (Elt Ideal)) (x7 x8 : (⟨S1600000, .i32⟩ : BufTy).Contents (Elt Ideal)) (r : Fin 100000) (j : Fin 128) :
    val_main_v60 (F := Ideal) x0 x1 x2 x7 x8 (ix2 r j) = val_main_v58 (F := Ideal) x0 x1 x2 x7 x8 (ix1 j) := by
  rw [val_main_v60_apply, val_main_v59_apply]
  exact congrArg _ (funext fun a => match a with | ⟨0, _⟩ => rfl)

/-- The scale, broadcast over the rows, at `(r, j)`. -/
theorem scale_at (x3 : (⟨S128, .f32⟩ : BufTy).Contents (Elt Ideal)) (r : Fin 100000) (j : Fin 128) :
    val_main_v63 (F := Ideal) x3 (ix2 r j) = x3 (ix1 j) := by
  rw [val_main_v63_apply, val_main_v62_apply]
  exact congrArg _ (funext fun a => match a with | ⟨0, _⟩ => rfl)

/-- The shift, broadcast over the rows, at `(r, j)`. -/
theorem shift_at (x4 : (⟨S128, .f32⟩ : BufTy).Contents (Elt Ideal)) (r : Fin 100000) (j : Fin 128) :
    val_main_v66 (F := Ideal) x4 (ix2 r j) = x4 (ix1 j) := by
  rw [val_main_v66_apply, val_main_v65_apply]
  exact congrArg _ (funext fun a => match a with | ⟨0, _⟩ => rfl)

/-- The reference's normalised and rectified array, at row `r` and column `j`, from its pre-normalisation array, its
    batch mean and its batch variance. -/
theorem ref (x0 : (⟨S100000x128, .f32⟩ : BufTy).Contents (Elt Ideal)) (x1 : (⟨S128x128, .f32⟩ : BufTy).Contents (Elt Ideal)) (x2 x3 x4 : (⟨S128, .f32⟩ : BufTy).Contents (Elt Ideal)) (x7 x8 : (⟨S1600000, .i32⟩ : BufTy).Contents (Elt Ideal)) (r : Fin 100000) (j : Fin 128) :
    val_main_v68 (F := Ideal) x0 x1 x2 x3 x4 x7 x8 (ix2 r j)
      = bnPt (val_main_v42 (F := Ideal) x0 x1 x2 x7 x8 (ix2 r j)) (val_main_v45 (F := Ideal) x0 x1 x2 x7 x8 (ix1 j))
          (val_main_v52 (F := Ideal) x0 x1 x2 x7 x8 (ix1 j)) (x3 (ix1 j)) (x4 (ix1 j)) := by
  rw [val_main_v68_apply, val_main_v67_apply, val_main_v64_apply, val_main_v61_apply, val_main_v55_apply,
    mean_at, rstd_at, scale_at, shift_at, val_main_v58_apply, val_main_v57_apply, val_main_v56_apply,
    val_main_cst_13_apply, val_main_call1_v0_apply, val_main_call1_cst_apply]
  rfl

end Cert.BnRows

end
-- ==== Proof.LibFiniteOps.lean ====
/-
  "Every entry is a real" is preserved by the host operations of a program read on the extended reals, no program in
  sight.

  An array of extended reals is FINITE when each entry is the coercion of a real. Sums and products of two reals are
  reals, so pointwise sums and products of finite arrays are finite; a finite sum of reals is a real, so a contraction
  (`dot_general`) of finite arrays and an accumulating scatter of finite updates into a finite array are finite,
  whatever the integer indices say (an entry of the scatter is the operand's entry plus the sum of SOME of the
  updates); an entry of a gather or of a broadcast is SOME entry of its operand, and an entry of a select is an entry
  of one of its two branches. A float constant is finite unless its exponent field is all ones. The reciprocal square
  root is the one operation here with a corner (`rsqrt 0 = ⊤`), and a program guards it: where `v > 0` the entry is
  `rsqrt v = 1/√v`, a real, and elsewhere the entry of the other branch.
-/
import Idealize.ShloMosaic.PureOps.Ideal.Laws

noncomputable section

open scoped BigOperators

namespace Cert.LibFiniteOps

open Idealize.ShloMosaic

/-- Every entry of the array `f` is (the coercion of) a real. -/
abbrev AllReal {ι : Type*} (f : ι → EReal) : Prop := ∀ i, ∃ r : ℝ, f i = (r : EReal)

/-- The sum of two reals is a real. -/
theorem real_add {a b : EReal} (ha : ∃ r : ℝ, a = (r : EReal)) (hb : ∃ r : ℝ, b = (r : EReal)) :
    ∃ r : ℝ, a + b = (r : EReal) := by
  obtain ⟨x, rfl⟩ := ha
  obtain ⟨y, rfl⟩ := hb
  exact ⟨x + y, (EReal.coe_add x y).symm⟩

/-- The product of two reals is a real. -/
theorem real_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

/-- A finite sum of reals is a real, over any finite set of indices. -/
theorem real_sum {ι : Type*} (s : Finset ι) {h : ι → EReal} (hfin : AllReal h) :
    ∃ r : ℝ, ∑ k ∈ s, h k = (r : EReal) := by
  classical
  induction s using Finset.induction_on with
  | empty => exact ⟨0, by simp⟩
  | insert a s ha ih => rw [Finset.sum_insert ha]; exact real_add (hfin a) ih

/-- A pointwise product of finite arrays is finite. -/
theorem allReal_mulf {s : Shape} {φ : FTy} {a b : FVec Ideal s φ} (ha : AllReal a) (hb : AllReal b) :
    AllReal (mulf a b) := fun i =>
  (real_mul (ha i) (hb i) : ∃ r : ℝ, a i * b i = (r : EReal))

/-- A pointwise sum of finite arrays is finite. -/
theorem allReal_addf {s : Shape} {φ : FTy} {a b : FVec Ideal s φ} (ha : AllReal a) (hb : AllReal b) :
    AllReal (addf a b) := fun i =>
  (real_add (ha i) (hb i) : ∃ r : ℝ, a i + b i = (r : EReal))

/-- A gather of a finite array is finite, whatever the start indices: each entry is some entry of the operand. -/
theorem allReal_gather {s si t : Shape} {w : Nat} (d : GatherDims s si t) {x : s.Idx → EReal} (hx : AllReal x)
    (idx : IVec si w) : AllReal (Host.gather d x idx) := fun _ => hx _

/-- A `broadcast_in_dim` of a finite array is finite: each entry is some entry of the operand. -/
theorem allReal_broadcastInDim {s : Shape} (t : Shape) (dims : Fin s.rank → Fin t.rank)
    (h : s.BroadcastsInDim t dims) {x : s.Idx → EReal} (hx : AllReal x) : AllReal (broadcastInDim t dims h x) :=
  fun _ => hx _

/-- A select between two finite arrays is finite, whatever the condition. -/
theorem allReal_select {s : Shape} (c : IVec s 1) {a b : s.Idx → EReal} (ha : AllReal a) (hb : AllReal b) :
    AllReal (select c a b) := fun i => by
  show ∃ r : ℝ, (if c i = 1 then a i else b i) = (r : EReal)
  split
  · exact ha i
  · exact hb i

/-- An accumulating scatter of finite updates into a finite array is finite, whatever the scatter indices: each entry
    is the operand's plus the sum of the updates that land on it. -/
theorem allReal_scatterAdd {s si u : Shape} {φ : FTy} {w : Nat} (d : ScatterDims s si u) {x : FVec Ideal s φ}
    (hx : AllReal x) (idx : IVec si w) {upd : FVec Ideal u φ} (hupd : AllReal upd) :
    AllReal (Host.scatterAdd d x idx upd) := fun i => by
  show ∃ r : ℝ, Ideal.hostScatterAdd d x idx upd i = (r : EReal)
  unfold Ideal.hostScatterAdd
  exact real_add (hx i) (real_sum _ hupd)

/-- A contraction (`dot_general`) of finite arrays is finite: each entry is a finite sum of products. -/
theorem allReal_dotGeneral {sl sr so : Shape} {φ₁ φ₂ : FTy} (d : DotDims sl sr so) (prec : Option ContractPrecision)
    {l : FVec Ideal sl φ₁} {r : FVec Ideal sr φ₂} (hl : AllReal l) (hr : AllReal r) :
    AllReal (Host.dotGeneral d prec l r) := fun j => by
  simp only [Host.dotGeneral]
  rw [Ideal.dotGeneral_apply]
  exact real_sum _ fun k => real_mul (hl _) (hr _)

/-- An `f32` pattern whose exponent field is not all ones denotes a real. -/
theorem ofBits_f32_real (b : BitVec 32) (h : (b.extractLsb' 23 8).toNat ≠ 2 ^ 8 - 1) :
    ∃ r : ℝ, Ideal.ofBits .f32 b = (r : EReal) := by
  show ∃ r : ℝ, Ideal.ieee 8 23 b = (r : EReal)
  unfold Ideal.ieee
  dsimp only
  rw [if_neg h]
  split <;> exact ⟨_, rfl⟩

/-- The splat of an `f32` constant whose exponent field is not all ones is finite. -/
theorem allReal_constant_f32 (s : Shape) (b : BitVec 32) (h : (b.extractLsb' 23 8).toNat ≠ 2 ^ 8 - 1) :
    AllReal (constant (F := Ideal) s .f32 b) := fun _ => ofBits_f32_real b h

/-- The splat of the `f32` zero is zero everywhere. -/
theorem constant_zero_f32_apply (s : Shape) (i : s.Idx) : constant (F := Ideal) s .f32 0x00000000#32 i = 0 :=
  Ideal.ofBits_zero_f32

/-- The guarded reciprocal square root: where `v > z`, with `z` zero everywhere, the entry is `rsqrt v`, the
    reciprocal square root of a positive real, hence a real; elsewhere it is the entry of the finite array `w`. The
    corner `rsqrt 0 = ⊤` is never selected. -/
theorem allReal_select_gt_rsqrt {s : Shape} {φ : FTy} {v z w : FVec Ideal s φ} (hv : AllReal v)
    (hz : ∀ i, z i = 0) (hw : AllReal w) : AllReal (select (cmpf .ogt v z) (Host.rsqrt v) w) := fun i => by
  obtain ⟨r, hr⟩ := hv i
  show ∃ q : ℝ, (if Ideal.cmp .ogt (v i) (z i) = 1 then Ideal.rsqrt (v i) else w i) = (q : EReal)
  rw [hr, hz i]
  by_cases h : (0 : ℝ) < r
  · have hc : Ideal.cmp .ogt (r : EReal) 0 = 1 := by simp [Ideal.cmp, h]
    rw [if_pos hc, Ideal.rsqrt_coe, if_neg (not_lt.mpr h.le), if_neg h.ne']
    exact ⟨_, rfl⟩
  · have hc : ¬ Ideal.cmp .ogt (r : EReal) 0 = 1 := by simp [Ideal.cmp, h]
    rw [if_neg hc]
    exact hw i

end Cert.LibFiniteOps
-- ==== Proof.RefFinite.lean ====
/-
  The first aggregation layer of the reference has finite entries whenever its float inputs do.

  The layer is  h = A · (x W) + b : the linear map `x W` (a contraction), then the normalised neighbour aggregation
  `A`, then the bias. The aggregation is written with integer edge lists: the degree of a node is the number of edges
  that point at it (ones scattered into zeros), its weight is `1/√degree` where the degree is positive and `0`
  elsewhere, an edge's coefficient is the product of the weights of its two ends (two gathers), an edge's message is
  the row of `x W` at its source (a gather) times that coefficient, and the messages are added up at their targets
  (a scatter into zeros). None of these steps can leave the reals when `x`, `W` and `b` are real, WHATEVER the
  integer edge lists contain: a gather reads some entry, a scatter adds some of the updates, products and finite sums of
  reals are reals, and the one operation with a corner, the reciprocal square root at `0`, is guarded by the test
  `degree > 0`. So nothing about the edge lists is assumed below. Each stage of the program is unfolded once and
  handed to the lemma for its kind of operation.
-/
import proofs.«113947_j66245575574019_1_alg».proof.Proof.RefRead
import proofs.«113947_j66245575574019_1_alg».proof.Proof.LibFiniteOps

noncomputable section

namespace Cert.RefFinite

open Cert.ReferenceIdeal Cert.ReferenceIdeal.Gen Cert.ReferenceIdeal.Read Idealize.ShloMosaic Cert.LibFiniteOps

/-- The edge lists: `1600000` 32-bit integers each, about which nothing is assumed. -/
abbrev Edges : Type := (⟨S1600000, .i32⟩ : BufTy).Contents (Elt Ideal)

/-- The degrees (ones scattered into zeros along the edge targets and the self loops) are reals. -/
theorem v7_real (x8 : Edges) : AllReal (val_main_v7 (F := Ideal) x8) := by
  unfold val_main_v7
  refine allReal_scatterAdd _ ?_ _ ?_
  · unfold val_main_v5 val_main_cst_0
    exact allReal_broadcastInDim _ _ _ (allReal_constant_f32 _ _ (by decide))
  · unfold val_main_v4 val_main_cst
    exact allReal_broadcastInDim _ _ _ (allReal_constant_f32 _ _ (by decide))

/-- The node weights, `1/√degree` where the degree is positive and `0` elsewhere, are reals. -/
theorem v11_real (x8 : Edges) : AllReal (val_main_v11 (F := Ideal) x8) := by
  unfold val_main_v11 val_main_v9 val_main_v10
  refine allReal_select_gt_rsqrt (v7_real x8) (fun i => ?_) ?_
  · unfold val_main_v8 val_main_cst_1
    exact Ideal.ofBits_zero_f32
  · unfold val_main_call0_v0 val_main_cst_2
    exact allReal_broadcastInDim _ _ _ (allReal_constant_f32 _ _ (by decide))

/-- The weight of each edge's source node (a gather of the node weights) is a real. -/
theorem v18_real (x7 x8 : Edges) : AllReal (val_main_v18 (F := Ideal) x7 x8) := by
  unfold val_main_v18
  exact allReal_gather _ (v11_real x8) _

/-- The weight of each edge's target node (a gather of the node weights) is a real. -/
theorem v25_real (x8 : Edges) : AllReal (val_main_v25 (F := Ideal) x8) := by
  unfold val_main_v25
  exact allReal_gather _ (v11_real x8) _

/-- The coefficient of each edge, the product of the weights of its two ends, is a real. -/
theorem v26_real (x7 x8 : Edges) : AllReal (val_main_v26 (F := Ideal) x7 x8) := by
  unfold val_main_v26
  exact allReal_mulf (v18_real x7 x8) (v25_real x8)

section Floats
variable (x0 : (⟨S100000x128, .f32⟩ : BufTy).Contents (Elt Ideal)) (x1 : (⟨S128x128, .f32⟩ : BufTy).Contents (Elt Ideal))
  (x2 : (⟨S128, .f32⟩ : BufTy).Contents (Elt Ideal))

/-- The linear map `x W` of real arrays is real: each entry is a sum of `128` products. -/
theorem v0_real (h0 : ∀ i, ∃ r : ℝ, x0 i = (r : EReal)) (h1 : ∀ i, ∃ r : ℝ, x1 i = (r : EReal)) :
    AllReal (val_main_v0 (F := Ideal) x0 x1) := by
  unfold val_main_v0
  exact allReal_dotGeneral _ _ h0 h1

/-- The row of `x W` at each edge's source (a gather) is real. -/
theorem v33_real (h0 : ∀ i, ∃ r : ℝ, x0 i = (r : EReal)) (h1 : ∀ i, ∃ r : ℝ, x1 i = (r : EReal)) (x7 : Edges) :
    AllReal (val_main_v33 (F := Ideal) x0 x1 x7) := by
  unfold val_main_v33
  exact allReal_gather _ (v0_real x0 x1 h0 h1) _

/-- The edge coefficients laid along the rows of the messages (two broadcasts) are real. -/
theorem v35_real (x7 x8 : Edges) : AllReal (val_main_v35 (F := Ideal) x7 x8) := by
  unfold val_main_v35 val_main_v34
  exact allReal_broadcastInDim _ _ _ (allReal_broadcastInDim _ _ _ (v26_real x7 x8))

/-- The message of each edge, its source's row of `x W` times its coefficient, is real. -/
theorem v36_real (h0 : ∀ i, ∃ r : ℝ, x0 i = (r : EReal)) (h1 : ∀ i, ∃ r : ℝ, x1 i = (r : EReal)) (x7 x8 : Edges) :
    AllReal (val_main_v36 (F := Ideal) x0 x1 x7 x8) := by
  unfold val_main_v36
  exact allReal_mulf (v33_real x0 x1 h0 h1 x7) (v35_real x7 x8)

/-- The messages added up at their targets (a scatter into zeros) are real. -/
theorem v39_real (h0 : ∀ i, ∃ r : ℝ, x0 i = (r : EReal)) (h1 : ∀ i, ∃ r : ℝ, x1 i = (r : EReal)) (x7 x8 : Edges) :
    AllReal (val_main_v39 (F := Ideal) x0 x1 x7 x8) := by
  unfold val_main_v39
  refine allReal_scatterAdd _ ?_ _ (v36_real x0 x1 h0 h1 x7 x8)
  unfold val_main_v37 val_main_cst_8
  exact allReal_broadcastInDim _ _ _ (allReal_constant_f32 _ _ (by decide))

/-- The bias laid along the rows (two broadcasts) is real. -/
theorem v41_real (h2 : ∀ i, ∃ r : ℝ, x2 i = (r : EReal)) : AllReal (val_main_v41 (F := Ideal) x2) := by
  unfold val_main_v41 val_main_v40
  exact allReal_broadcastInDim _ _ _ (allReal_broadcastInDim _ _ _ h2)

/-- The first layer before its normalisation, `A · (x W) + b`, has real entries whenever `x`, `W` and `b` do,
    whatever the edge lists contain. -/
theorem v42_real (h0 : ∀ i, ∃ r : ℝ, x0 i = (r : EReal)) (h1 : ∀ i, ∃ r : ℝ, x1 i = (r : EReal))
    (h2 : ∀ i, ∃ r : ℝ, x2 i = (r : EReal)) (x7 x8 : Edges) :
    ∀ i, ∃ r : ℝ, val_main_v42 (F := Ideal) x0 x1 x2 x7 x8 i = (r : EReal) := by
  unfold val_main_v42
  exact allReal_addf (v39_real x0 x1 h0 h1 x7 x8) (v41_real x2 h2)

end Floats

end Cert.RefFinite
-- ==== Proof.LibVariance.lean ====
/-
  The variance identity on the extended reals, for finitely many FINITE entries, no program in sight.

  For reals `r k`, `k` ranging over a finite type of `N` elements, and their mean `m = (∑ r k) / N`,
      (∑ (r k - m)²) / N = (∑ (r k)²) / N - m²:
  expand the square, sum the three terms, and use `∑ r k = N · m`. On the extended reals the same identity holds
  when every entry is a real (it fails at the infinities, where `x - x` is not `0`): the division of an extended
  real by a nonzero real is the product with the reciprocal, a finite sum of reals is a real, and so both sides are
  the coercions of the two sides of the real identity. The mean and the variance are then reals themselves, the
  variance a non-negative one.
-/
import Idealize.ShloMosaic.PureOps.Ideal

noncomputable section

open scoped BigOperators

namespace Cert.LibVariance

open Idealize.ShloMosaic

/-- The coercion of a finite sum of reals is the sum of the coercions. -/
theorem coe_finset_sum {ι : Type*} (s : Finset ι) (r : ι → ℝ) :
    ((∑ k ∈ s, r k : ℝ) : EReal) = ∑ k ∈ s, (r k : EReal) := by
  classical
  induction s using Finset.induction_on with
  | empty => simp
  | insert a s ha ih => rw [Finset.sum_insert ha, Finset.sum_insert ha, EReal.coe_add, ih]

/-- A finite sum of extended reals that are all reals is a real. -/
theorem sum_real {ι : Type*} (s : Finset ι) (h : ι → EReal) (hfin : ∀ k, ∃ r : ℝ, h k = (r : EReal)) :
    ∃ r : ℝ, ∑ k ∈ s, h k = (r : EReal) := by
  choose r hr using hfin
  exact ⟨∑ k ∈ s, r k, by rw [coe_finset_sum]; exact Finset.sum_congr rfl fun k _ => hr k⟩

/-- A real divided by a nonzero real, on the extended reals, is the real quotient. -/
theorem div_coe_coe {N : ℝ} (hN0 : N ≠ 0) (x : ℝ) :
    Ideal.div (x : EReal) (N : EReal) = ((x / N : ℝ) : EReal) := by
  rw [Ideal.div_coe hN0, ← EReal.coe_mul, mul_one_div]

/-- The variance identity over the reals: the mean of the squared deviations from the mean is the mean of the
    squares minus the square of the mean. `N` is the number of entries, as a real. -/
theorem real_variance {ι : Type*} [Fintype ι] (r : ι → ℝ) (N : ℝ) (hN : (Fintype.card ι : ℝ) = N) (hN0 : N ≠ 0) :
    (∑ k, (r k - (∑ k, r k) / N) * (r k - (∑ k, r k) / N)) / N
      = (∑ k, r k * r k) / N - (∑ k, r k) / N * ((∑ k, r k) / N) := by
  set m : ℝ := (∑ k, r k) / N with hm
  have hS : ∑ k, r k = N * m := by rw [hm]; field_simp
  have hexp : ∀ k, (r k - m) * (r k - m) = r k * r k - 2 * m * r k + m * m := fun k => by ring
  have h1 : ∑ k, (r k - m) * (r k - m) = ∑ k, r k * r k - 2 * m * (N * m) + N * (m * m) := by
    simp only [hexp]
    rw [Finset.sum_add_distrib, Finset.sum_sub_distrib, ← Finset.mul_sum, hS, Finset.sum_const, Finset.card_univ,
      nsmul_eq_mul, hN]
  rw [h1]
  field_simp
  ring

/-- The mean of finitely many reals, computed on the extended reals, is the real mean. -/
theorem mean_coe {ι : Type*} [Fintype ι] (r : ι → ℝ) (N : ℝ) (hN0 : N ≠ 0) :
    Ideal.div (∑ k, (r k : EReal)) (N : EReal) = (((∑ k, r k) / N : ℝ) : EReal) := by
  rw [← coe_finset_sum, div_coe_coe hN0]

/-- The mean of finitely many finite extended reals is a real. -/
theorem mean_real {ι : Type*} [Fintype ι] (h : ι → EReal) (hfin : ∀ k, ∃ r : ℝ, h k = (r : EReal))
    (N : ℝ) (hN0 : N ≠ 0) : ∃ m : ℝ, Ideal.div (∑ k, h k) (N : EReal) = (m : EReal) := by
  choose r hr using hfin
  obtain rfl : h = fun k => (r k : EReal) := funext hr
  exact ⟨_, mean_coe r N hN0⟩

/-- The variance identity on the extended reals, for finite entries: with `μ` the mean of the `h k`, the mean of
    `(h k - μ)²` is the mean of `(h k)²` minus `μ²`. `N` is the number of entries, as a real. -/
theorem variance_eq {ι : Type*} [Fintype ι] (h : ι → EReal) (hfin : ∀ k, ∃ r : ℝ, h k = (r : EReal))
    (N : ℝ) (hN : (Fintype.card ι : ℝ) = N) (hN0 : N ≠ 0) :
    Ideal.div (∑ k, (h k - Ideal.div (∑ k, h k) (N : EReal)) * (h k - Ideal.div (∑ k, h k) (N : EReal))) (N : EReal)
      = Ideal.div (∑ k, h k * h k) (N : EReal)
          - Ideal.div (∑ k, h k) (N : EReal) * Ideal.div (∑ k, h k) (N : EReal) := by
  choose r hr using hfin
  obtain rfl : h = fun k => (r k : EReal) := funext hr
  rw [mean_coe r N hN0]
  simp only [← EReal.coe_sub, ← EReal.coe_mul, ← coe_finset_sum, div_coe_coe hN0]
  exact congrArg _ (real_variance r N hN hN0)

/-- The variance of finitely many finite extended reals (the mean of the squared deviations from the mean) is a
    non-negative real. -/
theorem variance_real {ι : Type*} [Fintype ι] (h : ι → EReal) (hfin : ∀ k, ∃ r : ℝ, h k = (r : EReal))
    (N : ℝ) (hN : (Fintype.card ι : ℝ) = N) (hN0 : N ≠ 0) :
    ∃ v : ℝ, 0 ≤ v ∧
      Ideal.div (∑ k, (h k - Ideal.div (∑ k, h k) (N : EReal)) * (h k - Ideal.div (∑ k, h k) (N : EReal))) (N : EReal)
        = (v : EReal) := by
  choose r hr using hfin
  obtain rfl : h = fun k => (r k : EReal) := funext hr
  have hNpos : 0 < N := lt_of_le_of_ne (hN ▸ Nat.cast_nonneg _) (Ne.symm hN0)
  refine ⟨(∑ k, (r k - (∑ k, r k) / N) * (r k - (∑ k, r k) / N)) / N,
    div_nonneg (Finset.sum_nonneg fun k _ => mul_self_nonneg _) hNpos.le, ?_⟩
  rw [mean_coe r N hN0]
  simp only [← EReal.coe_sub, ← EReal.coe_mul, ← coe_finset_sum, div_coe_coe hN0]

/-- The mean of the squares of finitely many finite extended reals is a real. -/
theorem meansq_real {ι : Type*} [Fintype ι] (h : ι → EReal) (hfin : ∀ k, ∃ r : ℝ, h k = (r : EReal))
    (N : ℝ) (hN0 : N ≠ 0) : ∃ q : ℝ, Ideal.div (∑ k, h k * h k) (N : EReal) = (q : EReal) := by
  choose r hr using hfin
  obtain rfl : h = fun k => (r k : EReal) := funext hr
  refine ⟨(∑ k, r k * r k) / N, ?_⟩
  simp only [← EReal.coe_mul, ← coe_finset_sum, div_coe_coe hN0]

end Cert.LibVariance
-- ==== Proof.BnStats.lean ====
/-
  The batch statistics of the reference's first layer, column by column.

  Write `H` for the layer before its normalisation (a `[100000, 128]` array), `N = 100000` for the number of rows.
  The reference computes, for each column `j`, the mean `μ j = (∑ₖ H(k, j)) / N` and then the variance in its
  CENTRED form, `(∑ₖ (H(k, j) - μ j)²) / N`: the mean is laid back along the rows (two broadcasts), subtracted,
  the difference squared, and the squares summed down the column. Read at an index these are the two sums below; a
  sum that starts from the constant `0` is the sum. The centred form equals the mean of the squares minus the square
  of the mean, `(∑ₖ H(k, j)²) / N - (μ j)²`, when every entry of `H` is a real — on the extended reals the identity
  fails at the infinities, so this is where the finiteness of the inputs is used. The constant `N` is spelt as a
  32-bit float pattern, which denotes the real `100000` exactly.
-/
import proofs.«113947_j66245575574019_1_alg».proof.Proof.RefRead
import proofs.«113947_j66245575574019_1_alg».proof.Proof.RefFinite
import proofs.«113947_j66245575574019_1_alg».proof.Proof.LibVariance

noncomputable section

open scoped BigOperators

namespace Cert.BnStats

open Cert.ReferenceIdeal Cert.ReferenceIdeal.Gen Cert.ReferenceIdeal.Read Idealize.ShloMosaic Idealize.ShloMosaic.ValueIdx

/-- The pattern `0x47C35000` denotes the real `100000`: exponent `16`, fraction `0x435000 / 2²³`. -/
theorem ofBits_1e5 : Ideal.ofBits .f32 0x47C35000#32 = ((100000 : ℝ) : EReal) := by
  simp [Ideal.ofBits, Ideal.ieee, -EReal.coe_mul]; norm_num

/-- The variance identity for the columns of a `[100000, 128]` array of reals: the centred form is the mean of the
    squares minus the square of the mean. -/
theorem var_core (H : S100000x128.Idx → EReal) (hH : ∀ i, ∃ r : ℝ, H i = (r : EReal)) (j : Fin 128) :
    Ideal.div (∑ k : Fin 100000, (H (ix2 k j) - Ideal.div (∑ k : Fin 100000, H (ix2 k j)) ((100000 : ℝ) : EReal))
        * (H (ix2 k j) - Ideal.div (∑ k : Fin 100000, H (ix2 k j)) ((100000 : ℝ) : EReal))) ((100000 : ℝ) : EReal)
      = Ideal.div (∑ k : Fin 100000, H (ix2 k j) * H (ix2 k j)) ((100000 : ℝ) : EReal)
        - Ideal.div (∑ k : Fin 100000, H (ix2 k j)) ((100000 : ℝ) : EReal)
          * Ideal.div (∑ k : Fin 100000, H (ix2 k j)) ((100000 : ℝ) : EReal) :=
  Cert.LibVariance.variance_eq (fun k : Fin 100000 => H (ix2 k j)) (fun k => hH (ix2 k j)) 100000
    (by rw [Fintype.card_fin]; norm_num) (by norm_num)

section Program
variable (x0 : (⟨S100000x128, .f32⟩ : BufTy).Contents (Elt Ideal)) (x1 : (⟨S128x128, .f32⟩ : BufTy).Contents (Elt Ideal))
  (x2 : (⟨S128, .f32⟩ : BufTy).Contents (Elt Ideal)) (x7 x8 : (⟨S1600000, .i32⟩ : BufTy).Contents (Elt Ideal))

/-- Row `k` of column `j`, as the column sums enumerate it. -/
theorem idx_v43 (j : Fin 128) (k : Fin 100000) : idx_main_v43 (ix1 j) k = ix2 k j :=
  funext fun a => by match a with | ⟨0, _⟩ => rfl | ⟨1, _⟩ => rfl

/-- The same enumeration, for the sum of the squared deviations. -/
theorem idx_v50 (j : Fin 128) (k : Fin 100000) : idx_main_v50 (ix1 j) k = ix2 k j :=
  funext fun a => by match a with | ⟨0, _⟩ => rfl | ⟨1, _⟩ => rfl

/-- The mean laid back along the rows reads, at `(k, j)`, the mean of column `j`. -/
theorem idx_v47_v46 (j : Fin 128) (k : Fin 100000) : idx_main_v46 (idx_main_v47 (ix2 k j)) = ix1 j :=
  funext fun a => by match a with | ⟨0, _⟩ => rfl

/-- The mean of column `j` of the layer: the sum down the column over `N`. No finiteness is needed. -/
theorem mean_ref (j : Fin 128) :
    val_main_v45 (F := Ideal) x0 x1 x2 x7 x8 (ix1 j)
      = Ideal.div (∑ k : Fin 100000, val_main_v42 (F := Ideal) x0 x1 x2 x7 x8 (ix2 k j))
          (Ideal.ofBits .f32 0x47C35000#32) := by
  rw [val_main_v45_apply, Ideal.hostDivf_def, val_main_v43_apply, val_main_v44_apply, val_main_cst_9_apply,
    val_main_cst_10_apply]
  simp only [Ideal.ofBits_def, idx_v43]
  rw [Ideal.ofBits_zero_f32, zero_add]

/-- The squared deviation at `(k, j)`, as the reference computes it. -/
theorem sq_dev_ref (j : Fin 128) (k : Fin 100000) :
    val_main_v49 (F := Ideal) x0 x1 x2 x7 x8 (idx_main_v50 (ix1 j) k)
      = (val_main_v42 (F := Ideal) x0 x1 x2 x7 x8 (ix2 k j) - val_main_v45 (F := Ideal) x0 x1 x2 x7 x8 (ix1 j))
        * (val_main_v42 (F := Ideal) x0 x1 x2 x7 x8 (ix2 k j) - val_main_v45 (F := Ideal) x0 x1 x2 x7 x8 (ix1 j)) := by
  rw [idx_v50, val_main_v49_apply, val_main_v48_apply, val_main_v47_apply, val_main_v46_apply, idx_v47_v46]
  simp only [Ideal.mulf_def, Ideal.subf_def]

/-- The variance of column `j` in the reference's centred form, before any identity: the sum of the squared
    deviations from the column's mean, over `N`. No finiteness is needed. -/
theorem var_ref_centred (j : Fin 128) :
    val_main_v52 (F := Ideal) x0 x1 x2 x7 x8 (ix1 j)
      = Ideal.div (∑ k : Fin 100000,
            (val_main_v42 (F := Ideal) x0 x1 x2 x7 x8 (ix2 k j) - val_main_v45 (F := Ideal) x0 x1 x2 x7 x8 (ix1 j))
            * (val_main_v42 (F := Ideal) x0 x1 x2 x7 x8 (ix2 k j) - val_main_v45 (F := Ideal) x0 x1 x2 x7 x8 (ix1 j)))
          (Ideal.ofBits .f32 0x47C35000#32) := by
  rw [val_main_v52_apply, Ideal.hostDivf_def, val_main_v50_apply, val_main_v51_apply, val_main_cst_11_apply,
    val_main_cst_12_apply, Finset.sum_congr rfl fun k _ => sq_dev_ref x0 x1 x2 x7 x8 j k]
  simp only [Ideal.ofBits_def]
  rw [Ideal.ofBits_zero_f32, zero_add]

/-- The variance of column `j` as the mean of the squares minus the square of the mean, when every entry of the
    layer is a real. -/
theorem var_ref_of_finite
    (hH : ∀ i, ∃ r : ℝ, val_main_v42 (F := Ideal) x0 x1 x2 x7 x8 i = (r : EReal)) (j : Fin 128) :
    val_main_v52 (F := Ideal) x0 x1 x2 x7 x8 (ix1 j)
      = Ideal.div (∑ k : Fin 100000, val_main_v42 (F := Ideal) x0 x1 x2 x7 x8 (ix2 k j)
            * val_main_v42 (F := Ideal) x0 x1 x2 x7 x8 (ix2 k j)) (Ideal.ofBits .f32 0x47C35000#32)
        - Ideal.div (∑ k : Fin 100000, val_main_v42 (F := Ideal) x0 x1 x2 x7 x8 (ix2 k j))
            (Ideal.ofBits .f32 0x47C35000#32)
          * Ideal.div (∑ k : Fin 100000, val_main_v42 (F := Ideal) x0 x1 x2 x7 x8 (ix2 k j))
            (Ideal.ofBits .f32 0x47C35000#32) := by
  rw [var_ref_centred, mean_ref, ofBits_1e5]
  generalize val_main_v42 (F := Ideal) x0 x1 x2 x7 x8 = H at hH ⊢
  exact var_core H hH j

/-- The variance of column `j` as the mean of the squares minus the square of the mean, when the float inputs are
    reals (the layer's entries are then reals, whatever the edge lists contain). -/
theorem var_ref (hx0 : ∀ i, ∃ r : ℝ, x0 i = (r : EReal)) (hx1 : ∀ i, ∃ r : ℝ, x1 i = (r : EReal))
    (hx2 : ∀ i, ∃ r : ℝ, x2 i = (r : EReal)) (j : Fin 128) :
    val_main_v52 (F := Ideal) x0 x1 x2 x7 x8 (ix1 j)
      = Ideal.div (∑ k : Fin 100000, val_main_v42 (F := Ideal) x0 x1 x2 x7 x8 (ix2 k j)
            * val_main_v42 (F := Ideal) x0 x1 x2 x7 x8 (ix2 k j)) (Ideal.ofBits .f32 0x47C35000#32)
        - Ideal.div (∑ k : Fin 100000, val_main_v42 (F := Ideal) x0 x1 x2 x7 x8 (ix2 k j))
            (Ideal.ofBits .f32 0x47C35000#32)
          * Ideal.div (∑ k : Fin 100000, val_main_v42 (F := Ideal) x0 x1 x2 x7 x8 (ix2 k j))
            (Ideal.ofBits .f32 0x47C35000#32) :=
  var_ref_of_finite x0 x1 x2 x7 x8 (Cert.RefFinite.v42_real x0 x1 x2 hx0 hx1 hx2 x7 x8) j

end Program

end Cert.BnStats
-- ==== Proof.ChainB.lean ====
/-
  The normalization of the idealized kernel, read off its run: the statistics launch leaves the column sums and the
  column sums of squares of the first layer's output; the host operations that follow turn them into the mean row and
  the variance row (mean of squares minus squared mean), which equal the reference's mean and centred variance because
  every entry of that output is a real number; the normalize-and-rectify launch is then, entry by entry, the
  reference's normalized and rectified output.
-/
import proofs.«113947_j66245575574019_1_alg».proof.Proof.Gen.KernelIdeal.Frame
import proofs.«113947_j66245575574019_1_alg».proof.Proof.RefRead
import proofs.«113947_j66245575574019_1_alg».proof.Proof.R1
import proofs.«113947_j66245575574019_1_alg».proof.Proof.R2
import proofs.«113947_j66245575574019_1_alg».proof.Proof.ChainA
import proofs.«113947_j66245575574019_1_alg».proof.Proof.BnRows
import proofs.«113947_j66245575574019_1_alg».proof.Proof.BnRowsRef
import proofs.«113947_j66245575574019_1_alg».proof.Proof.BnStats
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo
open scoped BigOperators

namespace Cert.Chain

open Cert.LibFinish

open Cert.KernelIdeal Cert.KernelIdeal.Gen

variable (m : (ℓ : Loc nD τ sig) → Buf (Elt Ideal) ℓ) (ρ : Dev nD → PrngReg) (c : Dev nD)

open Cert.ReferenceIdeal.Read in
/-- The reference's first-layer output, as a function of the kernel's launch memory. -/
abbrev H0 : S100000x128.Idx → EReal :=
  val_main_v42 (F := Ideal) (m ((c : Thread nD τ).loc main_arg0)) (m ((c : Thread nD τ).loc main_arg1))
    (m ((c : Thread nD τ).loc main_arg2)) (m ((c : Thread nD τ).loc main_arg7)) (m ((c : Thread nD τ).loc main_arg8))

/-- The mean row and the variance row the host operations compute from column sums. -/
def meanRow (H : S100000x128.Idx → EReal) : S1x128.Idx → EReal :=
  fun i => Ideal.div (Cert.KernelIdeal.R1.colSums H i) (Ideal.ofBits .f32 0x47C35000#32)
def varRow (H : S100000x128.Idx → EReal) : S1x128.Idx → EReal :=
  fun i => Ideal.div (Cert.KernelIdeal.R1.colSumSqs H i) (Ideal.ofBits .f32 0x47C35000#32) - meanRow H i * meanRow H i

/-! ## After the statistics launch -/

theorem W5_v42 : W5 m ρ c (Proc.devRef .tc main_v42) = H0 m c :=
  ((W5_arr m ρ c 0).trans (((dat1 (V4 m ρ) c).arrAt_in 0 rfl _).trans (A_eq1 (V4 m ρ) c 0))).trans (v42_eq m ρ c)

theorem V4_v42 : V4 m ρ c main_v42 = H0 m c := v42_eq m ρ c

theorem W5_sum : W5 m ρ c (Proc.devRef .tc main_v43_0) = Cert.KernelIdeal.R1.colSums (H0 m c) := by
  refine (W5_arr m ρ c 1).trans ?_
  rw [Cert.KernelIdeal.R1.final1 (V4 m ρ) c, V4_v42 m ρ c]

theorem W5_sumsq : W5 m ρ c (Proc.devRef .tc main_v43_1) = Cert.KernelIdeal.R1.colSumSqs (H0 m c) := by
  refine (W5_arr m ρ c 2).trans ?_
  rw [Cert.KernelIdeal.R1.final2 (V4 m ρ) c, V4_v42 m ρ c]

theorem W5_arg3 : W5 m ρ c (Proc.devRef .tc main_arg3) = m ((c : Thread nD τ).loc main_arg3) := by
  rw [W5_of_ne m ρ c main_arg3 (by decide)]
  show StableHlo.after hostOps1_2 (StableHlo.after hostOps1_1 (StableHlo.after hostOps1 (W1 m ρ c))) (Proc.devRef .tc main_arg3) = _
  simp only [hostOps1_2, hostOps1_1, hostOps1]
  after_results_simp
  finish_results
  exact W1_of_ne m ρ c main_arg3 (by decide)

theorem W5_arg4 : W5 m ρ c (Proc.devRef .tc main_arg4) = m ((c : Thread nD τ).loc main_arg4) := by
  rw [W5_of_ne m ρ c main_arg4 (by decide)]
  show StableHlo.after hostOps1_2 (StableHlo.after hostOps1_1 (StableHlo.after hostOps1 (W1 m ρ c))) (Proc.devRef .tc main_arg4) = _
  simp only [hostOps1_2, hostOps1_1, hostOps1]
  after_results_simp
  finish_results
  exact W1_of_ne m ρ c main_arg4 (by decide)

/-! ## The five operands of the normalize-and-rectify launch -/

theorem V6_v42 : V6 m ρ c main_v42 = H0 m c := by
  show StableHlo.after hostOps2 (W5 m ρ c) (Proc.devRef .tc main_v42) = _
  simp only [hostOps2]
  after_results_simp
  finish_results
  exact W5_v42 m ρ c

theorem V6_v45 : V6 m ρ c main_v45 = meanRow (H0 m c) := by
  show StableHlo.after hostOps2 (W5 m ρ c) (Proc.devRef .tc main_v45) = _
  simp only [hostOps2]
  after_results_simp
  finish_results
  rw [W5_sum m ρ c]
  unfold meanRow
  generalize Cert.KernelIdeal.R1.colSums (H0 m c) = S
  rfl

theorem V6_v49 : V6 m ρ c main_v49 = varRow (H0 m c) := by
  show StableHlo.after hostOps2 (W5 m ρ c) (Proc.devRef .tc main_v49) = _
  simp only [hostOps2]
  after_results_simp
  finish_results
  rw [W5_sum m ρ c, W5_sumsq m ρ c]
  unfold varRow meanRow
  generalize Cert.KernelIdeal.R1.colSums (H0 m c) = S
  generalize Cert.KernelIdeal.R1.colSumSqs (H0 m c) = Q
  rfl

theorem V6_v50 (j : Fin 128) : (V6 m ρ c main_v50 : S1x128.Idx → EReal) (ix2 (0 : Fin 1) j)
    = (m ((c : Thread nD τ).loc main_arg3) : S128.Idx → EReal) (ix1 j) := by
  show StableHlo.after hostOps2 (W5 m ρ c) (Proc.devRef .tc main_v50) (ix2 (0 : Fin 1) j) = _
  simp only [hostOps2]
  after_results_simp
  finish_results
  rw [W5_arg3 m ρ c]
  exact shapeCast_a_1a_apply _ _ (0 : Fin 1) j

theorem V6_v51 (j : Fin 128) : (V6 m ρ c main_v51 : S1x128.Idx → EReal) (ix2 (0 : Fin 1) j)
    = (m ((c : Thread nD τ).loc main_arg4) : S128.Idx → EReal) (ix1 j) := by
  show StableHlo.after hostOps2 (W5 m ρ c) (Proc.devRef .tc main_v51) (ix2 (0 : Fin 1) j) = _
  simp only [hostOps2]
  after_results_simp
  finish_results
  rw [W5_arg4 m ρ c]
  exact shapeCast_a_1a_apply _ _ (0 : Fin 1) j

/-! ## The normalize-and-rectify launch's result is the reference's -/

open Cert.ReferenceIdeal.Read in
theorem W7_v52
    (hx0 : ∀ i, ∃ r : ℝ, (m ((c : Thread nD τ).loc main_arg0) : S100000x128.Idx → EReal) i = (r : EReal))
    (hx1 : ∀ i, ∃ r : ℝ, (m ((c : Thread nD τ).loc main_arg1) : S128x128.Idx → EReal) i = (r : EReal))
    (hx2 : ∀ i, ∃ r : ℝ, (m ((c : Thread nD τ).loc main_arg2) : S128.Idx → EReal) i = (r : EReal)) :
    W7 m ρ c (Proc.devRef .tc main_v52)
      = val_main_v68 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg7)) (m ((c : Thread nD τ).loc main_arg8)) := by
  refine (W7_arr m ρ c 5).trans ?_
  rw [Cert.KernelIdeal.R2.final (V6 m ρ) Cert.BnRows.bnPt Cert.BnRows.ker c, V6_v42 m ρ c, V6_v45 m ρ c, V6_v49 m ρ c]
  funext i
  obtain ⟨r, j, rfl⟩ : ∃ (r : Fin 100000) (j : Fin 128), i = ix2 r j := ⟨i 0, i 1, eq_ix2 i⟩
  rw [Cert.BnRows.ref, Cert.BnStats.mean_ref, Cert.BnStats.var_ref _ _ _ _ _ hx0 hx1 hx2]
  show Cert.BnRows.bnPt (H0 m c (ix2 r j)) (meanRow (H0 m c) (ix2 (0 : Fin 1) j)) (varRow (H0 m c) (ix2 (0 : Fin 1) j))
      ((V6 m ρ c main_v50 : S1x128.Idx → EReal) (ix2 (0 : Fin 1) j)) ((V6 m ρ c main_v51 : S1x128.Idx → EReal) (ix2 (0 : Fin 1) j)) = _
  rw [V6_v50 m ρ c j, V6_v51 m ρ c j]
  unfold varRow meanRow
  rw [Cert.KernelIdeal.R1.colSums_apply, Cert.KernelIdeal.R1.colSumSqs_apply]

end Cert.Chain

end
-- ==== Proof.SoftmaxRows.lean ====
/-
  The row-wise `log_softmax`, one element at a time.

  For a row `v` of forty entries with maximum `M` (the fold of `max` over the row from `-∞`), the entry `j` of the
  result is `(v j - M) - log (∑ k, exp (v k - M))`. The kernel's block body computes exactly this at every entry of a
  block of rows: a lane maximum along each row, cast to a column and broadcast back over the row, subtracted; the
  exponentials summed along each row, cast to a column, the logarithm taken, broadcast back and subtracted.
-/
import proofs.«113947_j66245575574019_1_alg».proof.Proof.Gen.KernelIdeal.Skeleton
import proofs.«113947_j66245575574019_1_alg».proof.Proof.LibHostKeepdims

noncomputable section

open scoped BigOperators

namespace Cert.SoftmaxRows

open Idealize.ShloMosaic Idealize.ShloMosaic.ValueIdx

/-- The maximum of a row of forty entries, as the fold of `max` from `-∞` (the word `0xFF800000`). -/
def rowMax (v : Fin 40 → EReal) : EReal :=
  (Finset.univ : Finset (Fin 40)).fold max (Ideal.ofBits .f32 0xFF800000#32) v

/-- One entry of the row-wise `log_softmax`: the entry less the row's maximum, less the logarithm of the sum of the
    exponentials of the row's entries each less that maximum. -/
def lsRow (v : Fin 40 → EReal) (j : Fin 40) : EReal :=
  (v j - rowMax v) - Ideal.log (∑ k : Fin 40, Ideal.exp (v k - rowMax v))

section Layout
variable {α : Type}

/-- A vector `[a]` cast to the column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A kernel's lane sum of an `[a, b]` matrix along its rows, at the ideal values and read at row `r`. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

open Cert.KernelIdeal in
/-- The kernel's lane maximum of a block, at row `r`: the row's maximum. -/
theorem ker_max (x : FVec Ideal S5000x40 .f32) (h : S5000x40.Reduces [1] S5000) (hφ : FKind.Formats .f32)
    (hacc : (0xFF800000#32 : BitVec 32) = 0xFF800000#32) (r : Fin 5000) :
    multiReduction .maximumf [1] S5000 x 0xFF800000#32 h hφ hacc (ix1 r)
      = rowMax (fun k => x (ix2 r k)) :=
  multiReduction_maximumf_rows_apply x 0xFF800000#32 h hφ hacc r

open Cert.KernelIdeal in
/-- The kernel's lane sum of a block, at row `r`: the row's sum. -/
theorem ker_sum (x : FVec Ideal S5000x40 .f32) (h : S5000x40.Reduces [1] S5000) (hφ : FKind.Formats .f32)
    (hacc : (0x00000000#32 : BitVec 32) = 0x00000000#32) (r : Fin 5000) :
    multiReduction .add [1] S5000 x 0x00000000#32 h hφ hacc (ix1 r)
      = ∑ k : Fin 40, x (ix2 r k) :=
  multiReduction_add_rows_apply x 0x00000000#32 h hφ hacc r

theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-- The kernel's block body, at row `r` and column `j` of the block. -/
theorem ker (x : Vec Ideal Cert.KernelIdeal.S5000x40 .f32) (r : Fin 5000) (j : Fin 40) :
    Cert.KernelIdeal.Gen.k4_pay1 (F := Ideal) x (ix2 r j) = lsRow (fun k => x (ix2 r k)) j := by
  unfold Cert.KernelIdeal.Gen.k4_pay1
  simp only [shapeCast_self]
  rw [subf_apply, subf_apply, broadcastTo_a1_ab_apply, broadcastTo_a1_ab_apply, shapeCast_a_a1_apply, log_apply,
    shapeCast_a_a1_apply, ker_max, ker_sum]
  unfold lsRow
  refine congrArg (fun s => _ - Ideal.log s) (Finset.sum_congr rfl fun k _ => ?_)
  rw [exp_apply, subf_apply, broadcastTo_a1_ab_apply, shapeCast_a_a1_apply, ker_max]

end Cert.SoftmaxRows

end
-- ==== Proof.SoftmaxRowsRef.lean ====
/-
  The row-wise `log_softmax`, one element at a time: the reference's side.

  The reference's outlined `log_softmax` reduces each row to its maximum from `-∞`, takes the maximum with `-∞` once
  more (which changes nothing: a fold of `max` from `b` is at least `b`), broadcasts it through `[100000, 1]` back
  over the row and subtracts; then sums the exponentials along each row from zero, takes the logarithm, broadcasts and
  subtracts. Read at row `r` and column `j` this is the same function of the row as the kernel's block body computes.
-/
import proofs.«113947_j66245575574019_1_alg».proof.Proof.SoftmaxRows
import proofs.«113947_j66245575574019_1_alg».proof.Proof.Gen.ReferenceIdeal
import proofs.«113947_j66245575574019_1_alg».proof.Proof.RefRead

noncomputable section

open scoped BigOperators

namespace Cert.SoftmaxRows

open Idealize.ShloMosaic Idealize.ShloMosaic.ValueIdx

open Cert.ReferenceIdeal Cert.ReferenceIdeal.Read

/-- The fold of `max` from `b` is at least `b`, so taking the maximum with `b` once more changes nothing. -/
theorem max_fold_self {ι : Type} (s : Finset ι) (b : EReal) (f : ι → EReal) : max b (s.fold max b f) = s.fold max b f :=
  max_eq_right ((Finset.le_fold_max (s := s) (b := b) (f := f) (c := b)).2 (Or.inl le_rfl))

/-- The reference's row maxima: the maximum, with a vector of `-∞`, of the host's reduction along the rows from `-∞`. -/
def refMax (y : FVec Ideal S100000x40 .f32) : FVec Ideal S100000 .f32 :=
  maximumf (F := Ideal) (broadcastInDim S100000 ![] Gen.bcast_S_S100000 (constant (F := Ideal) S_ .f32 0xFF800000#32))
    (Host.reduce (FloatOps.maximumf (F := Ideal) (φ := .f32)) y (constant (F := Ideal) S_ .f32 0xFF800000#32)
      Gen.reducesTo_S100000x40_S100000_d1 Gen.h_S_)

/-- The reference's array less its row maxima, the maxima broadcast through `[100000, 1]`. -/
def refShift (y : FVec Ideal S100000x40 .f32) : FVec Ideal S100000x40 .f32 :=
  subf (F := Ideal) y (broadcastInDim S100000x40 ![0, 1] Gen.bcast_S100000x1_S100000x40_0_1
    (broadcastInDim S100000x1 ![0] Gen.bcast_S100000_S100000x1_0 (refMax y)))

/-- The reference's `log_softmax` of an array `y`: the fifteen host operations of the outlined function. -/
def refLS (y : FVec Ideal S100000x40 .f32) : FVec Ideal S100000x40 .f32 :=
  subf (F := Ideal) (refShift y) (broadcastInDim S100000x40 ![0, 1] Gen.bcast_S100000x1_S100000x40_0_1
    (Host.log (F := Ideal) (broadcastInDim S100000x1 ![0] Gen.bcast_S100000_S100000x1_0
      (Host.reduceAdd (F := Ideal) (Host.exp (F := Ideal) (refShift y)) (constant (F := Ideal) S_ .f32 0x00000000#32)
        Gen.reducesTo_S100000x40_S100000_d1 Gen.h_S_))))

/-- The reference's result is `refLS` of the array its second aggregation leaves. -/
theorem ref_eq (x0 : (⟨S100000x128, .f32⟩ : BufTy).Contents (Elt Ideal)) (x1 : (⟨S128x128, .f32⟩ : BufTy).Contents (Elt Ideal)) (x2 x3 x4 : (⟨S128, .f32⟩ : BufTy).Contents (Elt Ideal)) (x5 : (⟨S128x40, .f32⟩ : BufTy).Contents (Elt Ideal)) (x6 : (⟨S40, .f32⟩ : BufTy).Contents (Elt Ideal)) (x7 x8 : (⟨S1600000, .i32⟩ : BufTy).Contents (Elt Ideal)) :
    val_main_v112 (F := Ideal) x0 x1 x2 x3 x4 x5 x6 x7 x8 = refLS (val_main_v111 (F := Ideal) x0 x1 x2 x3 x4 x5 x6 x7 x8) := by
  unfold val_main_v112 val_main_call3_v10 val_main_call3_v9 val_main_call3_v8 val_main_call3_v7 val_main_call3_v6
    val_main_call3_v5 val_main_call3_v4 val_main_call3_v3 val_main_call3_v2 val_main_call3_v1 val_main_call3_v0
    val_main_call3_cst val_main_call3_cst_0 val_main_call3_cst_1
  generalize val_main_v111 (F := Ideal) x0 x1 x2 x3 x4 x5 x6 x7 x8 = y
  rfl

theorem hostExp_apply {s : Shape} {φ : FTy} (a : FVec Ideal s φ) (i : s.Idx) : Host.exp a i = Ideal.exp (a i) := rfl
theorem hostLog_apply {s : Shape} {φ : FTy} (a : FVec Ideal s φ) (i : s.Idx) : Host.log a i = Ideal.log (a i) := rfl

/-- The reference's row maxima at row `r`: the row's maximum. -/
theorem refMax_apply (y : FVec Ideal S100000x40 .f32) (r : Fin 100000) :
    refMax y (ix1 r) = rowMax (fun k => y (ix2 r k)) := by
  unfold refMax
  rw [maximumf_apply, broadcastInDim_scalar_apply, constant_apply,
    hostReduce_max_rows_apply (a := 100000) (b := 40) y _ _ (by decide) _ r, constant_apply]
  exact max_fold_self _ _ _

/-- The reference's shifted array at `(r, j)`. -/
theorem refShift_apply (y : FVec Ideal S100000x40 .f32) (r : Fin 100000) (j : Fin 40) :
    refShift y (ix2 r j) = y (ix2 r j) - rowMax (fun k => y (ix2 r k)) := by
  unfold refShift
  rw [subf_apply, broadcastInDim_a1_ab_apply (a := 100000) (b := 40) _ _ rfl,
    broadcastInDim_a_a1_apply (a := 100000) _ _ rfl, refMax_apply]

/-- The reference's `log_softmax`, at row `r` and column `j`. -/
theorem ref (y : FVec Ideal S100000x40 .f32) (r : Fin 100000) (j : Fin 40) :
    refLS y (ix2 r j) = lsRow (fun k => y (ix2 r k)) j := by
  unfold refLS
  rw [subf_apply, refShift_apply, broadcastInDim_a1_ab_apply (a := 100000) (b := 40) _ _ rfl, hostLog_apply,
    broadcastInDim_a_a1_apply (a := 100000) _ _ rfl,
    hostReduceAdd_rows_apply (a := 100000) (b := 40) _ _ _ (by decide) _ r, constant_apply,
    Ideal.ofBits_zero_f32, zero_add]
  unfold lsRow
  refine congrArg (fun s => _ - Ideal.log s) (Finset.sum_congr rfl fun k _ => ?_)
  rw [hostExp_apply, refShift_apply]

end Cert.SoftmaxRows

end
-- ==== Proof.ChainC.lean ====
/-
  The second layer of the idealized kernel, read off its run: the second linear launch leaves the whole product of the
  normalized output and W2, the host operations that follow are the reference's second aggregation line for line, and
  the last launch is the reference's row-wise log-softmax; so the kernel's result array is the reference's result as a
  function of the arguments.
-/
import proofs.«113947_j66245575574019_1_alg».proof.Proof.Gen.KernelIdeal.Frame
import proofs.«113947_j66245575574019_1_alg».proof.Proof.RefRead
import proofs.«113947_j66245575574019_1_alg».proof.Proof.R3
import proofs.«113947_j66245575574019_1_alg».proof.Proof.R4
import proofs.«113947_j66245575574019_1_alg».proof.Proof.ChainA
import proofs.«113947_j66245575574019_1_alg».proof.Proof.ChainB
import proofs.«113947_j66245575574019_1_alg».proof.Proof.SoftmaxRows
import proofs.«113947_j66245575574019_1_alg».proof.Proof.SoftmaxRowsRef
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo
open scoped BigOperators

namespace Cert.Chain

open Cert.LibFinish Cert.LibTypedRef

open Cert.KernelIdeal Cert.KernelIdeal.Gen

variable (m : (ℓ : Loc nD τ sig) → Buf (Elt Ideal) ℓ) (ρ : Dev nD → PrngReg) (c : Dev nD)

theorem W7_arg5 : W7 m ρ c (Proc.devRef .tc main_arg5) = m ((c : Thread nD τ).loc main_arg5) := by
  rw [W7_of_ne m ρ c main_arg5 (by decide)]
  show StableHlo.after hostOps2 (W5 m ρ c) (Proc.devRef .tc main_arg5) = _
  simp only [hostOps2]
  after_results_simp
  finish_results
  rw [W5_of_ne m ρ c main_arg5 (by decide)]
  show StableHlo.after hostOps1_2 (StableHlo.after hostOps1_1 (StableHlo.after hostOps1 (W1 m ρ c))) (Proc.devRef .tc main_arg5) = _
  simp only [hostOps1_2, hostOps1_1, hostOps1]
  after_results_simp
  finish_results
  exact W1_of_ne m ρ c main_arg5 (by decide)

theorem W8_arg6 : W8 m ρ c (Proc.devRef .tc main_arg6) = m ((c : Thread nD τ).loc main_arg6) := by
  rw [W8_of_ne m ρ c main_arg6 (by decide)]
  rw [W7_of_ne m ρ c main_arg6 (by decide)]
  show StableHlo.after hostOps2 (W5 m ρ c) (Proc.devRef .tc main_arg6) = _
  simp only [hostOps2]
  after_results_simp
  finish_results
  rw [W5_of_ne m ρ c main_arg6 (by decide)]
  show StableHlo.after hostOps1_2 (StableHlo.after hostOps1_1 (StableHlo.after hostOps1 (W1 m ρ c))) (Proc.devRef .tc main_arg6) = _
  simp only [hostOps1_2, hostOps1_1, hostOps1]
  after_results_simp
  finish_results
  exact W1_of_ne m ρ c main_arg6 (by decide)

theorem W8_arg7 : W8 m ρ c (Proc.devRef .tc main_arg7) = m ((c : Thread nD τ).loc main_arg7) := by
  rw [W8_of_ne m ρ c main_arg7 (by decide)]
  rw [W7_of_ne m ρ c main_arg7 (by decide)]
  show StableHlo.after hostOps2 (W5 m ρ c) (Proc.devRef .tc main_arg7) = _
  simp only [hostOps2]
  after_results_simp
  finish_results
  rw [W5_of_ne m ρ c main_arg7 (by decide)]
  show StableHlo.after hostOps1_2 (StableHlo.after hostOps1_1 (StableHlo.after hostOps1 (W1 m ρ c))) (Proc.devRef .tc main_arg7) = _
  simp only [hostOps1_2, hostOps1_1, hostOps1]
  after_results_simp
  finish_results
  exact W1_of_ne m ρ c main_arg7 (by decide)

theorem W8_arg8 : W8 m ρ c (Proc.devRef .tc main_arg8) = m ((c : Thread nD τ).loc main_arg8) := by
  rw [W8_of_ne m ρ c main_arg8 (by decide)]
  rw [W7_of_ne m ρ c main_arg8 (by decide)]
  show StableHlo.after hostOps2 (W5 m ρ c) (Proc.devRef .tc main_arg8) = _
  simp only [hostOps2]
  after_results_simp
  finish_results
  rw [W5_of_ne m ρ c main_arg8 (by decide)]
  show StableHlo.after hostOps1_2 (StableHlo.after hostOps1_1 (StableHlo.after hostOps1 (W1 m ρ c))) (Proc.devRef .tc main_arg8) = _
  simp only [hostOps1_2, hostOps1_1, hostOps1]
  after_results_simp
  finish_results
  exact W1_of_ne m ρ c main_arg8 (by decide)

open Cert.ReferenceIdeal.Read in
/-- The second linear launch's result is the reference's second product. -/
theorem W8_v53
    (hx0 : ∀ i, ∃ r : ℝ, (m ((c : Thread nD τ).loc main_arg0) : S100000x128.Idx → EReal) i = (r : EReal))
    (hx1 : ∀ i, ∃ r : ℝ, (m ((c : Thread nD τ).loc main_arg1) : S128x128.Idx → EReal) i = (r : EReal))
    (hx2 : ∀ i, ∃ r : ℝ, (m ((c : Thread nD τ).loc main_arg2) : S128.Idx → EReal) i = (r : EReal)) :
    W8 m ρ c (Proc.devRef .tc main_v53) = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) := by
  refine (W8_arr m ρ c 2).trans ?_
  rw [Cert.KernelIdeal.R3.final (V7 m ρ) c]
  rw [show V7 m ρ c main_v52 = _ from W7_v52 m ρ c hx0 hx1 hx2, show V7 m ρ c main_arg5 = _ from W7_arg5 m ρ c]
  funext i
  rw [val_main_v69_apply]
  unfold Cert.KernelIdeal.R3.mmOf
  refine Finset.sum_congr rfl fun k _ => ?_
  have e1 : (ix2 (⟨(i 0).val, (i 0).isLt⟩ : Fin 100000) k : S100000x128.Idx) = lidx_main_v69 i k :=
    funext fun a => by match a with | ⟨0, _⟩ => rfl | ⟨1, _⟩ => rfl
  have e2 : (ix2 k (⟨(i 1).val, (i 1).isLt⟩ : Fin 40) : S128x40.Idx) = ridx_main_v69 i k :=
    funext fun a => by match a with | ⟨0, _⟩ => rfl | ⟨1, _⟩ => rfl
  rw [e1, e2]

/-! ## Through the host operations of the second aggregation, from ANY contents of the buffers they start from -/

theorem aggC1_src (W : Valuation τ sig (Elt Ideal)) (x7 : (⟨Cert.ReferenceIdeal.S1600000, .i32⟩ : BufTy).Contents (Elt Ideal))
    (h7 : W (Proc.devRef .tc main_arg7) = x7) :
    StableHlo.after (hostOps4 (F := Ideal)) W (Proc.devRef .tc main_v55) = Cert.ReferenceIdeal.Read.val_main_v71 (F := Ideal) x7 := by
  simp only [hostOps4]
  after_results_simp
  finish_results
  rw [h7]
  rfl
theorem aggC1_dst (W : Valuation τ sig (Elt Ideal)) (x8 : (⟨Cert.ReferenceIdeal.S1600000, .i32⟩ : BufTy).Contents (Elt Ideal))
    (h8 : W (Proc.devRef .tc main_arg8) = x8) :
    StableHlo.after (hostOps4 (F := Ideal)) W (Proc.devRef .tc main_v56) = Cert.ReferenceIdeal.Read.val_main_v72 (F := Ideal) x8 := by
  simp only [hostOps4]
  after_results_simp
  finish_results
  rw [h8]
  rfl
theorem aggC1_pos (W : Valuation τ sig (Elt Ideal)) (x8 : (⟨Cert.ReferenceIdeal.S1600000, .i32⟩ : BufTy).Contents (Elt Ideal))
    (h8 : W (Proc.devRef .tc main_arg8) = x8) :
    StableHlo.after (hostOps4 (F := Ideal)) W (Proc.devRef .tc main_v62) = Cert.ReferenceIdeal.Read.val_main_v78 (F := Ideal) x8 := by
  simp only [hostOps4]
  after_results_simp
  finish_results
  rw [h8]
  rfl
theorem aggC1_rs (W : Valuation τ sig (Elt Ideal)) (x8 : (⟨Cert.ReferenceIdeal.S1600000, .i32⟩ : BufTy).Contents (Elt Ideal))
    (h8 : W (Proc.devRef .tc main_arg8) = x8) :
    StableHlo.after (hostOps4 (F := Ideal)) W (Proc.devRef .tc main_v63) = Cert.ReferenceIdeal.Read.val_main_v79 (F := Ideal) x8 := by
  simp only [hostOps4]
  after_results_simp
  finish_results
  rw [h8]
  rfl
theorem aggC1_zero (W : Valuation τ sig (Elt Ideal))
 :
    StableHlo.after (hostOps4 (F := Ideal)) W (Proc.devRef .tc main_cst_14) = Cert.ReferenceIdeal.Read.val_main_cst_17 (F := Ideal) := by
  simp only [hostOps4]
  after_results_simp
  finish_results
  rfl
theorem aggC1_keep (W : Valuation τ sig (Elt Ideal)) (b : Ref sig .tc) (hb : b = main_v53 ∨ b = main_arg6) :
    StableHlo.after (hostOps4 (F := Ideal)) W (Proc.devRef .tc b) = W (Proc.devRef .tc b) := by
  rcases hb with rfl | rfl <;> (simp only [hostOps4]; after_results_simp; finish_results)
/-- The inlined select's two operations as plain operations on their buffers (the same functions, the buffers' types read off). -/
abbrev hostOps4_1p : List (HloOp τ sig (Elt Ideal)) :=
  [ StableHlo.unary main_cst_14 main_call1_v0 ((broadcastInDim S100000 ![] bcast_S_S100000) : (⟨S_, .f32⟩ : BufTy).Contents (Elt Ideal) → (⟨S100000, .f32⟩ : BufTy).Contents (Elt Ideal)),
    StableHlo.ternary main_v62 main_v63 main_call1_v0 main_v64 ((select) : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal)) ]
theorem hostOps4_1_eq : (hostOps4_1 : List (HloOp τ sig (Elt Ideal))) = hostOps4_1p := by
  unfold hostOps4_1 hostOps4_1p
  ops_entries
theorem aggC2_dinv (W : Valuation τ sig (Elt Ideal)) (x8 : (⟨Cert.ReferenceIdeal.S1600000, .i32⟩ : BufTy).Contents (Elt Ideal))
    (h9 : W (Proc.devRef .tc main_v62) = Cert.ReferenceIdeal.Read.val_main_v78 (F := Ideal) x8)
    (h10 : W (Proc.devRef .tc main_v63) = Cert.ReferenceIdeal.Read.val_main_v79 (F := Ideal) x8)
    (hc : W (Proc.devRef .tc main_cst_14) = Cert.ReferenceIdeal.Read.val_main_cst_17 (F := Ideal)) :
    StableHlo.after (hostOps4_1 (F := Ideal)) W (Proc.devRef .tc main_v64) = Cert.ReferenceIdeal.Read.val_main_v80 (F := Ideal) x8 := by
  rw [hostOps4_1_eq]
  simp only [hostOps4_1p]
  after_results_simp
  finish_results
  rw [h9, h10, hc]
  rfl
theorem aggC2_keep (W : Valuation τ sig (Elt Ideal)) (b : Ref sig .tc) (hb : b = main_v55 ∨ b = main_v56 ∨ b = main_v53 ∨ b = main_arg6) :
    StableHlo.after (hostOps4_1 (F := Ideal)) W (Proc.devRef .tc b) = W (Proc.devRef .tc b) := by
  rcases hb with rfl | rfl | rfl | rfl <;> (simp only [hostOps4_1]; after_results_simp; finish_results)
theorem aggC3 (W : Valuation τ sig (Elt Ideal)) (x0 : (⟨Cert.ReferenceIdeal.S100000x128, .f32⟩ : BufTy).Contents (Elt Ideal)) (x1 : (⟨Cert.ReferenceIdeal.S128x128, .f32⟩ : BufTy).Contents (Elt Ideal)) (x2 x3 x4 : (⟨Cert.ReferenceIdeal.S128, .f32⟩ : BufTy).Contents (Elt Ideal)) (x5 : (⟨Cert.ReferenceIdeal.S128x40, .f32⟩ : BufTy).Contents (Elt Ideal)) (x6 : (⟨Cert.ReferenceIdeal.S40, .f32⟩ : BufTy).Contents (Elt Ideal)) (x7 : (⟨Cert.ReferenceIdeal.S1600000, .i32⟩ : BufTy).Contents (Elt Ideal)) (x8 : (⟨Cert.ReferenceIdeal.S1600000, .i32⟩ : BufTy).Contents (Elt Ideal))
    (h11 : W (Proc.devRef .tc main_v64) = Cert.ReferenceIdeal.Read.val_main_v80 (F := Ideal) x8)
    (h2 : W (Proc.devRef .tc main_v55) = Cert.ReferenceIdeal.Read.val_main_v71 (F := Ideal) x7)
    (h3 : W (Proc.devRef .tc main_v56) = Cert.ReferenceIdeal.Read.val_main_v72 (F := Ideal) x8)
    (h0 : W (Proc.devRef .tc main_v53) = Cert.ReferenceIdeal.Read.val_main_v69 (F := Ideal) x0 x1 x2 x3 x4 x5 x7 x8)
    (hb : W (Proc.devRef .tc main_arg6) = x6) :
    StableHlo.after (hostOps4_2 (F := Ideal)) W (Proc.devRef .tc main_v95) = Cert.ReferenceIdeal.Read.val_main_v111 (F := Ideal) x0 x1 x2 x3 x4 x5 x6 x7 x8 := by
  simp only [hostOps4_2]
  after_results_simp
  finish_results
  rw [h11, h2, h3, h0, hb]
  rfl

/-- The last launch's operand is the reference's second-layer output. -/
theorem V11_v95
    (hx0 : ∀ i, ∃ r : ℝ, (m ((c : Thread nD τ).loc main_arg0) : S100000x128.Idx → EReal) i = (r : EReal))
    (hx1 : ∀ i, ∃ r : ℝ, (m ((c : Thread nD τ).loc main_arg1) : S128x128.Idx → EReal) i = (r : EReal))
    (hx2 : ∀ i, ∃ r : ℝ, (m ((c : Thread nD τ).loc main_arg2) : S128.Idx → EReal) i = (r : EReal)) :
    V11 m ρ c main_v95 = Cert.ReferenceIdeal.Read.val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps4_2 (StableHlo.after hostOps4_1 (StableHlo.after hostOps4 (W8 m ρ c))) (Proc.devRef .tc main_v95) = _
  refine aggC3 _ _ _ _ _ _ _ _ _ _ ?_ ?_ ?_ ?_ ?_
  · exact aggC2_dinv _ _ (aggC1_pos _ _ (W8_arg8 m ρ c)) (aggC1_rs _ _ (W8_arg8 m ρ c)) (aggC1_zero _)
  · exact (aggC2_keep _ main_v55 (Or.inl rfl)).trans (aggC1_src _ _ (W8_arg7 m ρ c))
  · exact (aggC2_keep _ main_v56 (Or.inr (Or.inl rfl))).trans (aggC1_dst _ _ (W8_arg8 m ρ c))
  · exact ((aggC2_keep _ main_v53 (Or.inr (Or.inr (Or.inl rfl)))).trans (aggC1_keep _ main_v53 (Or.inl rfl))).trans (W8_v53 m ρ c hx0 hx1 hx2)
  · exact ((aggC2_keep _ main_arg6 (Or.inr (Or.inr (Or.inr (rfl))))).trans (aggC1_keep _ main_arg6 (Or.inr (rfl)))).trans (W8_arg6 m ρ c)

open Cert.ReferenceIdeal.Read in
/-- The kernel's result array is the reference's result. -/
theorem W12_v96
    (hx0 : ∀ i, ∃ r : ℝ, (m ((c : Thread nD τ).loc main_arg0) : S100000x128.Idx → EReal) i = (r : EReal))
    (hx1 : ∀ i, ∃ r : ℝ, (m ((c : Thread nD τ).loc main_arg1) : S128x128.Idx → EReal) i = (r : EReal))
    (hx2 : ∀ i, ∃ r : ℝ, (m ((c : Thread nD τ).loc main_arg2) : S128.Idx → EReal) i = (r : EReal)) :
    W12 m ρ c (Proc.devRef .tc main_v96) = val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W12_arr m ρ c 1).trans ?_
  rw [Cert.KernelIdeal.R4.final (V11 m ρ) Cert.SoftmaxRows.lsRow Cert.SoftmaxRows.ker c, V11_v95 m ρ c hx0 hx1 hx2]
  rw [Cert.SoftmaxRows.ref_eq]
  funext i
  obtain ⟨r, j, rfl⟩ : ∃ (r : Fin 100000) (j : Fin 40), i = ix2 r j := ⟨i 0, i 1, eq_ix2 i⟩
  rw [Cert.SoftmaxRows.ref]
  rfl

end Cert.Chain

end
-- ==== Proof.PreFinite.lean ====
/-
  The precondition decoded: the inputs are finite.

  The precondition is a conjunction, array by array, of "every entry's absolute value is below `+∞`": an elementwise
  comparison against the word `0x7F800000` (`+∞`), reduced by `and` over all axes from `true`, the seven results joined by
  `and`. A conjunction of bits that is one has every conjunct one; a reduction by `and` over all axes that is one has every
  element one; and an extended real whose absolute value `max x (-x)` is below `+∞` is neither infinity, so it is a real.
  Only the first three arrays are read off here.
-/
import proofs.«113947_j66245575574019_1_alg».proof.Pre_finite_inputs
import proofs.«113947_j66245575574019_1_alg».proof.Proof.Gen.Pre_finite_inputs
import Idealize.ShloMosaic.Lib.ReduceAll
import Idealize.ShloMosaic.Lib.ValueIdx
import Idealize.ShloMosaic.PureOps.Ideal.Laws

noncomputable section

namespace Cert.PreFinite

open Idealize.ShloMosaic Idealize.ShloMosaic.ValueIdx Cert.Pre_finite_inputs

/-- A rank-0 array has one index. -/
instance : Subsingleton S_.Idx := ⟨fun _ _ => funext fun d => d.elim0⟩

/-- The word `0x7F800000` is `+∞`. -/
theorem ofBits_inf : Ideal.ofBits .f32 0x7F800000#32 = ⊤ := by simp [Ideal.ofBits, Ideal.ieee]

/-- An ordered "less than" that answers one holds. -/
theorem lt_of_cmp_olt (x y : EReal) (h : Ideal.cmp .olt x y = 1#1) : x < y := by
  have h' : BitVec.ofBool (decide (x < y)) = 1#1 := h
  by_contra hn
  rw [decide_eq_false hn] at h'
  exact absurd h' (by decide)

/-- An extended real whose absolute value is below `+∞` is a real. -/
theorem real_of_abs_lt_top (x : EReal) (h : max x (-x) < ⊤) : ∃ r : ℝ, x = (r : EReal) := by
  induction x with
  | bot => rw [EReal.neg_bot, max_eq_right bot_le] at h; exact absurd h (lt_irrefl _)
  | coe r => exact ⟨r, rfl⟩
  | top => rw [max_eq_left le_top] at h; exact absurd h (lt_irrefl _)

/-- An entry whose absolute value compares below the broadcast `+∞` is a real. -/
theorem real_of_cmp {s : Shape} (x : FVec Ideal s .f32) (dims : Fin S_.rank → Fin s.rank)
    (hb : S_.BroadcastsInDim s dims) (i : s.Idx)
    (h : cmpf (F := Ideal) .olt (Host.absf (F := Ideal) x)
      (broadcastInDim s dims hb (constant (F := Ideal) S_ .f32 0x7F800000#32)) i = 1#1) :
    ∃ r : ℝ, x i = (r : EReal) := by
  have h' : Ideal.cmp .olt (max (x i) (-(x i))) (Ideal.ofBits .f32 0x7F800000#32) = 1#1 := h
  rw [ofBits_inf] at h'
  exact real_of_abs_lt_top _ (lt_of_cmp_olt _ _ h')

theorem andi_apply {s : Shape} {w : ℕ} (x y : IVec s w) (i : s.Idx) : andi x y i = IntOp.andi (x i) (y i) := rfl

/-- Under the precondition the first three argument arrays hold reals. -/
theorem finite_of_pre [Cert.Pre_finite_inputs.Facts] (a0 : FVec Ideal S100000x128 .f32) (a1 : FVec Ideal S128x128 .f32)
    (a2 a3 a4 : FVec Ideal S128 .f32) (a5 : FVec Ideal S128x40 .f32) (a6 : FVec Ideal S40 .f32)
    (a7 a8 : IVec S1600000 32)
    (h : Cert.Pre_finite_inputs.fn (F := Ideal) a0 a1 a2 a3 a4 a5 a6 a7 a8 = fun _ => 1#1) :
    (∀ i, ∃ r : ℝ, a0 i = (r : EReal)) ∧ (∀ i, ∃ r : ℝ, a1 i = (r : EReal)) ∧ (∀ i, ∃ r : ℝ, a2 i = (r : EReal)) := by
  have e := congrFun h ix0
  dsimp only [Cert.Pre_finite_inputs.fn, Cert.Pre_finite_inputs.fn_part1] at e
  simp only [andi_apply, IntOp.andi_eq_one] at e
  obtain ⟨⟨⟨⟨⟨⟨e3, e7⟩, e12⟩, -⟩, -⟩, -⟩, -⟩ := e
  exact ⟨fun i => real_of_cmp a0 _ _ i (Host.reduce_andi_all _ _ _ _ ix0 e3 i),
    fun i => real_of_cmp a1 _ _ i (Host.reduce_andi_all _ _ _ _ ix0 e7 i),
    fun i => real_of_cmp a2 _ _ i (Host.reduce_andi_all _ _ _ _ ix0 e12 i)⟩

end Cert.PreFinite

end
-- ==== Proof.lean ====
/-
  The certificate of a two-layer graph network (linear layer, normalized neighbour aggregation, batch normalization and
  rectification, linear layer, aggregation, row-wise log-softmax) against its plain reference, on the extended reals.

  Both programs compute, layer by layer, the same functions of the arguments: each linear launch leaves the whole matrix
  product (a sum over the contracted axis, however it is tiled and whatever format the operands pass through); the
  aggregation between the launches is the same sequence of host operations in both programs; the statistics launch
  leaves column sums and column sums of squares over all 100000 rows (20 tiles of 5000 added in order); the kernel's
  variance, mean of squares minus squared mean, is the reference's mean of squared deviations because every entry of
  the first layer's output is a real number when the float arguments are (a finite sum of products of reals, scaled
  by inverse square roots of positive degree counts) — this is where the precondition is used; the normalization and
  the log-softmax are then the same entrywise and row-wise functions on both sides.

  The three frames are the generated ones (the reference's is its run, read back in stages, with the result dropped); the ideal pass
  rewrote nothing, so its statement is trivial.
-/
import proofs.«113947_j66245575574019_1_alg».proof.Defs
import proofs.«113947_j66245575574019_1_alg».proof.Proof.Gen.Kernel
import proofs.«113947_j66245575574019_1_alg».proof.Proof.Gen.Kernel.Skeleton
import proofs.«113947_j66245575574019_1_alg».proof.Proof.Gen.Kernel.Launch
import proofs.«113947_j66245575574019_1_alg».proof.Proof.Gen.Kernel.Points
import proofs.«113947_j66245575574019_1_alg».proof.Proof.Gen.Kernel.Frame
import proofs.«113947_j66245575574019_1_alg».proof.Proof.Gen.KernelIdeal
import proofs.«113947_j66245575574019_1_alg».proof.Proof.Gen.KernelIdeal.Skeleton
import proofs.«113947_j66245575574019_1_alg».proof.Proof.Gen.KernelIdeal.Launch
import proofs.«113947_j66245575574019_1_alg».proof.Proof.Gen.KernelIdeal.Points
import proofs.«113947_j66245575574019_1_alg».proof.Proof.Gen.KernelIdeal.Frame
import proofs.«113947_j66245575574019_1_alg».proof.Proof.Gen.ReferenceIdeal
import proofs.«113947_j66245575574019_1_alg».proof.Proof.Gen.Pre_finite_inputs
import proofs.«113947_j66245575574019_1_alg».proof.Proof.RefBack
import proofs.«113947_j66245575574019_1_alg».proof.Proof.KRun
import proofs.«113947_j66245575574019_1_alg».proof.Proof.ChainC
import proofs.«113947_j66245575574019_1_alg».proof.Proof.PreFinite
import Idealize.ShloMosaic.Adequacy
import Idealize.ShloMosaic.Init

set_option maxRecDepth 16384

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Back.run m ρ)

/-- From memories agreeing on the arguments both idealized programs end with the same result array: the reference's
    composed function of the arguments. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.ReferenceIdeal.Read.val_main_v112 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · refine (θ_run Cert.KernelIdeal.defs _ _).mono (fun r h c => ⟨(h c).1.trans ?_, (h c).2⟩)
      (Cert.KernelIdeal.RunValue.run_result (F := Ideal) m ρ)
    obtain ⟨hx0, hx1, hx2⟩ := @Cert.PreFinite.finite_of_pre Cert.Pre_finite_inputs.Gen.facts _ _ _ _ _ _ _ _ _ (hpre c)
    exact Cert.Chain.W12_v96 m ρ c hx0 hx1 hx2
  · refine (θ_run Cert.ReferenceIdeal.defs _ _).mono (fun r h c => ⟨(h c).1.trans ?_, (h c).2⟩)
      (Cert.ReferenceIdeal.Back.run m' ρ')
    obtain ⟨a0, a1, a2, a3, a4, a5, a6, a7, a8⟩ := hagree c
    rw [a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
